-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v42)) (v2 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_v48) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16384x640 : Shape := ⟨3, ![8, 16384, 640]⟩
abbrev S8x16384x3 : Shape := ⟨3, ![8, 16384, 3]⟩
abbrev S640x256 : Shape := ⟨2, ![640, 256]⟩
abbrev S256 : Shape := ⟨1, ![256]⟩
abbrev S256x1 : Shape := ⟨2, ![256, 1]⟩
abbrev S1 : Shape := ⟨1, ![1]⟩
abbrev S640x128 : Shape := ⟨2, ![640, 128]⟩
abbrev S128 : Shape := ⟨1, ![128]⟩
abbrev S_ : Shape := ⟨0, ![]⟩

class Facts : Prop where
  bcast_S_S8x16384x640 : S_.BroadcastsInDim S8x16384x640 (![] : Fin 0 → Fin S8x16384x640.rank)
  reducesTo_S8x16384x640_S_d0_1_2 : S8x16384x640.ReducesTo [0, 1, 2] S_
  h_S_ : 0 < S_.numel
  bcast_S_S8x16384x3 : S_.BroadcastsInDim S8x16384x3 (![] : Fin 0 → Fin S8x16384x3.rank)
  reducesTo_S8x16384x3_S_d0_1_2 : S8x16384x3.ReducesTo [0, 1, 2] S_
  bcast_S_S640x256 : S_.BroadcastsInDim S640x256 (![] : Fin 0 → Fin S640x256.rank)
  reducesTo_S640x256_S_d0_1 : S640x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S640x128 : S_.BroadcastsInDim S640x128 (![] : Fin 0 → Fin S640x128.rank)
  reducesTo_S640x128_S_d0_1 : S640x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S256x1 .f32) (main_arg5 : FVec F S1 .f32) (main_arg6 : FVec F S640x128 .f32) (main_arg7 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1 .f32 := Host.absf main_arg4
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S640x128 .f32 := Host.absf main_arg6
  let main_cst_10 : FVec F S_ .f32 := constant S_ .f32 0x7F800000#32
  let main_v30 : FVec F S640x128 .f32 := broadcastInDim S640x128 ![] bcast_S_S640x128 main_cst_10
  let main_v31 : IVec S640x128 1 := cmpf .olt main_v29 main_v30
  let main_c_11 : IVec S_ 1 := constantI S_ 1 1#1
  let main_v32 : IVec S_ 1 := (fun x v => Host.reduce IntOp.andi x v reducesTo_S640x128_S_d0_1 h_S_) main_v31 main_c_11
  let main_v33 : IVec S_ 1 := andi main_v28 main_v32
  fn_part2 (F := F) main_arg7 main_v33

def fn {F : FTy → Type} [FloatOps F] (main_arg0 : FVec F S8x16384x640 .f32) (main_arg1 : FVec F S8x16384x3 .f32) (main_arg2 : FVec F S640x256 .f32) (main_arg3 : FVec F S256 .f32) (main_arg4 : FVec F S256x1 .f32) (main_arg5 : FVec F S1 .f32) (main_arg6 : FVec F S640x128 .f32) (main_arg7 : FVec F S128 .f32) : IVec S_ 1 :=
  let main_v0 : FVec F S8x16384x640 .f32 := Host.absf main_arg0
  let main_cst : FVec F S_ .f32 := constant S_ .f32 0x7F800000#32
  let main_v1 : FVec F S8x16384x640 .f32 := broadcastInDim S8x16384x640 ![] bcast_S_S8x16384x640 main_cst
  let main_v2 : IVec S8x16384x640 1 := cmpf .olt main_v0 main_v1
  let main_c : IVec S_ 1 := constantI S_ 1 1#1
  let main_v3 : IVec S_ 1 := (fun x v => Host.reduce IntOp.andi x v reducesTo_S8x16384x640_S_d0_1_2 h_S_) main_v2 main_c
  let main_v4 : FVec F S8x16384x3 .f32 := Host.absf main_arg1
  let main_cst_0 : FVec F S_ .f32 := constant S_ .f32 0x7F800000#32
  let main_v5 : FVec F S8x16384x3 .f32 := broadcastInDim S8x16384x3 ![] bcast_S_S8x16384x3 main_cst_0
  let main_v6 : IVec S8x16384x3 1 := cmpf .olt main_v4 main_v5
  let main_c_1 : IVec S_ 1 := constantI S_ 1 1#1
  let main_v7 : IVec S_ 1 := (fun x v => Host.reduce IntOp.andi x v reducesTo_S8x16384x3_S_d0_1_2 h_S_) main_v6 main_c_1
  let main_v8 : IVec S_ 1 := andi main_v3 main_v7
  let main_v9 : FVec F S640x256 .f32 := Host.absf main_arg2
  let main_cst_2 : FVec F S_ .f32 := constant S_ .f32 0x7F800000#32
  let main_v10 : FVec F S640x256 .f32 := broadcastInDim S640x256 ![] bcast_S_S640x256 main_cst_2
  let main_v11 : IVec S640x256 1 := cmpf .olt main_v9 main_v10
  let main_c_3 : IVec S_ 1 := constantI S_ 1 1#1
  let main_v12 : IVec S_ 1 := (fun x v => Host.reduce IntOp.andi x v reducesTo_S640x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S8x16384x640 : Shape := ⟨3, ![8, 16384, 640]⟩
abbrev S8x16384x3 : Shape := ⟨3, ![8, 16384, 3]⟩
abbrev S640x256 : Shape := ⟨2, ![640, 256]⟩
abbrev S256 : Shape := ⟨1, ![256]⟩
abbrev S256x1 : Shape := ⟨2, ![256, 1]⟩
abbrev S1 : Shape := ⟨1, ![1]⟩
abbrev S640x128 : Shape := ⟨2, ![640, 128]⟩
abbrev S128 : Shape := ⟨1, ![128]⟩
abbrev S8x16384x128 : Shape := ⟨3, ![8, 16384, 128]⟩
abbrev S8x16384x1 : Shape := ⟨3, ![8, 16384, 1]⟩
abbrev S1x2048x640 : Shape := ⟨3, ![1, 2048, 640]⟩
abbrev S1x2048x128 : Shape := ⟨3, ![1, 2048, 128]⟩
abbrev S1x2048x1 : Shape := ⟨3, ![1, 2048, 1]⟩
abbrev S2048x640 : Shape := ⟨2, ![2048, 640]⟩
abbrev S2048x256 : Shape := ⟨2, ![2048, 256]⟩
abbrev S1x256 : Shape := ⟨2, ![1, 256]⟩
abbrev S2048x1 : Shape := ⟨2, ![2048, 1]⟩
abbrev S1x1 : Shape := ⟨2, ![1, 1]⟩
abbrev S2048x128 : Shape := ⟨2, ![2048, 128]⟩
abbrev S1x128 : Shape := ⟨2, ![1, 128]⟩
abbrev S8x16384 : Shape := ⟨2, ![8, 16384]⟩
abbrev S_ : Shape := ⟨0, ![]⟩
abbrev S8 : Shape := ⟨1, ![8]⟩
abbrev S8x1 : Shape := ⟨2, ![8, 1]⟩
abbrev S8x16384x2 : Shape := ⟨3, ![8, 16384, 2]⟩

abbrev nBuf : Space → Nat
  | .hbm => 78
  | .vmem => 12
  | .smem => 0
  | _ => 0

abbrev bufTy : (tb : Table) → Fin (tcTables nBuf tb) → BufTy
  | .hbm, ⟨0, _⟩ => ⟨S8x16384x640, .f32⟩
  | .hbm, ⟨1, _⟩ => ⟨S8x16384x3, .f32⟩
  | .hbm, ⟨2, _⟩ => ⟨S640x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S640x128, .f32⟩
  | .hbm, ⟨7, _⟩ => ⟨S128, .f32⟩
  | .hbm, ⟨8, _⟩ => ⟨S8x16384x128, .f32⟩
  | .hbm, ⟨9, _⟩ => ⟨S8x16384x1, .f32⟩
  | .hbm, ⟨10, _⟩ => ⟨S8x16384, .f32⟩
  | .hbm, ⟨11, _⟩ => ⟨S_, .f32⟩
  | .hbm, ⟨12, _⟩ => ⟨S8x16384, .f32⟩
  | .hbm, ⟨13, _⟩ => ⟨S8x16384, .i1⟩
  | .hbm, ⟨14, _⟩ => ⟨S8x16384, .i32⟩
  | .hbm, ⟨15, _⟩ => ⟨S_, .i32⟩
  | .hbm, ⟨16, _⟩ => ⟨S_, .i32⟩
  | .hbm, ⟨17, _⟩ => ⟨S8x16384, .i32⟩
  | .hbm, ⟨18, _⟩ => ⟨S_, .i32⟩
  | .hbm, ⟨19, _⟩ => ⟨S8x16384, .i32⟩
  | .hbm, ⟨20, _⟩ => ⟨S8x16384, .i32⟩
  | .hbm, ⟨21, _⟩ => ⟨S_, .i32⟩
  | .hbm, ⟨22, _⟩ => ⟨S_, .i32⟩
  | .hbm, ⟨23, _⟩ => ⟨S8x16384, .i32⟩
  | .hbm, ⟨24, _⟩ => ⟨S8x16384, .i32⟩
  | .hbm, ⟨25, _⟩ => ⟨S8, .i32⟩
  | .hbm, ⟨26, _⟩ => ⟨S8x1, .i32⟩
  | .hbm, ⟨27, _⟩ => ⟨S_, .f32⟩
  | .hbm, ⟨28, _⟩ => ⟨S8x16384x128, .f32⟩
  | .hbm, ⟨29, _⟩ => ⟨S_, .i32⟩
  | .hbm, ⟨30, _⟩ => ⟨S8x1, .i32⟩
  | .hbm, ⟨31, _⟩ => ⟨S8x1, .i1⟩
  | .hbm, ⟨32, _⟩ => ⟨S_, .i32⟩
  | .hbm, ⟨33, _⟩ => ⟨S8x1, .i32⟩
  | .hbm, ⟨34, _⟩ => ⟨S8x1, .i32⟩
  | .hbm, ⟨35, _⟩ => ⟨S8x1, .i32⟩
  | .hbm, ⟨36, _⟩ => ⟨S_, .i32⟩
  | .hbm, ⟨37, _⟩ => ⟨S8x16384, .i32⟩
  | .hbm, ⟨38, _⟩ => ⟨S8x16384, .i1⟩
  | .hbm, ⟨39, _⟩ => ⟨S_, .i32⟩
  | .hbm, ⟨40, _⟩ => ⟨S8x16384, .i32⟩
  | .hbm, ⟨41, _⟩ => ⟨S8x16384, .i32⟩
  | .hbm, ⟨42, _⟩ => ⟨S8x16384, .i32⟩
  | .hbm, ⟨43, _⟩ => ⟨S8x16384, .i32⟩
  | .hbm, ⟨44, _⟩ => ⟨S8x16384x1, .i32⟩
  | .hbm, ⟨45, _⟩ => ⟨S8x16384x1, .i32⟩
  | .hbm, ⟨46, _⟩ => ⟨S8x16384x2, .i32⟩
  | .hbm, ⟨47, _⟩ => ⟨S8x16384x128, .f32⟩
  | .hbm, ⟨48, _⟩ => ⟨S_, .f32⟩
  | .hbm, ⟨49, _⟩ => ⟨S8x16384x3, .f32⟩
  | .hbm, ⟨50, _⟩ => ⟨S_, .i32⟩
  | .hbm, ⟨51, _⟩ => ⟨S8x1, .i32⟩
  | .hbm, ⟨52, _⟩ => ⟨S8x1, .i1⟩
  | .hbm, ⟨53, _⟩ => ⟨S_, .i32⟩
  | .hbm, ⟨54, _⟩ => ⟨S8x1, .i32⟩
  | .hbm, ⟨55, _⟩ => ⟨S8x1, .i32⟩
  | .hbm, ⟨56, _⟩ => ⟨S8x1, .i32⟩
  | .hbm, ⟨57, _⟩ => ⟨S_, .i32⟩
  | .hbm, ⟨58, _⟩ => ⟨S8x16384, .i32⟩
  | .hbm, ⟨59, _⟩ => ⟨S8x16384, .i1⟩
  | .hbm, ⟨60, _⟩ => ⟨S_, .i32⟩
  | .hbm, ⟨61, _⟩ => ⟨S8x16384, .i32⟩
  | .hbm, ⟨62, _⟩ => ⟨S8x16384, .i32⟩
  | .hbm, ⟨63, _⟩ => ⟨S8x16384, .i32⟩
  | .hbm, ⟨64, _⟩ => ⟨S8x16384, .i32⟩
  | .hbm, ⟨65, _⟩ => ⟨S8x16384x1, .i32⟩
  | .hbm, ⟨66, _⟩ => ⟨S8x16384x1, .i32⟩
  | .hbm, ⟨67, _⟩ => ⟨S8x16384x2, .i32⟩
  | .hbm, ⟨68, _⟩ => ⟨S8x16384x3, .f32⟩
  | .hbm, ⟨69, _⟩ => ⟨S_, .f32⟩
  | .hbm, ⟨70, _⟩ => ⟨S8x16384x3, .f32⟩
  | .hbm, ⟨71, _⟩ => ⟨S8x16384x3, .i1⟩
  | .hbm, ⟨72, _⟩ => ⟨S8x16384x3, .i32⟩
  | .hbm, ⟨73, _⟩ => ⟨S_, .i32⟩
  | .hbm, ⟨74, _⟩ => ⟨S8x16384, .i32⟩
  | .hbm, ⟨75, _⟩ => ⟨S_, .i32⟩
  | .hbm, ⟨76, _⟩ => ⟨S8x16384, .i32⟩
  | .hbm, ⟨77, _⟩ => ⟨S8x16384, .i1⟩
  | .local _ .vmem, ⟨0, _⟩ => ⟨S1x2048x640, .f32⟩
  | .local _ .vmem, ⟨1, _⟩ => ⟨S1x2048x640, .f32⟩
  | .local _ .vmem, ⟨2, _⟩ => ⟨S640x256, .f32⟩
  | .local _ .vmem, ⟨3, _⟩ => ⟨S256, .f32⟩
  | .local _ .vmem, ⟨4, _⟩ => ⟨S256x1, .f32⟩
  | .local _ .vmem, ⟨5, _⟩ => ⟨S1, .f32⟩
  | .local _ .vmem, ⟨6, _⟩ => ⟨S640x128, .f32⟩
  | .local _ .vmem, ⟨7, _⟩ => ⟨S128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x1, .f32⟩
  | .local _ .vmem, ⟨11, _⟩ => ⟨S1x2048x1, .f32⟩
  | _, _ => ⟨S8x16384x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_call0_c : Ref sig .tc := ⟨.hbm, 15, rfl⟩
abbrev main_call0_call0_v0 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_c_2 : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_c_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_c_7 : Ref sig .tc := ⟨.hbm, 50, rfl⟩
abbrev main_v28 : Ref sig .tc := ⟨.hbm, 51, rfl⟩
abbrev main_v29 : Ref sig .tc := ⟨.hbm, 52, rfl⟩
abbrev main_c_8 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_9 : Ref sig .tc := ⟨.hbm, 57, rfl⟩
abbrev main_v33 : Ref sig .tc := ⟨.hbm, 58, rfl⟩
abbrev main_v34 : Ref sig .tc := ⟨.hbm, 59, rfl⟩
abbrev main_c_10 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_11 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_12 : Ref sig .tc := ⟨.hbm, 73, rfl⟩
abbrev main_v46 : Ref sig .tc := ⟨.hbm, 74, rfl⟩
abbrev main_c_13 : Ref sig .tc := ⟨.hbm, 75, rfl⟩
abbrev main_v47 : Ref sig .tc := ⟨.hbm, 76, rfl⟩
abbrev main_v48 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S640x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S640x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  inb_S1x2048x640_S1x2048x640_0_0_0 : ∀ a, (![0, 0, 0] : Fin 3 → Nat) a + S1x2048x640.size a ≤ S1x2048x640.size a
  h_S1x2048x640 : 0 < S1x2048x640.numel
  shapeCasts_S1x2048x640_S2048x640 : S1x2048x640.ShapeCasts S2048x640
  inb_S640x256_S640x256_0_0 : ∀ a, (![0, 0] : Fin 2 → Nat) a + S640x256.size a ≤ S640x256.size a
  h_S640x256 : 0 < S640x256.numel
  bitsLt_bf16_f32 : FTy.bits .bf16 < FTy.bits .f32
  inb_S256_S256_0 : ∀ a, (![0] : Fin 1 → Nat) a + S256.size a ≤ S256.size a
  h_S256 : 0 < S256.numel
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  inb_S640x128_S640x128_0_0 : ∀ a, (![0, 0] : Fin 2 → Nat) a + S640x128.size a ≤ S640x128.size a
  h_S640x128 : 0 < S640x128.numel
  inb_S128_S128_0 : ∀ a, (![0] : Fin 1 → Nat) a + S128.size a ≤ S128.size a
  h_S128 : 0 < S128.numel
  shapeCasts_S256_S1x256 : S256.ShapeCasts S1x256
  broadcasts_S1x256_S2048x256 : S1x256.Broadcasts S2048x256
  shapeCasts_S1_S1x1 : S1.ShapeCasts S1x1
  broadcasts_S1x1_S2048x1 : S1x1.Broadcasts S2048x1
  broadcasts_S2048x1_S2048x640 : S2048x1.Broadcasts S2048x640
  shapeCasts_S128_S1x128 : S128.ShapeCasts S1x128
  broadcasts_S1x128_S2048x128 : S1x128.Broadcasts S2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  shapeCasts_S2048x1_S1x2048x1 : S2048x1.ShapeCasts S1x2048x1
  shapeCasts_S8x16384x1_S8x16384 : S8x16384x1.ShapeCasts S8x16384
  bcast_S_S8x16384 : S_.BroadcastsInDim S8x16384 (![] : Fin 0 → Fin S8x16384.rank)
  natLt_1_32 : 1 < 32
  bcast_S_S_ : S_.BroadcastsInDim S_ (![] : Fin 0 → Fin S_.rank)
  reduceWindows_S8x16384_S8x16384_w1s1p0_0_w16384s1p16383_0 : S8x16384.ReduceWindows (![1, 16384] : Fin 2 → Nat) ![1, 1] ![0, 16383] ![0, 0] S8x16384
  h_S_ : 0 < S_.numel
  bcast_S8_S8x1_0 : S8.BroadcastsInDim S8x1 (![0] : Fin 1 → Fin S8x1.rank)
  bcast_S_S8x16384x128 : S_.BroadcastsInDim S8x16384x128 (![] : Fin 0 → Fin S8x16384x128.rank)
  bcast_S_S8x1 : S_.BroadcastsInDim S8x1 (![] : Fin 0 → Fin S8x1.rank)
  bcast_S8x1_S8x16384_0_1 : S8x1.BroadcastsInDim S8x16384 (![0, 1] : Fin 2 → Fin S8x16384.rank)
  bcast_S8x16384_S8x16384x1_0_1 : S8x16384.BroadcastsInDim S8x16384x1 (![0, 1] : Fin 2 → Fin S8x16384x1.rank)
  concatenates_S8x16384x1_S8x16384x1_S8x16384x2_d2 : Shape.Concatenates [S8x16384x1, S8x16384x1] S8x16384x2 2
  bcast_S_S8x16384x3 : S_.BroadcastsInDim S8x16384x3 (![] : Fin 0 → Fin S8x16384x3.rank)
  reducesTo_S8x16384x3_S8x16384_d2 : S8x16384x3.ReducesTo [2] S8x16384
  dot_S2048x640_S640x256_S2048x256_1_0_0_1_n_n_wf : DotDims.WF S2048x640 S640x256 S2048x256 [1] [0] [0] [1] [] []
  dot_S2048x256_S256x1_S2048x1_1_0_0_1_n_n_wf : DotDims.WF S2048x256 S256x1 S2048x1 [1] [0] [0] [1] [] []
  dot_S2048x640_S640x128_S2048x128_1_0_0_1_n_n_wf : DotDims.WF S2048x640 S640x128 S2048x128 [1] [0] [0] [1] [] []
  scatter_S8x16384x128_S8x16384x2_S8x16384x128_2_01_01_2_wf : ScatterDims.WF S8x16384x128 S8x16384x2 S8x16384x128 [2] [0, 1] [0, 1] 2
  scatter_S8x16384x3_S8x16384x2_S8x16384x3_2_01_01_2_wf : ScatterDims.WF S8x16384x3 S8x16384x2 S8x16384x3 [2] [0, 1] [0, 1] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x640.size a ≤ S8x16384x640.size a
  hwx0_0 : ∀ i : grid0.Coords, EltTy.bits .f32 = 32 ∨ (Rect.block (s := S8x16384x640) S1x2048x640.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S640x256.size a ≤ S640x256.size a
  hwx0_1 : ∀ i : grid0.Coords, EltTy.bits .f32 = 32 ∨ (Rect.block (s := S640x256) S640x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S640x128.size a ≤ S640x128.size a
  hwx0_5 : ∀ i : grid0.Coords, EltTy.bits .f32 = 32 ∨ (Rect.block (s := S640x128) S640x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x128.size a ≤ S8x16384x128.size a
  hwx0_7 : ∀ i : grid0.Coords, EltTy.bits .f32 = 32 ∨ (Rect.block (s := S8x16384x128) S1x2048x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x2048x1.size a ≤ S8x16384x1.size a
  hwx0_8 : ∀ i : grid0.Coords, EltTy.bits .f32 = 32 ∨ (Rect.block (s := S8x16384x1) S1x2048x1.size (cc0_transform_8 i) (hinb0_8 i)).WholeWords (EltTy.packing .f32)

variable [Facts₀]

def dot_S2048x640_S640x256_S2048x256_1_0_0_1_n_n : DotDims S2048x640 S640x256 S2048x256 where
  lhsContracting := [1]
  rhsContracting := [0]
  lhsNonContracting := [0]
  rhsNonContracting := [1]
  lhsBatch := []
  rhsBatch := []
  wf := dot_S2048x640_S640x256_S2048x256_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf
def dot_S2048x640_S640x128_S2048x128_1_0_0_1_n_n : DotDims S2048x640 S640x128 S2048x128 where
  lhsContracting := [1]
  rhsContracting := [0]
  lhsNonContracting := [0]
  rhsNonContracting := [1]
  lhsBatch := []
  rhsBatch := []
  wf := dot_S2048x640_S640x128_S2048x128_1_0_0_1_n_n_wf
def scatter_S8x16384x128_S8x16384x2_S8x16384x128_2_01_01_2 : ScatterDims S8x16384x128 S8x16384x2 S8x16384x128 where
  updateWindowDims := [2]
  insertedWindowDims := [0, 1]
  scatterDimsToOperandDims := [0, 1]
  indexVectorDim := 2
  wf := scatter_S8x16384x128_S8x16384x2_S8x16384x128_2_01_01_2_wf
def scatter_S8x16384x3_S8x16384x2_S8x16384x3_2_01_01_2 : ScatterDims S8x16384x3 S8x16384x2 S8x16384x3 where
  updateWindowDims := [2]
  insertedWindowDims := [0, 1]
  scatterDimsToOperandDims := [0, 1]
  indexVectorDim := 2
  wf := scatter_S8x16384x3_S8x16384x2_S8x16384x3_2_01_01_2_wf

abbrev win0_0 : Pipeline.Window sig grid0 :=
  Pipeline.Window.ofSpec (Memref.whole main_arg0) S1x2048x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S640x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S640x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S1x2048x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S1x2048x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x16384x640 : Shape := ⟨3, ![8, 16384, 640]⟩
abbrev S8x16384x3 : Shape := ⟨3, ![8, 16384, 3]⟩
abbrev S640x256 : Shape := ⟨2, ![640, 256]⟩
abbrev S256 : Shape := ⟨1, ![256]⟩
abbrev S256x1 : Shape := ⟨2, ![256, 1]⟩
abbrev S1 : Shape := ⟨1, ![1]⟩
abbrev S640x128 : Shape := ⟨2, ![640, 128]⟩
abbrev S128 : Shape := ⟨1, ![128]⟩
abbrev S8x16384x256 : Shape := ⟨3, ![8, 16384, 256]⟩
abbrev S1x1x256 : Shape := ⟨3, ![1, 1, 256]⟩
abbrev S_ : Shape := ⟨0, ![]⟩
abbrev S8x16384x1 : Shape := ⟨3, ![8, 16384, 1]⟩
abbrev S1x1x1 : Shape := ⟨3, ![1, 1, 1]⟩
abbrev S8x16384x128 : Shape := ⟨3, ![8, 16384, 128]⟩
abbrev S1x1x128 : Shape := ⟨3, ![1, 1, 128]⟩
abbrev S8x16384 : Shape := ⟨2, ![8, 16384]⟩
abbrev S8 : Shape := ⟨1, ![8]⟩
abbrev S8x1 : Shape := ⟨2, ![8, 1]⟩
abbrev S8x16384x2 : Shape := ⟨3, ![8, 16384, 2]⟩

abbrev nBuf : Space → Nat
  | .hbm => 101
  | .vmem => 0
  | .smem => 0
  | _ => 0

abbrev bufTy : (tb : Table) → Fin (tcTables nBuf tb) → BufTy
  | .hbm, ⟨0, _⟩ => ⟨S8x16384x640, .f32⟩
  | .hbm, ⟨1, _⟩ => ⟨S8x16384x3, .f32⟩
  | .hbm, ⟨2, _⟩ => ⟨S640x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S640x128, .f32⟩
  | .hbm, ⟨7, _⟩ => ⟨S128, .f32⟩
  | .hbm, ⟨8, _⟩ => ⟨S8x16384x256, .f32⟩
  | .hbm, ⟨9, _⟩ => ⟨S1x1x256, .f32⟩
  | .hbm, ⟨10, _⟩ => ⟨S8x16384x256, .f32⟩
  | .hbm, ⟨11, _⟩ => ⟨S8x16384x256, .f32⟩
  | .hbm, ⟨12, _⟩ => ⟨S_, .f32⟩
  | .hbm, ⟨13, _⟩ => ⟨S8x16384x256, .f32⟩
  | .hbm, ⟨14, _⟩ => ⟨S8x16384x256, .f32⟩
  | .hbm, ⟨15, _⟩ => ⟨S8x16384x1, .f32⟩
  | .hbm, ⟨16, _⟩ => ⟨S1x1x1, .f32⟩
  | .hbm, ⟨17, _⟩ => ⟨S8x16384x1, .f32⟩
  | .hbm, ⟨18, _⟩ => ⟨S8x16384x1, .f32⟩
  | .hbm, ⟨19, _⟩ => ⟨S8x16384x1, .f32⟩
  | .hbm, ⟨20, _⟩ => ⟨S8x16384x1, .f32⟩
  | .hbm, ⟨21, _⟩ => ⟨S_, .f32⟩
  | .hbm, ⟨22, _⟩ => ⟨S8x16384x1, .f32⟩
  | .hbm, ⟨23, _⟩ => ⟨S8x16384x1, .f32⟩
  | .hbm, ⟨24, _⟩ => ⟨S_, .f32⟩
  | .hbm, ⟨25, _⟩ => ⟨S8x16384x1, .f32⟩
  | .hbm, ⟨26, _⟩ => ⟨S8x16384x1, .f32⟩
  | .hbm, ⟨27, _⟩ => ⟨S8x16384x640, .f32⟩
  | .hbm, ⟨28, _⟩ => ⟨S8x16384x640, .f32⟩
  | .hbm, ⟨29, _⟩ => ⟨S8x16384x128, .f32⟩
  | .hbm, ⟨30, _⟩ => ⟨S1x1x128, .f32⟩
  | .hbm, ⟨31, _⟩ => ⟨S8x16384x128, .f32⟩
  | .hbm, ⟨32, _⟩ => ⟨S8x16384x128, .f32⟩
  | .hbm, ⟨33, _⟩ => ⟨S8x16384, .f32⟩
  | .hbm, ⟨34, _⟩ => ⟨S_, .f32⟩
  | .hbm, ⟨35, _⟩ => ⟨S8x16384, .f32⟩
  | .hbm, ⟨36, _⟩ => ⟨S8x16384, .i1⟩
  | .hbm, ⟨37, _⟩ => ⟨S8x16384, .i32⟩
  | .hbm, ⟨38, _⟩ => ⟨S_, .i32⟩
  | .hbm, ⟨39, _⟩ => ⟨S_, .i32⟩
  | .hbm, ⟨40, _⟩ => ⟨S8x16384, .i32⟩
  | .hbm, ⟨41, _⟩ => ⟨S_, .i32⟩
  | .hbm, ⟨42, _⟩ => ⟨S8x16384, .i32⟩
  | .hbm, ⟨43, _⟩ => ⟨S8x16384, .i32⟩
  | .hbm, ⟨44, _⟩ => ⟨S_, .i32⟩
  | .hbm, ⟨45, _⟩ => ⟨S_, .i32⟩
  | .hbm, ⟨46, _⟩ => ⟨S8x16384, .i32⟩
  | .hbm, ⟨47, _⟩ => ⟨S8x16384, .i32⟩
  | .hbm, ⟨48, _⟩ => ⟨S8, .i32⟩
  | .hbm, ⟨49, _⟩ => ⟨S8x1, .i32⟩
  | .hbm, ⟨50, _⟩ => ⟨S_, .f32⟩
  | .hbm, ⟨51, _⟩ => ⟨S8x16384x128, .f32⟩
  | .hbm, ⟨52, _⟩ => ⟨S_, .i32⟩
  | .hbm, ⟨53, _⟩ => ⟨S8x1, .i32⟩
  | .hbm, ⟨54, _⟩ => ⟨S8x1, .i1⟩
  | .hbm, ⟨55, _⟩ => ⟨S_, .i32⟩
  | .hbm, ⟨56, _⟩ => ⟨S8x1, .i32⟩
  | .hbm, ⟨57, _⟩ => ⟨S8x1, .i32⟩
  | .hbm, ⟨58, _⟩ => ⟨S8x1, .i32⟩
  | .hbm, ⟨59, _⟩ => ⟨S_, .i32⟩
  | .hbm, ⟨60, _⟩ => ⟨S8x16384, .i32⟩
  | .hbm, ⟨61, _⟩ => ⟨S8x16384, .i1⟩
  | .hbm, ⟨62, _⟩ => ⟨S_, .i32⟩
  | .hbm, ⟨63, _⟩ => ⟨S8x16384, .i32⟩
  | .hbm, ⟨64, _⟩ => ⟨S8x16384, .i32⟩
  | .hbm, ⟨65, _⟩ => ⟨S8x16384, .i32⟩
  | .hbm, ⟨66, _⟩ => ⟨S8x16384, .i32⟩
  | .hbm, ⟨67, _⟩ => ⟨S8x16384x1, .i32⟩
  | .hbm, ⟨68, _⟩ => ⟨S8x16384x1, .i32⟩
  | .hbm, ⟨69, _⟩ => ⟨S8x16384x2, .i32⟩
  | .hbm, ⟨70, _⟩ => ⟨S8x16384x128, .f32⟩
  | .hbm, ⟨71, _⟩ => ⟨S_, .f32⟩
  | .hbm, ⟨72, _⟩ => ⟨S8x16384x3, .f32⟩
  | .hbm, ⟨73, _⟩ => ⟨S_, .i32⟩
  | .hbm, ⟨74, _⟩ => ⟨S8x1, .i32⟩
  | .hbm, ⟨75, _⟩ => ⟨S8x1, .i1⟩
  | .hbm, ⟨76, _⟩ => ⟨S_, .i32⟩
  | .hbm, ⟨77, _⟩ => ⟨S8x1, .i32⟩
  | .hbm, ⟨78, _⟩ => ⟨S8x1, .i32⟩
  | .hbm, ⟨79, _⟩ => ⟨S8x1, .i32⟩
  | .hbm, ⟨80, _⟩ => ⟨S_, .i32⟩
  | .hbm, ⟨81, _⟩ => ⟨S8x16384, .i32⟩
  | .hbm, ⟨82, _⟩ => ⟨S8x16384, .i1⟩
  | .hbm, ⟨83, _⟩ => ⟨S_, .i32⟩
  | .hbm, ⟨84, _⟩ => ⟨S8x16384, .i32⟩
  | .hbm, ⟨85, _⟩ => ⟨S8x16384, .i32⟩
  | .hbm, ⟨86, _⟩ => ⟨S8x16384, .i32⟩
  | .hbm, ⟨87, _⟩ => ⟨S8x16384, .i32⟩
  | .hbm, ⟨88, _⟩ => ⟨S8x16384x1, .i32⟩
  | .hbm, ⟨89, _⟩ => ⟨S8x16384x1, .i32⟩
  | .hbm, ⟨90, _⟩ => ⟨S8x16384x2, .i32⟩
  | .hbm, ⟨91, _⟩ => ⟨S8x16384x3, .f32⟩
  | .hbm, ⟨92, _⟩ => ⟨S_, .f32⟩
  | .hbm, ⟨93, _⟩ => ⟨S8x16384x3, .f32⟩
  | .hbm, ⟨94, _⟩ => ⟨S8x16384x3, .i1⟩
  | .hbm, ⟨95, _⟩ => ⟨S8x16384x3, .i32⟩
  | .hbm, ⟨96, _⟩ => ⟨S_, .i32⟩
  | .hbm, ⟨97, _⟩ => ⟨S8x16384, .i32⟩
  | .hbm, ⟨98, _⟩ => ⟨S_, .i32⟩
  | .hbm, ⟨99, _⟩ => ⟨S8x16384, .i32⟩
  | .hbm, ⟨100, _⟩ => ⟨S8x16384, .i1⟩
  | _, _ => ⟨S8x16384x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call1_call0_c : Ref sig .tc := ⟨.hbm, 38, rfl⟩
abbrev main_call1_call0_v0 : Ref sig .tc := ⟨.hbm, 39, rfl⟩
abbrev main_v25 : Ref sig .tc := ⟨.hbm, 40, rfl⟩
abbrev main_c : Ref sig .tc := ⟨.hbm, 41, rfl⟩
abbrev main_v26 : Ref sig .tc := ⟨.hbm, 42, rfl⟩
abbrev main_v27 : Ref sig .tc := ⟨.hbm, 43, rfl⟩
abbrev main_c_2 : Ref sig .tc := ⟨.hbm, 44, rfl⟩
abbrev main_call2_v0 : Ref sig .tc := ⟨.hbm, 45, rfl⟩
abbrev main_call2_v1 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_c_4 : Ref sig .tc := ⟨.hbm, 52, rfl⟩
abbrev main_v32 : Ref sig .tc := ⟨.hbm, 53, rfl⟩
abbrev main_v33 : Ref sig .tc := ⟨.hbm, 54, rfl⟩
abbrev main_c_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_6 : Ref sig .tc := ⟨.hbm, 59, rfl⟩
abbrev main_v37 : Ref sig .tc := ⟨.hbm, 60, rfl⟩
abbrev main_v38 : Ref sig .tc := ⟨.hbm, 61, rfl⟩
abbrev main_c_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_c_9 : Ref sig .tc := ⟨.hbm, 73, rfl⟩
abbrev main_v48 : Ref sig .tc := ⟨.hbm, 74, rfl⟩
abbrev main_v49 : Ref sig .tc := ⟨.hbm, 75, rfl⟩
abbrev main_c_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_c_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_13 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S8x16384x256_0_1_2 : S1x1x256.BroadcastsInDim S8x16384x256 (![0, 1, 2] : Fin 3 → Fin S8x16384x256.rank)
  bcast_S_S8x16384x256 : S_.BroadcastsInDim S8x16384x256 (![] : Fin 0 → Fin S8x16384x256.rank)
  bcast_S1_S1x1x1_2 : S1.BroadcastsInDim S1x1x1 (![2] : Fin 1 → Fin S1x1x1.rank)
  bcast_S1x1x1_S8x16384x1_0_1_2 : S1x1x1.BroadcastsInDim S8x16384x1 (![0, 1, 2] : Fin 3 → Fin S8x16384x1.rank)
  bcast_S_S8x16384x1 : S_.BroadcastsInDim S8x16384x1 (![] : Fin 0 → Fin S8x16384x1.rank)
  bcast_S8x16384x1_S8x16384x640_0_1_2 : S8x16384x1.BroadcastsInDim S8x16384x640 (![0, 1, 2] : Fin 3 → Fin S8x16384x640.rank)
  bcast_S128_S1x1x128_2 : S128.BroadcastsInDim S1x1x128 (![2] : Fin 1 → Fin S1x1x128.rank)
  bcast_S1x1x128_S8x16384x128_0_1_2 : S1x1x128.BroadcastsInDim S8x16384x128 (![0, 1, 2] : Fin 3 → Fin S8x16384x128.rank)
  shapeCasts_S8x16384x1_S8x16384 : S8x16384x1.ShapeCasts S8x16384
  bcast_S_S8x16384 : S_.BroadcastsInDim S8x16384 (![] : Fin 0 → Fin S8x16384.rank)
  natLt_1_32 : 1 < 32
  bcast_S_S_ : S_.BroadcastsInDim S_ (![] : Fin 0 → Fin S_.rank)
  reduceWindows_S8x16384_S8x16384_w1s1p0_0_w16384s1p16383_0 : S8x16384.ReduceWindows (![1, 16384] : Fin 2 → Nat) ![1, 1] ![0, 16383] ![0, 0] S8x16384
  h_S_ : 0 < S_.numel
  bcast_S8_S8x1_0 : S8.BroadcastsInDim S8x1 (![0] : Fin 1 → Fin S8x1.rank)
  bcast_S_S8x16384x128 : S_.BroadcastsInDim S8x16384x128 (![] : Fin 0 → Fin S8x16384x128.rank)
  bcast_S_S8x1 : S_.BroadcastsInDim S8x1 (![] : Fin 0 → Fin S8x1.rank)
  bcast_S8x1_S8x16384_0_1 : S8x1.BroadcastsInDim S8x16384 (![0, 1] : Fin 2 → Fin S8x16384.rank)
  bcast_S8x16384_S8x16384x1_0_1 : S8x16384.BroadcastsInDim S8x16384x1 (![0, 1] : Fin 2 → Fin S8x16384x1.rank)
  concatenates_S8x16384x1_S8x16384x1_S8x16384x2_d2 : Shape.Concatenates [S8x16384x1, S8x16384x1] S8x16384x2 2
  bcast_S_S8x16384x3 : S_.BroadcastsInDim S8x16384x3 (![] : Fin 0 → Fin S8x16384x3.rank)
  reducesTo_S8x16384x3_S8x16384_d2 : S8x16384x3.ReducesTo [2] S8x16384
  dot_S8x16384x640_S640x256_S8x16384x256_2_0_01_1_n_n_wf : DotDims.WF S8x16384x640 S640x256 S8x16384x256 [2] [0] [0, 1] [1] [] []
  dot_S8x16384x256_S256x1_S8x16384x1_2_0_01_1_n_n_wf : DotDims.WF S8x16384x256 S256x1 S8x16384x1 [2] [0] [0, 1] [1] [] []
  dot_S8x16384x640_S640x128_S8x16384x128_2_0_01_1_n_n_wf : DotDims.WF S8x16384x640 S640x128 S8x16384x128 [2] [0] [0, 1] [1] [] []
  scatter_S8x16384x128_S8x16384x2_S8x16384x128_2_01_01_2_wf : ScatterDims.WF S8x16384x128 S8x16384x2 S8x16384x128 [2] [0, 1] [0, 1] 2
  scatter_S8x16384x3_S8x16384x2_S8x16384x3_2_01_01_2_wf : ScatterDims.WF S8x16384x3 S8x16384x2 S8x16384x3 [2] [0, 1] [0, 1] 2

variable [Facts₀]

def dot_S8x16384x640_S640x256_S8x16384x256_2_0_01_1_n_n : DotDims S8x16384x640 S640x256 S8x16384x256 where
  lhsContracting := [2]
  rhsContracting := [0]
  lhsNonContracting := [0, 1]
  rhsNonContracting := [1]
  lhsBatch := []
  rhsBatch := []
  wf := dot_S8x16384x640_S640x256_S8x16384x256_2_0_01_1_n_n_wf
def dot_S8x16384x256_S256x1_S8x16384x1_2_0_01_1_n_n : DotDims S8x16384x256 S256x1 S8x16384x1 where
  lhsContracting := [2]
  rhsContracting := [0]
  lhsNonContracting := [0, 1]
  rhsNonContracting := [1]
  lhsBatch := []
  rhsBatch := []
  wf := dot_S8x16384x256_S256x1_S8x16384x1_2_0_01_1_n_n_wf
def dot_S8x16384x640_S640x128_S8x16384x128_2_0_01_1_n_n : DotDims S8x16384x640 S640x128 S8x16384x128 where
  lhsContracting := [2]
  rhsContracting := [0]
  lhsNonContracting := [0, 1]
  rhsNonContracting := [1]
  lhsBatch := []
  rhsBatch := []
  wf := dot_S8x16384x640_S640x128_S8x16384x128_2_0_01_1_n_n_wf
def scatter_S8x16384x128_S8x16384x2_S8x16384x128_2_01_01_2 : ScatterDims S8x16384x128 S8x16384x2 S8x16384x128 where
  updateWindowDims := [2]
  insertedWindowDims := [0, 1]
  scatterDimsToOperandDims := [0, 1]
  indexVectorDim := 2
  wf := scatter_S8x16384x128_S8x16384x2_S8x16384x128_2_01_01_2_wf
def scatter_S8x16384x3_S8x16384x2_S8x16384x3_2_01_01_2 : ScatterDims S8x16384x3 S8x16384x2 S8x16384x3 where
  updateWindowDims := [2]
  insertedWindowDims := [0, 1]
  scatterDimsToOperandDims := [0, 1]
  indexVectorDim := 2
  wf := scatter_S8x16384x3_S8x16384x2_S8x16384x3_2_01_01_2_wf

class Facts : Prop extends Facts₀ where

variable [Facts]
-- ==== Proof.KFrame.lean ====
/-
  The frame of the kernel's program as printed: one region over an 8 × 8 grid followed by host operations.

  At grid point (b, n) the body loads one block of 2048 rows of batch b of the feature array together with the whole
  weight and bias arrays, and stores one block of 2048 rows of each of its two results (the projected features and the
  scores); it writes nothing else, and it reads its result buffers' old contents without using them. Hence at every
  point each input's staging buffer holds the block of its array (fetched there, or left in place since the first
  point for the weights, whose block never moves), and each result's buffer ends at the payload of the loaded blocks.
  The host operations after the region each write a buffer of their own, never an array the region stages, so the
  library's theorem for a region continued by host lines applies, and its post read at the argument arrays is the
  frame claim: seven arguments are staged inputs (unchanged by the region), the coordinate array bypasses the region
  and no later operation writes it. Everything is stated for an arbitrary float instance.
-/
import proofs.«161362_j33285996544161_1_alg».proof.Proof.Gen.Kernel.Launch
import proofs.«161362_j33285996544161_1_alg».proof.Proof.Gen.Kernel.Skeleton
import proofs.«161362_j33285996544161_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region

  The program is the region followed by five stretches of host operations (the thresholding of the scores, the running
  count of selected points, the destination slots, the two scatters and the mask). No host operation precedes the
  region, so the region finds every buffer as launched. -/

/-- The host operations after the region, stretch by stretch. -/
abbrev tailOpss : List (List (HloOp τ sig (Elt F))) := [hostOps1, hostOps1_1, hostOps1_2, hostOps1_3, hostOps1_4]

/-- Core `c`'s buffer contents when the region is entered: the launch contents. -/
abbrev V0 (c : Dev nD) : Valuation τ sig (Elt F) := StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The program reduces to the region continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main [] tailOpss trivial trivial main_chain

/-- No later operation writes an array the region's windows stage: each writes its own result buffer. -/
theorem keeps_of {ops : List (HloOp τ sig (Elt F))}
    (h : ops.Forall fun op => ∀ w, Proc.devRef .tc (Pipeline.arrRef spec0 w) ∉ op.writes) :
    ∀ op ∈ ops, ∀ w, Proc.devRef .tc (Pipeline.arrRef spec0 w) ∉ op.writes :=
  List.forall_iff_forall_mem.mp h

theorem hostOps1_keeps : (hostOps1 : List (HloOp τ sig (Elt F))).Forall fun op => ∀ w, Proc.devRef .tc (Pipeline.arrRef spec0 w) ∉ op.writes := by
  simp only [hostOps1, List.Forall]
  repeat' apply And.intro
  all_goals (intro w; simp only [StableHlo.nullary_writes, StableHlo.unary_writes, StableHlo.binary_writes, StableHlo.ternary_writes, StableHlo.quaternary_writes, StableHlo.reshape_writes, StableHlo.binaryIndexed_writes, Finset.mem_singleton]; refine StableHlo.devRef_ne_of_ne ?_; revert w; decide)

theorem hostOps1_1_keeps : (hostOps1_1 : List (HloOp τ sig (Elt F))).Forall fun op => ∀ w, Proc.devRef .tc (Pipeline.arrRef spec0 w) ∉ op.writes := by
  simp only [hostOps1_1, List.Forall]
  repeat' apply And.intro
  all_goals (intro w; simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]; refine StableHlo.devRef_ne_of_ne ?_; revert w; decide)
theorem hostOps1_2_keeps : (hostOps1_2 : List (HloOp τ sig (Elt F))).Forall fun op => ∀ w, Proc.devRef .tc (Pipeline.arrRef spec0 w) ∉ op.writes := by
  simp only [hostOps1_2, List.Forall]
  repeat' apply And.intro
  all_goals (intro w; simp only [StableHlo.nullary_writes, StableHlo.unary_writes, StableHlo.binary_writes, StableHlo.ternary_writes, StableHlo.quaternary_writes, StableHlo.reshape_writes, StableHlo.binaryIndexed_writes, Finset.mem_singleton]; refine StableHlo.devRef_ne_of_ne ?_; revert w; decide)
theorem hostOps1_3_keeps : (hostOps1_3 : List (HloOp τ sig (Elt F))).Forall fun op => ∀ w, Proc.devRef .tc (Pipeline.arrRef spec0 w) ∉ op.writes := by
  simp only [hostOps1_3, List.Forall]
  repeat' apply And.intro
  all_goals (intro w; simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]; refine StableHlo.devRef_ne_of_ne ?_; revert w; decide)
theorem hostOps1_4_keeps : (hostOps1_4 : List (HloOp τ sig (Elt F))).Forall fun op => ∀ w, Proc.devRef .tc (Pipeline.arrRef spec0 w) ∉ op.writes := by
  simp only [hostOps1_4, List.Forall]
  repeat' apply And.intro
  all_goals (intro w; simp only [StableHlo.nullary_writes, StableHlo.unary_writes, StableHlo.binary_writes, StableHlo.ternary_writes, StableHlo.quaternary_writes, StableHlo.reshape_writes, StableHlo.binaryIndexed_writes, Finset.mem_singleton]; refine StableHlo.devRef_ne_of_ne ?_; revert w; decide)

/-- The later stretches touch the region's arrays and the bypassing buffers only. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOpss, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem sfx_fresh : ∀ ops ∈ (tailOpss : List (List (HloOp τ sig (Elt F)))), ∀ op ∈ ops, op.fresh = ∅ := by
  intro ops hops op hop
  simp only [tailOpss, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
/-- And write no array of the region. -/
theorem sfx_keeps : ∀ ops ∈ (tailOpss : List (List (HloOp τ sig (Elt F)))), ∀ op ∈ ops,
    ∀ w, Proc.devRef .tc (Pipeline.arrRef spec0 w) ∉ op.writes := by
  intro ops hops op hop
  simp only [tailOpss, List.mem_cons, List.mem_nil_iff, or_false] at hops
  rcases hops with rfl | rfl | rfl | rfl | rfl
  · exact keeps_of hostOps1_keeps op hop
  · exact keeps_of hostOps1_1_keeps op hop
  · exact keeps_of hostOps1_2_keeps op hop
  · exact keeps_of hostOps1_3_keeps op hop
  · exact keeps_of hostOps1_4_keeps op hop

/-- No later operation writes the coordinate array: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOpss c main_arg1 = m ((c : Thread nD τ).loc main_arg1) := by
  unfold Pipeline.afterTail₀
  rw [StableHlo.after_of_forall_not_mem (b := Proc.devRef .tc main_arg1) _ _ (List.forall_iff_forall_mem.mp (by
      simp only [tailOpss, hostOps1, hostOps1_1, hostOps1_2, hostOps1_3, hostOps1_4, List.flatten_cons, List.flatten_nil, List.append_nil, List.cons_append,
        List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- From a run to the library's post, read at the eight argument arrays: a staged argument by `Dat.arrAt_in`, the
    coordinate array (no window stages it) by the post's second clause. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOpss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans (hA c 0)),
      ((h c).2 main_arg1 (Pipeline.mem_restRefs_of main_arg1 (by decide) (by decide))).trans (W_main_arg1 m dats c),
      ((h c).1 1).trans (((dats 0 c).arrAt_in 1 rfl _).trans (hA c 1)),
      ((h c).1 2).trans (((dats 0 c).arrAt_in 2 rfl _).trans (hA c 2)),
      ((h c).1 3).trans (((dats 0 c).arrAt_in 3 rfl _).trans (hA c 3)),
      ((h c).1 4).trans (((dats 0 c).arrAt_in 4 rfl _).trans (hA c 4)),
      ((h c).1 5).trans (((dats 0 c).arrAt_in 5 rfl _).trans (hA c 5)),
      ((h c).1 6).trans (((dats 0 c).arrAt_in 6 rfl _).trans (hA c 6))⟩) h

/-! ## The body's accesses and what it leaves -/

abbrev rI0 : Rect S1x2048x640 := Rect.unit (s := S1x2048x640) ![0, 0, 0] S1x2048x640.size Facts₀.inb_S1x2048x640_S1x2048x640_0_0_0
abbrev rI1 : Rect S640x256 := Rect.unit (s := S640x256) ![0, 0] S640x256.size Facts₀.inb_S640x256_S640x256_0_0
abbrev rI2 : Rect S256 := Rect.unit (s := S256) ![0] S256.size Facts₀.inb_S256_S256_0
abbrev rI3 : Rect S256x1 := Rect.unit (s := S256x1) ![0, 0] S256x1.size Facts₀.inb_S256x1_S256x1_0_0
abbrev rI4 : Rect S1 := Rect.unit (s := S1) ![0] S1.size Facts₀.inb_S1_S1_0
abbrev rI5 : Rect S640x128 := Rect.unit (s := S640x128) ![0, 0] S640x128.size Facts₀.inb_S640x128_S640x128_0_0
abbrev rI6 : Rect S128 := Rect.unit (s := S128) ![0] S128.size Facts₀.inb_S128_S128_0
abbrev rO7 : Rect S1x2048x128 := Rect.unit (s := S1x2048x128) ![0, 0, 0] S1x2048x128.size Facts₀.inb_S1x2048x128_S1x2048x128_0_0_0
abbrev rO8 : Rect S1x2048x1 := Rect.unit (s := S1x2048x1) ![0, 0, 0] S1x2048x1.size Facts₀.inb_S1x2048x1_S1x2048x1_0_0_0

/-- The projected features' staging buffer after the body: its one store, of the feature payload of the seven loads. -/
def out0_7 (x0 : Vec F S1x2048x640 .f32) (x1 : Vec F S640x256 .f32) (x2 : Vec F S256 .f32) (x3 : Vec F S256x1 .f32) (x4 : Vec F S1 .f32) (x5 : Vec F S640x128 .f32) (x6 : Vec F S128 .f32) : Vec F S1x2048x128 .f32 :=
  View.canon [⟨rO7, k0_pay4 (View.ld x0 rI0) (View.ld x1 rI1) (View.ld x2 rI2) (View.ld x3 rI3) (View.ld x4 rI4) (View.ld x5 rI5) (View.ld x6 rI6)⟩]

/-- The scores' staging buffer after the body: its one store, of the score payload of the first five loads. -/
def out0_8 (x0 : Vec F S1x2048x640 .f32) (x1 : Vec F S640x256 .f32) (x2 : Vec F S256 .f32) (x3 : Vec F S256x1 .f32) (x4 : Vec F S1 .f32) : Vec F S1x2048x1 .f32 :=
  View.canon [⟨rO8, k0_pay1 (k0_pay3 (View.ld x0 rI0) (View.ld x1 rI1) (View.ld x2 rI2) (View.ld x3 rI3) (View.ld x4 rI4))⟩]

/-- The one store is of the whole buffer. -/
theorem cover0_7 (p0 : Vec F S1x2048x128 .f32) (y : S1x2048x128.Idx) :
    ∃ pc ∈ ([⟨rO7, p0⟩] : List (View.Piece (Elt F) S1x2048x128 .f32)), y ∈ pc.1.set :=
  View.cover_of_tiled [⟨rO7, p0⟩] S1x2048x128.size (by rfl) y
theorem cover0_8 (p0 : Vec F S1x2048x1 .f32) (y : S1x2048x1.Idx) :
    ∃ pc ∈ ([⟨rO8, p0⟩] : List (View.Piece (Elt F) S1x2048x1 .f32)), y ∈ pc.1.set :=
  View.cover_of_tiled [⟨rO8, p0⟩] S1x2048x1.size (by rfl) y

/-! ## The body's triple -/

set_option maxHeartbeats 4000000 in
/-- The body on whole staging memrefs, the seven inputs' at contents `xW` and the two outputs' at anything, runs to the
    continuation holding the inputs' as they were and each output's at what its store leaves. -/
theorem sound_kernel (c : Dev nD) (E : Set ℕ) (i : grid0.Coords) (arg2 : Memref sig .tc .vmem S1x2048x640 .f32) (harg2 : arg2.IsWhole) (arg3 : Memref sig .tc .vmem S640x256 .f32) (harg3 : arg3.IsWhole) (arg4 : Memref sig .tc .vmem S256 .f32) (harg4 : arg4.IsWhole) (arg5 : Memref sig .tc .vmem S256x1 .f32) (harg5 : arg5.IsWhole) (arg6 : Memref sig .tc .vmem S1 .f32) (harg6 : arg6.IsWhole) (arg7 : Memref sig .tc .vmem S640x128 .f32) (harg7 : arg7.IsWhole) (arg8 : Memref sig .tc .vmem S128 .f32) (harg8 : arg8.IsWhole) (arg9 : Memref sig .tc .vmem S1x2048x128 .f32) (harg9 : arg9.IsWhole) (arg10 : Memref sig .tc .vmem S1x2048x1 .f32) (harg10 : arg10.IsWhole)
    (x0 : Vec F S1x2048x640 .f32) (x1 : Vec F S640x256 .f32) (x2 : Vec F S256 .f32) (x3 : Vec F S256x1 .f32) (x4 : Vec F S1 .f32) (x5 : Vec F S640x128 .f32) (x6 : Vec F S128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 x0 x1 x2 x3 x4 x5 x6) ∗ owns (c : Thread nD τ) arg10 fullShare (out0_8 x0 x1 x2 x3 x4)) -∗ K ⟨⟩))
      ⊢ wp frame (wpE (defs₀ (F := F)) Variants.none c none) E (cc0__mlp_score_proj_kernel i arg2 harg2 arg3 harg3 arg4 harg4 arg5 harg5 arg6 harg6 arg7 harg7 arg8 harg8 arg9 harg9 arg10 harg10) K := by
  simp only [cc0__mlp_score_proj_kernel_eq_skeleton]; unfold cc0__mlp_score_proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover0_7 _)
  iexists _; isplitr
  swap; · iexact H8
  ipureintro
  try dsimp only
  exact View.read_writes_eq_canon _ _ _ (cover0_8 _)

/-! ## The region's proof data -/

/-- The proof data of the region on core `c`: the arrays as the region finds them; after the body at point `t` each
    input's buffer at its block, the feature output's at the feature payload of the blocks and the score output's at
    the score payload of the blocks; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
    | ⟨8, _⟩ => out0_8 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]
theorem after0_8 (c : Dev nD) (t : Fin cfg0.N) : (dats m 0 c).after 8 t = out0_8 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every array of the region at what the library computes from the proof data and every other unscoped buffer as the
    later stretches leave it. -/
theorem run_main : θ_run defs (onTc (τ := τ) (main (F := F))) (s₀ m ρ) (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

/-- The frame claim at any float instance: the program runs to the end, faults nowhere, and its eight argument arrays
    end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Fr

end
-- ==== Proof.KIFrame.lean ====
/-
  The frame of the idealized kernel's program: one region over an 8 × 8 grid followed by host operations.

  At grid point (b, n) the body loads one block of 2048 rows of batch b of the feature array together with the whole
  weight and bias arrays, and stores one block of 2048 rows of each of its two results (the projected features and the
  scores); it writes nothing else, and it reads its result buffers' old contents without using them. Hence at every
  point each input's staging buffer holds the block of its array (fetched there, or left in place since the first
  point for the weights, whose block never moves), and each result's buffer ends at the payload of the loaded blocks.
  The host operations after the region each write a buffer of their own, never an array the region stages, so the
  library's theorem for a region continued by host lines applies, and its post read at the argument arrays is the
  frame claim: seven arguments are staged inputs (unchanged by the region), the coordinate array bypasses the region
  and no later operation writes it. Everything is stated for an arbitrary float instance.
-/
import proofs.«161362_j33285996544161_1_alg».proof.Proof.Gen.KernelIdeal.Launch
import proofs.«161362_j33285996544161_1_alg».proof.Proof.Gen.KernelIdeal.Skeleton
import proofs.«161362_j33285996544161_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region

  The program is the region followed by five stretches of host operations (the thresholding of the scores, the running
  count of selected points, the destination slots, the two scatters and the mask). No host operation precedes the
  region, so the region finds every buffer as launched. -/

/-- The host operations after the region, stretch by stretch. -/
abbrev tailOpss : List (List (HloOp τ sig (Elt F))) := [hostOps1, hostOps1_1, hostOps1_2, hostOps1_3, hostOps1_4]

/-- Core `c`'s buffer contents when the region is entered: the launch contents. -/
abbrev V0 (c : Dev nD) : Valuation τ sig (Elt F) := StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- The program reduces to the region continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main [] tailOpss trivial trivial main_chain

/-- No later operation writes an array the region's windows stage: each writes its own result buffer. -/
theorem keeps_of {ops : List (HloOp τ sig (Elt F))}
    (h : ops.Forall fun op => ∀ w, Proc.devRef .tc (Pipeline.arrRef spec0 w) ∉ op.writes) :
    ∀ op ∈ ops, ∀ w, Proc.devRef .tc (Pipeline.arrRef spec0 w) ∉ op.writes :=
  List.forall_iff_forall_mem.mp h

theorem hostOps1_keeps : (hostOps1 : List (HloOp τ sig (Elt F))).Forall fun op => ∀ w, Proc.devRef .tc (Pipeline.arrRef spec0 w) ∉ op.writes := by
  simp only [hostOps1, List.Forall]
  repeat' apply And.intro
  all_goals (intro w; simp only [StableHlo.nullary_writes, StableHlo.unary_writes, StableHlo.binary_writes, StableHlo.ternary_writes, StableHlo.quaternary_writes, StableHlo.reshape_writes, StableHlo.binaryIndexed_writes, Finset.mem_singleton]; refine StableHlo.devRef_ne_of_ne ?_; revert w; decide)

theorem hostOps1_1_keeps : (hostOps1_1 : List (HloOp τ sig (Elt F))).Forall fun op => ∀ w, Proc.devRef .tc (Pipeline.arrRef spec0 w) ∉ op.writes := by
  simp only [hostOps1_1, List.Forall]
  repeat' apply And.intro
  all_goals (intro w; simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]; refine StableHlo.devRef_ne_of_ne ?_; revert w; decide)
theorem hostOps1_2_keeps : (hostOps1_2 : List (HloOp τ sig (Elt F))).Forall fun op => ∀ w, Proc.devRef .tc (Pipeline.arrRef spec0 w) ∉ op.writes := by
  simp only [hostOps1_2, List.Forall]
  repeat' apply And.intro
  all_goals (intro w; simp only [StableHlo.nullary_writes, StableHlo.unary_writes, StableHlo.binary_writes, StableHlo.ternary_writes, StableHlo.quaternary_writes, StableHlo.reshape_writes, StableHlo.binaryIndexed_writes, Finset.mem_singleton]; refine StableHlo.devRef_ne_of_ne ?_; revert w; decide)
theorem hostOps1_3_keeps : (hostOps1_3 : List (HloOp τ sig (Elt F))).Forall fun op => ∀ w, Proc.devRef .tc (Pipeline.arrRef spec0 w) ∉ op.writes := by
  simp only [hostOps1_3, List.Forall]
  repeat' apply And.intro
  all_goals (intro w; simp only [StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]; refine StableHlo.devRef_ne_of_ne ?_; revert w; decide)
theorem hostOps1_4_keeps : (hostOps1_4 : List (HloOp τ sig (Elt F))).Forall fun op => ∀ w, Proc.devRef .tc (Pipeline.arrRef spec0 w) ∉ op.writes := by
  simp only [hostOps1_4, List.Forall]
  repeat' apply And.intro
  all_goals (intro w; simp only [StableHlo.nullary_writes, StableHlo.unary_writes, StableHlo.binary_writes, StableHlo.ternary_writes, StableHlo.quaternary_writes, StableHlo.reshape_writes, StableHlo.binaryIndexed_writes, Finset.mem_singleton]; refine StableHlo.devRef_ne_of_ne ?_; revert w; decide)

/-- The later stretches touch the region's arrays and the bypassing buffers only. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOpss, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
/-- They allocate nothing. -/
theorem sfx_fresh : ∀ ops ∈ (tailOpss : List (List (HloOp τ sig (Elt F)))), ∀ op ∈ ops, op.fresh = ∅ := by
  intro ops hops op hop
  simp only [tailOpss, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
/-- And write no array of the region. -/
theorem sfx_keeps : ∀ ops ∈ (tailOpss : List (List (HloOp τ sig (Elt F)))), ∀ op ∈ ops,
    ∀ w, Proc.devRef .tc (Pipeline.arrRef spec0 w) ∉ op.writes := by
  intro ops hops op hop
  simp only [tailOpss, List.mem_cons, List.mem_nil_iff, or_false] at hops
  rcases hops with rfl | rfl | rfl | rfl | rfl
  · exact keeps_of hostOps1_keeps op hop
  · exact keeps_of hostOps1_1_keeps op hop
  · exact keeps_of hostOps1_2_keeps op hop
  · exact keeps_of hostOps1_3_keeps op hop
  · exact keeps_of hostOps1_4_keeps op hop

/-- No later operation writes the coordinate array: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOpss c main_arg1 = m ((c : Thread nD τ).loc main_arg1) := by
  unfold Pipeline.afterTail₀
  rw [StableHlo.after_of_forall_not_mem (b := Proc.devRef .tc main_arg1) _ _ (List.forall_iff_forall_mem.mp (by
      simp only [tailOpss, hostOps1, hostOps1_1, hostOps1_2, hostOps1_3, hostOps1_4, List.flatten_cons, List.flatten_nil, List.append_nil, List.cons_append,
        List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- From a run to the library's post, read at the eight argument arrays: a staged argument by `Dat.arrAt_in`, the
    coordinate array (no window stages it) by the post's second clause. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOpss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans (hA c 0)),
      ((h c).2 main_arg1 (Pipeline.mem_restRefs_of main_arg1 (by decide) (by decide))).trans (W_main_arg1 m dats c),
      ((h c).1 1).trans (((dats 0 c).arrAt_in 1 rfl _).trans (hA c 1)),
      ((h c).1 2).trans (((dats 0 c).arrAt_in 2 rfl _).trans (hA c 2)),
      ((h c).1 3).trans (((dats 0 c).arrAt_in 3 rfl _).trans (hA c 3)),
      ((h c).1 4).trans (((dats 0 c).arrAt_in 4 rfl _).trans (hA c 4)),
      ((h c).1 5).trans (((dats 0 c).arrAt_in 5 rfl _).trans (hA c 5)),
      ((h c).1 6).trans (((dats 0 c).arrAt_in 6 rfl _).trans (hA c 6))⟩) h

/-! ## The body's accesses and what it leaves -/

abbrev rI0 : Rect S1x2048x640 := Rect.unit (s := S1x2048x640) ![0, 0, 0] S1x2048x640.size Facts₀.inb_S1x2048x640_S1x2048x640_0_0_0
abbrev rI1 : Rect S640x256 := Rect.unit (s := S640x256) ![0, 0] S640x256.size Facts₀.inb_S640x256_S640x256_0_0
abbrev rI2 : Rect S256 := Rect.unit (s := S256) ![0] S256.size Facts₀.inb_S256_S256_0
abbrev rI3 : Rect S256x1 := Rect.unit (s := S256x1) ![0, 0] S256x1.size Facts₀.inb_S256x1_S256x1_0_0
abbrev rI4 : Rect S1 := Rect.unit (s := S1) ![0] S1.size Facts₀.inb_S1_S1_0
abbrev rI5 : Rect S640x128 := Rect.unit (s := S640x128) ![0, 0] S640x128.size Facts₀.inb_S640x128_S640x128_0_0
abbrev rI6 : Rect S128 := Rect.unit (s := S128) ![0] S128.size Facts₀.inb_S128_S128_0
abbrev rO7 : Rect S1x2048x128 := Rect.unit (s := S1x2048x128) ![0, 0, 0] S1x2048x128.size Facts₀.inb_S1x2048x128_S1x2048x128_0_0_0
abbrev rO8 : Rect S1x2048x1 := Rect.unit (s := S1x2048x1) ![0, 0, 0] S1x2048x1.size Facts₀.inb_S1x2048x1_S1x2048x1_0_0_0

/-- The projected features' staging buffer after the body: its one store, of the feature payload of the seven loads. -/
def out0_7 (x0 : Vec F S1x2048x640 .f32) (x1 : Vec F S640x256 .f32) (x2 : Vec F S256 .f32) (x3 : Vec F S256x1 .f32) (x4 : Vec F S1 .f32) (x5 : Vec F S640x128 .f32) (x6 : Vec F S128 .f32) : Vec F S1x2048x128 .f32 :=
  View.canon [⟨rO7, k0_pay4 (View.ld x0 rI0) (View.ld x1 rI1) (View.ld x2 rI2) (View.ld x3 rI3) (View.ld x4 rI4) (View.ld x5 rI5) (View.ld x6 rI6)⟩]

/-- The scores' staging buffer after the body: its one store, of the score payload of the first five loads. -/
def out0_8 (x0 : Vec F S1x2048x640 .f32) (x1 : Vec F S640x256 .f32) (x2 : Vec F S256 .f32) (x3 : Vec F S256x1 .f32) (x4 : Vec F S1 .f32) : Vec F S1x2048x1 .f32 :=
  View.canon [⟨rO8, k0_pay1 (k0_pay3 (View.ld x0 rI0) (View.ld x1 rI1) (View.ld x2 rI2) (View.ld x3 rI3) (View.ld x4 rI4))⟩]

/-- The one store is of the whole buffer. -/
theorem cover0_7 (p0 : Vec F S1x2048x128 .f32) (y : S1x2048x128.Idx) :
    ∃ pc ∈ ([⟨rO7, p0⟩] : List (View.Piece (Elt F) S1x2048x128 .f32)), y ∈ pc.1.set :=
  View.cover_of_tiled [⟨rO7, p0⟩] S1x2048x128.size (by rfl) y
theorem cover0_8 (p0 : Vec F S1x2048x1 .f32) (y : S1x2048x1.Idx) :
    ∃ pc ∈ ([⟨rO8, p0⟩] : List (View.Piece (Elt F) S1x2048x1 .f32)), y ∈ pc.1.set :=
  View.cover_of_tiled [⟨rO8, p0⟩] S1x2048x1.size (by rfl) y

/-! ## The body's triple -/

set_option maxHeartbeats 4000000 in
/-- The body on whole staging memrefs, the seven inputs' at contents `xW` and the two outputs' at anything, runs to the
    continuation holding the inputs' as they were and each output's at what its store leaves. -/
theorem sound_kernel (c : Dev nD) (E : Set ℕ) (i : grid0.Coords) (arg2 : Memref sig .tc .vmem S1x2048x640 .f32) (harg2 : arg2.IsWhole) (arg3 : Memref sig .tc .vmem S640x256 .f32) (harg3 : arg3.IsWhole) (arg4 : Memref sig .tc .vmem S256 .f32) (harg4 : arg4.IsWhole) (arg5 : Memref sig .tc .vmem S256x1 .f32) (harg5 : arg5.IsWhole) (arg6 : Memref sig .tc .vmem S1 .f32) (harg6 : arg6.IsWhole) (arg7 : Memref sig .tc .vmem S640x128 .f32) (harg7 : arg7.IsWhole) (arg8 : Memref sig .tc .vmem S128 .f32) (harg8 : arg8.IsWhole) (arg9 : Memref sig .tc .vmem S1x2048x128 .f32) (harg9 : arg9.IsWhole) (arg10 : Memref sig .tc .vmem S1x2048x1 .f32) (harg10 : arg10.IsWhole)
    (x0 : Vec F S1x2048x640 .f32) (x1 : Vec F S640x256 .f32) (x2 : Vec F S256 .f32) (x3 : Vec F S256x1 .f32) (x4 : Vec F S1 .f32) (x5 : Vec F S640x128 .f32) (x6 : Vec F S128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 x0 x1 x2 x3 x4 x5 x6) ∗ owns (c : Thread nD τ) arg10 fullShare (out0_8 x0 x1 x2 x3 x4)) -∗ K ⟨⟩))
      ⊢ wp frame (wpE (defs₀ (F := F)) Variants.none c none) E (cc0__mlp_score_proj_kernel i arg2 harg2 arg3 harg3 arg4 harg4 arg5 harg5 arg6 harg6 arg7 harg7 arg8 harg8 arg9 harg9 arg10 harg10) K := by
  simp only [cc0__mlp_score_proj_kernel_eq_skeleton]; unfold cc0__mlp_score_proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover0_7 _)
  iexists _; isplitr
  swap; · iexact H8
  ipureintro
  try dsimp only
  exact View.read_writes_eq_canon _ _ _ (cover0_8 _)

/-! ## The region's proof data -/

/-- The proof data of the region on core `c`: the arrays as the region finds them; after the body at point `t` each
    input's buffer at its block, the feature output's at the feature payload of the blocks and the score output's at
    the score payload of the blocks; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
    | ⟨8, _⟩ => out0_8 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]
theorem after0_8 (c : Dev nD) (t : Fin cfg0.N) : (dats m 0 c).after 8 t = out0_8 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every array of the region at what the library computes from the proof data and every other unscoped buffer as the
    later stretches leave it. -/
theorem run_main : θ_run defs (onTc (τ := τ) (main (F := F))) (s₀ m ρ) (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

/-- The frame claim at any float instance: the program runs to the end, faults nowhere, and its eight argument arrays
    end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Fr

end
-- ==== Proof.KIOut.lean ====
/-
  The idealized kernel's run read at its three results.

  After the region the feature and score arrays hold what the body's blocks leave, and every other buffer is as
  launched; the program's results are what the 68 later host operations compute from those contents. The three
  results are stated as that fold of operations over the contents `WK`, which holds the feature array, the score
  array and the launched coordinate array at their buffers; the fold itself is never opened here.
-/
import proofs.«161362_j33285996544161_1_alg».proof.Proof.KIFrame
import Idealize.ShloMosaic.PureOps.Ideal

set_option maxRecDepth 16384

noncomputable section

namespace Cert.KernelIdeal.Out

open Cert.KernelIdeal Cert.KernelIdeal.Gen Cert.KernelIdeal.Fr
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Core `c`'s buffer contents when the region is left: the region's arrays at what the proof data computes, every other
    buffer as launched. The later host operations start from these. -/
def WK (c : Dev nD) : Valuation τ sig (Elt Ideal) :=
  Pipeline.withArrays spec0 c (V0 m c) fun w => (dats m 0 c).arrAt w cfg0.N

/-- The feature result of the region sits at its buffer. -/
theorem WK_feats (c : Dev nD) : WK m c (Proc.devRef .tc main_v0_0) = (dats m 0 c).arrAt 7 cfg0.N :=
  Pipeline.withArrays_arr spec0 launch0.win.arr_inj c _ _ 7
/-- The score result of the region sits at its buffer. -/
theorem WK_scores (c : Dev nD) : WK m c (Proc.devRef .tc main_v0_1) = (dats m 0 c).arrAt 8 cfg0.N :=
  Pipeline.withArrays_arr spec0 launch0.win.arr_inj c _ _ 8
/-- The coordinate array, which no window stages, is as launched. -/
theorem WK_coords (c : Dev nD) : WK m c (Proc.devRef .tc main_arg1) = m ((c.tc : Thread nD τ).loc main_arg1) :=
  Pipeline.withArrays_of_ne _ c (V0 m c) _ main_arg1 (by exact (by decide : ∀ w, Pipeline.arrRef spec0 w ≠ main_arg1))

/-- Every weakly fair execution terminates with the three results at the later host operations' fold over `WK` and the
    eight arguments as launched. -/
theorem run_out : θ_run defs (onTc (τ := τ) (main (F := Ideal))) ⟨m, fun _ => 0, ρ⟩ (fun r => ∀ c : Dev nD,
      r.2.mem ((c.tc : Thread nD τ).loc main_v26) = StableHlo.after (tailOpss (F := Ideal)).flatten (WK m c) (Proc.devRef .tc main_v26)
      ∧ r.2.mem ((c.tc : Thread nD τ).loc main_v42) = StableHlo.after (tailOpss (F := Ideal)).flatten (WK m c) (Proc.devRef .tc main_v42)
      ∧ r.2.mem ((c.tc : Thread nD τ).loc main_v48) = StableHlo.after (tailOpss (F := Ideal)).flatten (WK m c) (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).2 main_v26 (Pipeline.mem_restRefs_of main_v26 (by decide) (by decide)),
      (h c).2 main_v42 (Pipeline.mem_restRefs_of main_v42 (by decide) (by decide)),
      (h c).2 main_v48 (Pipeline.mem_restRefs_of main_v48 (by decide) (by decide)),
      ((h c).1 0).trans (((dats m 0 c).arrAt_in 0 rfl _).trans (A_eq m c 0)),
      ((h c).2 main_arg1 (Pipeline.mem_restRefs_of main_arg1 (by decide) (by decide))).trans (W_main_arg1 m (dats m) c),
      ((h c).1 1).trans (((dats m 0 c).arrAt_in 1 rfl _).trans (A_eq m c 1)),
      ((h c).1 2).trans (((dats m 0 c).arrAt_in 2 rfl _).trans (A_eq m c 2)),
      ((h c).1 3).trans (((dats m 0 c).arrAt_in 3 rfl _).trans (A_eq m c 3)),
      ((h c).1 4).trans (((dats m 0 c).arrAt_in 4 rfl _).trans (A_eq m c 4)),
      ((h c).1 5).trans (((dats m 0 c).arrAt_in 5 rfl _).trans (A_eq m c 5)),
      ((h c).1 6).trans (((dats m 0 c).arrAt_in 6 rfl _).trans (A_eq m c 6))⟩) (run_main (F := Ideal) m ρ)

end Cert.KernelIdeal.Out

end
-- ==== Proof.Spec.lean ====
/-
  The two results every row of points is mapped to, on the extended reals.

  A point is a row of 640 features. Its hidden activations are `max (row · w1 + b1, 0)` (256 of them), its logit is
  their product with the one column `w2` plus `b2`, its score is the logistic function of the logit, and its 128 output
  features are the row scaled by the score, times `wo`, plus `bo`. Nothing here mentions a program: both programs'
  score and feature arrays are these row functions applied to each row of the feature array.
-/
import Idealize.ShloMosaic.PureOps.Ideal.Laws
import Idealize.ShloMosaic.Lib.ValueIdx

noncomputable section

open scoped BigOperators

namespace Cert.Spec

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal
/-- A rank-3 array of extended reals. -/
abbrev Cube (a b c : ℕ) : Type := (⟨3, ![a, b, c]⟩ : Shape).Idx → EReal

/-- Hidden activation `h` of a point: `max (∑ k, row k · w1(k, h) + b1 h, 0)`. -/
def hidRow (row : Fin 640 → EReal) (w1 : Mat 640 256) (b1 : Row 256) (h : Fin 256) : EReal :=
  max ((∑ k : Fin 640, row k * w1 (ix2 k h)) + b1 (ix1 h)) 0

/-- The point's logit: the hidden activations times the one column `w2`, plus `b2`. -/
def logitRow (row : Fin 640 → EReal) (w1 : Mat 640 256) (b1 : Row 256) (w2 : Mat 256 1) (b2 : Row 1) : EReal :=
  (∑ h : Fin 256, hidRow row w1 b1 h * w2 (ix2 h (0 : Fin 1))) + b2 (ix1 (0 : Fin 1))

/-- The point's score: the logistic function of its logit. -/
def scoreRow (row : Fin 640 → EReal) (w1 : Mat 640 256) (b1 : Row 256) (w2 : Mat 256 1) (b2 : Row 1) : EReal :=
  Ideal.logistic (logitRow row w1 b1 w2 b2)

/-- Output feature `o` of a point: the row scaled by its score, times column `o` of `wo`, plus `bo o`. -/
def featRow (row : Fin 640 → EReal) (w1 : Mat 640 256) (b1 : Row 256) (w2 : Mat 256 1) (b2 : Row 1)
    (wo : Mat 640 128) (bo : Row 128) (o : Fin 128) : EReal :=
  (∑ k : Fin 640, (row k * scoreRow row w1 b1 w2 b2) * wo (ix2 k o)) + bo (ix1 o)

/-- Coordinate `a` of a rank-3 index, typed by the extent itself. -/
abbrev d0 {a b c : ℕ} (i : (⟨3, ![a, b, c]⟩ : Shape).Idx) : Fin a := ⟨(i 0).val, (i 0).isLt⟩
abbrev d1 {a b c : ℕ} (i : (⟨3, ![a, b, c]⟩ : Shape).Idx) : Fin b := ⟨(i 1).val, (i 1).isLt⟩
abbrev d2 {a b c : ℕ} (i : (⟨3, ![a, b, c]⟩ : Shape).Idx) : Fin c := ⟨(i 2).val, (i 2).isLt⟩

/-- Row `(b, n)` of the feature array. -/
abbrev rowOf (pf : Cube 8 16384 640) (b : Fin 8) (n : Fin 16384) : Fin 640 → EReal := fun k => pf (ix3 b n k)

/-- The score array `[8, 16384, 1]`: each point's score. -/
def scoresG (pf : Cube 8 16384 640) (w1 : Mat 640 256) (b1 : Row 256) (w2 : Mat 256 1) (b2 : Row 1) : Cube 8 16384 1 :=
  fun i => scoreRow (rowOf pf (d0 i) (d1 i)) w1 b1 w2 b2

/-- The projected feature array `[8, 16384, 128]`: each point's output features. -/
def featsG (pf : Cube 8 16384 640) (w1 : Mat 640 256) (b1 : Row 256) (w2 : Mat 256 1) (b2 : Row 1)
    (wo : Mat 640 128) (bo : Row 128) : Cube 8 16384 128 :=
  fun i => featRow (rowOf pf (d0 i) (d1 i)) w1 b1 w2 b2 wo bo (d2 i)

theorem scoresG_apply (pf : Cube 8 16384 640) (w1 : Mat 640 256) (b1 : Row 256) (w2 : Mat 256 1) (b2 : Row 1)
    (b : Fin 8) (n : Fin 16384) (u : Fin 1) :
    scoresG pf w1 b1 w2 b2 (ix3 b n u) = scoreRow (rowOf pf b n) w1 b1 w2 b2 := rfl

theorem featsG_apply (pf : Cube 8 16384 640) (w1 : Mat 640 256) (b1 : Row 256) (w2 : Mat 256 1) (b2 : Row 1)
    (wo : Mat 640 128) (bo : Row 128) (b : Fin 8) (n : Fin 16384) (o : Fin 128) :
    featsG pf w1 b1 w2 b2 wo bo (ix3 b n o) = featRow (rowOf pf b n) w1 b1 w2 b2 wo bo o := rfl

end Cert.Spec

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«161362_j33285996544161_1_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.KBlock.lean ====
/-
  The two arrays one grid step of the idealized kernel stores, read at an index.

  One grid step holds a block of 2048 points: a `[1, 2048, 640]` window of the feature array, viewed as the
  `[2048, 640]` matrix `X` of its rows.  The step computes the hidden layer `max (X w1 + b1, 0)`, the score column
  `logistic (hidden w2 + b2)`, and the output block `(X scaled row by row by the score) wo + bo`, and stores the
  score column and the output block with the unit axis put back.  Every matrix product here contracts the columns of
  the left operand with the rows of the right one, into a zero accumulator, so it is the plain matrix product; the
  narrowing of an operand to a shorter format is the identity on the extended reals.  Read at row `r`, the score is
  the specification's score of row `r` of the window and the output block's row is that row's output features.
-/
import proofs.«161362_j33285996544161_1_alg».proof.Proof.Gen.KernelIdeal.Skeleton
import proofs.«161362_j33285996544161_1_alg».proof.Proof.Spec
import proofs.«161362_j33285996544161_1_alg».proof.Proof.LibDense
import proofs.«161362_j33285996544161_1_alg».proof.Proof.LibBiasRow
import proofs.«161362_j33285996544161_1_alg».proof.Proof.LibRowBlocks

noncomputable section

open scoped BigOperators

namespace Cert.KernelIdeal.Block

open Idealize.ShloMosaic Idealize.ShloMosaic.ValueIdx Cert.KernelIdeal Cert.KernelIdeal.Gen

/-- Narrowing an array to a shorter format is the identity on the extended reals. -/
theorem truncf_id {s : Shape} (v : FVec Ideal s .f32) (h : FTy.bits .bf16 < FTy.bits .f32) :
    truncf .bf16 v h = v := rfl

/-- The block's matrix of rows: entry `(r, k)` is entry `(0, r, k)` of the window. -/
theorem pay2_at (x0 : Vec Ideal S1x2048x640 .f32) (r : Fin 2048) (k : Fin 640) :
    k0_pay2 (F := Ideal) x0 (ix2 r k) = x0 (ix3 (0 : Fin 1) r k) :=
  shapeCast_1ab_ab_apply x0 _ r k

/-- The hidden layer of a block of rows `X`: the rectified affine layer `max (X w1 + b1, 0)`. -/
theorem hidden_eq (X : FVec Ideal S2048x640 .f32) (x1 : FVec Ideal S640x256 .f32) (x2 : FVec Ideal S256 .f32) :
    maximumf
        (addf
          (matmul dot_S2048x640_S640x256_S2048x256_1_0_0_1_n_n none (truncf .bf16 X bitsLt_bf16_f32)
            (truncf .bf16 x1 bitsLt_bf16_f32) (constant S2048x256 .f32 0x00000000#32))
          (broadcastTo S2048x256 (shapeCast S1x256 x2 shapeCasts_S256_S1x256) broadcasts_S1x256_S2048x256))
        (broadcast S2048x256 (Scalar.ofBits (F := Ideal) .f32 0x00000000#32))
      = Cert.Dense.act X x1 (Cert.Dense.row x2) := by
  rw [Cert.Dense.vecReluBias, Cert.Dense.matmul_zero_eq_mm _ rfl rfl rfl rfl rfl rfl, Cert.Dense.shapeCast_row]
  rfl

/-- The score column of the block: the logistic function of `hidden w2 + b2`, the hidden layer that of the block's rows. -/
theorem pay3_eq (x0 : Vec Ideal S1x2048x640 .f32) (x1 : Vec Ideal S640x256 .f32) (x2 : Vec Ideal S256 .f32)
    (x3 : Vec Ideal S256x1 .f32) (x4 : Vec Ideal S1 .f32) :
    k0_pay3 (F := Ideal) x0 x1 x2 x3 x4
      = fun i => Ideal.logistic (Cert.BiasRow.addRow
          (Cert.Dense.mm (Cert.Dense.act (k0_pay2 (F := Ideal) x0) x1 (Cert.Dense.row x2)) x3) (Cert.Dense.row x4) i) := by
  show logistic (addf
      (matmul dot_S2048x256_S256x1_S2048x1_1_0_0_1_n_n none
        (truncf .bf16
          (maximumf
            (addf
              (matmul dot_S2048x640_S640x256_S2048x256_1_0_0_1_n_n none (truncf .bf16 (k0_pay2 (F := Ideal) x0) bitsLt_bf16_f32)
                (truncf .bf16 x1 bitsLt_bf16_f32) (constant S2048x256 .f32 0x00000000#32))
              (broadcastTo S2048x256 (shapeCast S1x256 x2 shapeCasts_S256_S1x256) broadcasts_S1x256_S2048x256))
            (broadcast S2048x256 (Scalar.ofBits (F := Ideal) .f32 0x00000000#32)))
          bitsLt_bf16_f32)
        (truncf .bf16 x3 bitsLt_bf16_f32) (constant S2048x1 .f32 0x00000000#32))
      (broadcastTo S2048x1 (shapeCast S1x1 x4 shapeCasts_S1_S1x1) broadcasts_S1x1_S2048x1)) = _
  rw [hidden_eq, Cert.Dense.matmul_zero_eq_mm _ rfl rfl rfl rfl rfl rfl, Cert.BiasRow.vecAddRow, Cert.Dense.shapeCast_row]
  rfl

/-- The score of row `r` of the block is the specification's score of row `r` of the window. -/
theorem pay3_at (x0 : Vec Ideal S1x2048x640 .f32) (x1 : Vec Ideal S640x256 .f32) (x2 : Vec Ideal S256 .f32)
    (x3 : Vec Ideal S256x1 .f32) (x4 : Vec Ideal S1 .f32) (r : Fin 2048) :
    k0_pay3 (F := Ideal) x0 x1 x2 x3 x4 (ix2 r (0 : Fin 1))
      = Cert.Spec.scoreRow (fun k => x0 (ix3 (0 : Fin 1) r k)) x1 x2 x3 x4 := by
  rw [pay3_eq]
  show Ideal.logistic _ = Ideal.logistic _
  refine congrArg Ideal.logistic ?_
  rw [Cert.BiasRow.addRow_apply, Cert.Dense.mm_apply, Cert.Dense.row_apply]
  unfold Cert.Spec.logitRow
  refine congrArg (· + x4 (ix1 (0 : Fin 1))) (Finset.sum_congr rfl fun h _ => ?_)
  refine congrArg (· * x3 (ix2 h (0 : Fin 1))) ?_
  rw [Cert.Dense.act_apply, Cert.Dense.row_apply]
  unfold Cert.Spec.hidRow
  simp only [pay2_at]

/-- The output block before the unit axis is put back: `(X scaled row by row by the score) wo + bo`. -/
theorem pay4_eq (x0 : Vec Ideal S1x2048x640 .f32) (x1 : Vec Ideal S640x256 .f32) (x2 : Vec Ideal S256 .f32)
    (x3 : Vec Ideal S256x1 .f32) (x4 : Vec Ideal S1 .f32) (x5 : Vec Ideal S640x128 .f32) (x6 : Vec Ideal S128 .f32) :
    k0_pay4 (F := Ideal) x0 x1 x2 x3 x4 x5 x6
      = shapeCast S1x2048x128
          (Cert.BiasRow.addRow
            (Cert.Dense.mm
              (mulf (k0_pay2 (F := Ideal) x0)
                (broadcastTo S2048x640 (k0_pay3 (F := Ideal) x0 x1 x2 x3 x4) broadcasts_S2048x1_S2048x640))
              x5)
            (Cert.Dense.row x6))
          shapeCasts_S2048x128_S1x2048x128 := by
  show shapeCast S1x2048x128
      (addf
        (matmul dot_S2048x640_S640x128_S2048x128_1_0_0_1_n_n none
          (truncf .bf16
            (mulf (k0_pay2 (F := Ideal) x0)
              (broadcastTo S2048x640 (k0_pay3 (F := Ideal) x0 x1 x2 x3 x4) broadcasts_S2048x1_S2048x640))
            bitsLt_bf16_f32)
          (truncf .bf16 x5 bitsLt_bf16_f32) (constant S2048x128 .f32 0x00000000#32))
        (broadcastTo S2048x128 (shapeCast S1x128 x6 shapeCasts_S128_S1x128) broadcasts_S1x128_S2048x128))
      shapeCasts_S2048x128_S1x2048x128 = _
  rw [Cert.Dense.matmul_zero_eq_mm _ rfl rfl rfl rfl rfl rfl, Cert.BiasRow.vecAddRow, Cert.Dense.shapeCast_row]
  rfl

/-- Row `r` of the stored output block is the specification's output features of row `r` of the window. -/
theorem pay4_at (x0 : Vec Ideal S1x2048x640 .f32) (x1 : Vec Ideal S640x256 .f32) (x2 : Vec Ideal S256 .f32)
    (x3 : Vec Ideal S256x1 .f32) (x4 : Vec Ideal S1 .f32) (x5 : Vec Ideal S640x128 .f32) (x6 : Vec Ideal S128 .f32)
    (r : Fin 2048) (o : Fin 128) :
    k0_pay4 (F := Ideal) x0 x1 x2 x3 x4 x5 x6 (ix3 (0 : Fin 1) r o)
      = Cert.Spec.featRow (fun k => x0 (ix3 (0 : Fin 1) r k)) x1 x2 x3 x4 x5 x6 o := by
  rw [pay4_eq]
  refine (shapeCast_ab_1ab_apply _ shapeCasts_S2048x128_S1x2048x128 (0 : Fin 1) r o).trans ?_
  rw [Cert.BiasRow.addRow_apply, Cert.Dense.mm_apply, Cert.Dense.row_apply]
  unfold Cert.Spec.featRow
  refine congrArg (· + x6 (ix1 o)) (Finset.sum_congr rfl fun k _ => ?_)
  refine congrArg (· * x5 (ix2 k o)) ?_
  show k0_pay2 (F := Ideal) x0 (ix2 r k)
      * broadcastTo S2048x640 (k0_pay3 (F := Ideal) x0 x1 x2 x3 x4) broadcasts_S2048x1_S2048x640 (ix2 r k) = _
  rw [pay2_at, Cert.RowBlocks.broadcastTo_col_apply, pay3_at]

/-- Entry `(0, r, u)` of the stored score column is the specification's score of row `r` of the window. -/
theorem pay1_at (x0 : Vec Ideal S1x2048x640 .f32) (x1 : Vec Ideal S640x256 .f32) (x2 : Vec Ideal S256 .f32)
    (x3 : Vec Ideal S256x1 .f32) (x4 : Vec Ideal S1 .f32) (r : Fin 2048) (u : Fin 1) :
    k0_pay1 (F := Ideal) (k0_pay3 (F := Ideal) x0 x1 x2 x3 x4) (ix3 (0 : Fin 1) r u)
      = Cert.Spec.scoreRow (fun k => x0 (ix3 (0 : Fin 1) r k)) x1 x2 x3 x4 := by
  obtain rfl : u = 0 := Subsingleton.elim _ _
  exact (shapeCast_ab_1ab_apply _ shapeCasts_S2048x1_S1x2048x1 (0 : Fin 1) r (0 : Fin 1)).trans
    (pay3_at x0 x1 x2 x3 x4 r)

/-- The two statements hold as well for arguments typed as arrays of floats of the idealized instance. -/
example (x0 : FVec Ideal S1x2048x640 .f32) (x1 : FVec Ideal S640x256 .f32) (x2 : FVec Ideal S256 .f32)
    (x3 : FVec Ideal S256x1 .f32) (x4 : FVec Ideal S1 .f32) (r : Fin 2048) (u : Fin 1) :
    k0_pay1 (F := Ideal) (k0_pay3 (F := Ideal) x0 x1 x2 x3 x4) (ix3 (0 : Fin 1) r u)
      = Cert.Spec.scoreRow (fun k => x0 (ix3 (0 : Fin 1) r k)) x1 x2 x3 x4 := pay1_at x0 x1 x2 x3 x4 r u

end Cert.KernelIdeal.Block

end
-- ==== Proof.KIValue.lean ====
/-
  From the blocks one grid step stores to the two whole result arrays of the idealized kernel.

  The 8 × 8 grid's point (b, n) reads block (b, n, 0) of the feature array — rows 2048 n … 2048 n + 2047 of batch b —
  and the whole weight and bias arrays, and writes block (b, n, 0) of each result array.  What the step stores at row r
  of its block is the specification's row function of row r of the block it read, which is row 2048 n + r of batch b of
  the feature array; so each point writes its block of the specification's whole array, the 64 blocks tile the result
  arrays, and the arrays end holding the specification's score and feature arrays of the arguments as launched.
-/
import proofs.«161362_j33285996544161_1_alg».proof.Proof.KIFrame
import proofs.«161362_j33285996544161_1_alg».proof.Proof.KBlock
import proofs.«161362_j33285996544161_1_alg».proof.Proof.Spec
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The zero offsets of a rank-3 whole-buffer rectangle. -/
theorem hz3 : (![0, 0, 0] : Fin 3 → Nat) = fun _ => 0 := funext fun a => by fin_cases a <;> rfl
/-- The zero offsets of a rank-2 whole-buffer rectangle. -/
theorem hz2 : (![0, 0] : Fin 2 → Nat) = fun _ => 0 := funext fun a => by fin_cases a <;> rfl
/-- The zero offset of a rank-1 whole-buffer rectangle. -/
theorem hz1 : (![0] : Fin 1 → Nat) = fun _ => 0 := funext fun a => by fin_cases a <;> rfl

/-- The index maps over the grid: the feature window and the two result windows sit at the same block (b, n, 0),
    with b and n below 8; every weight and bias window sits at block 0. -/
theorem idx_facts : ∀ t : Fin cfg0.N,
    win0_0.index t (0 : Fin 3) = win0_7.index t (0 : Fin 3)
    ∧ win0_0.index t (1 : Fin 3) = win0_7.index t (1 : Fin 3)
    ∧ win0_0.index t (2 : Fin 3) = 0
    ∧ win0_8.index t (0 : Fin 3) = win0_7.index t (0 : Fin 3)
    ∧ win0_8.index t (1 : Fin 3) = win0_7.index t (1 : Fin 3)
    ∧ win0_8.index t (2 : Fin 3) = 0
    ∧ win0_7.index t (2 : Fin 3) = 0
    ∧ win0_7.index t (0 : Fin 3) ≤ 7 ∧ win0_7.index t (1 : Fin 3) ≤ 7
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

/-- Every block (q0, q1, 0) of a result array is some point's. -/
theorem idx_onto7 : ∀ (q0 : Fin 8) (q1 : Fin 8), ∃ t : Fin cfg0.N, win0_7.index t = ![q0.val, q1.val, 0] :=
  (by decide +kernel : ∀ (q0 : Fin 8) (q1 : Fin 8), ∃ t : Fin grid0.N, win0_7.index t = ![q0.val, q1.val, 0])

/-! ## The blocks the windows hold at a grid point, read off the arrays -/

/-- An element of the feature window's block at point `t` is the feature array's element at block index × block size
    plus the element's own coordinate, on each axis. -/
theorem blk0_at (c : Dev nD) (t : Fin cfg0.N) (y : S1x2048x640.Idx) (i : S8x16384x640.Idx)
    (h0 : (i 0).val = win0_0.index t (0 : Fin 3) * 1 + (y 0).val)
    (h1 : (i 1).val = win0_0.index t (1 : Fin 3) * 2048 + (y 1).val)
    (h2 : (i 2).val = win0_0.index t (2 : Fin 3) * 640 + (y 2).val) :
    (iblk m c 0 t : Vec Ideal S1x2048x640 .f32) y = (V m c main_arg0 : S8x16384x640.Idx → Elt Ideal .f32) i := by
  unfold iblk
  rw [View.read_apply]
  show V m c main_arg0 _ = V m c main_arg0 _
  refine congrArg _ (funext fun a => Fin.ext ?_)
  match a with
  | ⟨0, _⟩ => show win0_0.index t (0 : Fin 3) * 1 + 1 * (y 0).val = (i 0).val; omega
  | ⟨1, _⟩ => show win0_0.index t (1 : Fin 3) * 2048 + 1 * (y 1).val = (i 1).val; omega
  | ⟨2, _⟩ => show win0_0.index t (2 : Fin 3) * 640 + 1 * (y 2).val = (i 2).val; omega

/-- The first layer's weight window holds the whole array at every point. -/
theorem blk1_eq (c : Dev nD) (t : Fin cfg0.N) :
    (iblk m c 1 t : Vec Ideal S640x256 .f32) = (V m c main_arg2 : S640x256.Idx → Elt Ideal .f32) := by
  obtain ⟨-, -, -, -, -, -, -, -, -, e0, e1, -⟩ := idx_facts t
  funext y
  unfold iblk
  rw [View.read_apply]
  show V m c main_arg2 _ = V m c main_arg2 _
  refine congrArg _ (funext fun a => Fin.ext ?_)
  match a with
  | ⟨0, _⟩ => show win0_1.index t (0 : Fin 2) * 640 + 1 * (y 0).val = (y 0).val; omega
  | ⟨1, _⟩ => show win0_1.index t (1 : Fin 2) * 256 + 1 * (y 1).val = (y 1).val; omega

/-- The first layer's bias window holds the whole array at every point. -/
theorem blk2_eq (c : Dev nD) (t : Fin cfg0.N) :
    (iblk m c 2 t : Vec Ideal S256 .f32) = (V m c main_arg3 : S256.Idx → Elt Ideal .f32) := by
  obtain ⟨-, -, -, -, -, -, -, -, -, -, -, e0, -⟩ := idx_facts t
  funext y
  unfold iblk
  rw [View.read_apply]
  show V m c main_arg3 _ = V m c main_arg3 _
  refine congrArg _ (funext fun a => Fin.ext ?_)
  match a with
  | ⟨0, _⟩ => show win0_2.index t (0 : Fin 1) * 256 + 1 * (y 0).val = (y 0).val; omega

/-- The second layer's weight window holds the whole array at every point. -/
theorem blk3_eq (c : Dev nD) (t : Fin cfg0.N) :
    (iblk m c 3 t : Vec Ideal S256x1 .f32) = (V m c main_arg4 : S256x1.Idx → Elt Ideal .f32) := by
  obtain ⟨-, -, -, -, -, -, -, -, -, -, -, -, e0, e1, -⟩ := idx_facts t
  funext y
  unfold iblk
  rw [View.read_apply]
  show V m c main_arg4 _ = V m c main_arg4 _
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 1 + 1 * (y 1).val = (y 1).val; omega

/-- The second layer's bias window holds the whole array at every point. -/
theorem blk4_eq (c : Dev nD) (t : Fin cfg0.N) :
    (iblk m c 4 t : Vec Ideal S1 .f32) = (V m c main_arg5 : S1.Idx → Elt Ideal .f32) := by
  obtain ⟨-, -, -, -, -, -, -, -, -, -, -, -, -, -, e0, -⟩ := idx_facts t
  funext y
  unfold iblk
  rw [View.read_apply]
  show V m c main_arg5 _ = V m c main_arg5 _
  refine congrArg _ (funext fun a => Fin.ext ?_)
  match a with
  | ⟨0, _⟩ => show win0_4.index t (0 : Fin 1) * 1 + 1 * (y 0).val = (y 0).val; omega

/-- The projection's weight window holds the whole array at every point. -/
theorem blk5_eq (c : Dev nD) (t : Fin cfg0.N) :
    (iblk m c 5 t : Vec Ideal S640x128 .f32) = (V m c main_arg6 : S640x128.Idx → Elt Ideal .f32) := by
  obtain ⟨-, -, -, -, -, -, -, -, -, -, -, -, -, -, -, e0, e1, -⟩ := idx_facts t
  funext y
  unfold iblk
  rw [View.read_apply]
  show V m c main_arg6 _ = V m c main_arg6 _
  refine congrArg _ (funext fun a => Fin.ext ?_)
  match a with
  | ⟨0, _⟩ => show win0_5.index t (0 : Fin 2) * 640 + 1 * (y 0).val = (y 0).val; omega
  | ⟨1, _⟩ => show win0_5.index t (1 : Fin 2) * 128 + 1 * (y 1).val = (y 1).val; omega

/-- The projection's bias window holds the whole array at every point. -/
theorem blk6_eq (c : Dev nD) (t : Fin cfg0.N) :
    (iblk m c 6 t : Vec Ideal S128 .f32) = (V m c main_arg7 : S128.Idx → Elt Ideal .f32) := by
  obtain ⟨-, -, -, -, -, -, -, -, -, -, -, -, -, -, -, -, -, e0⟩ := idx_facts t
  funext y
  unfold iblk
  rw [View.read_apply]
  show V m c main_arg7 _ = V m c main_arg7 _
  refine congrArg _ (funext fun a => Fin.ext ?_)
  match a with
  | ⟨0, _⟩ => show win0_6.index t (0 : Fin 1) * 128 + 1 * (y 0).val = (y 0).val; omega

/-! ## What a point writes back, element by element -/

/-- An element of the stored output block is the specification's feature array at an index `i`, when row `(y 1)` of
    the block of rows read is row `(i 0, i 1)` of the feature array, the loaded weights are the arrays, and the element's
    column is `i`'s. -/
theorem feat_point (x0 : Vec Ideal S1x2048x640 .f32) (x1 : Vec Ideal S640x256 .f32) (x2 : Vec Ideal S256 .f32)
    (x3 : Vec Ideal S256x1 .f32) (x4 : Vec Ideal S1 .f32) (x5 : Vec Ideal S640x128 .f32) (x6 : Vec Ideal S128 .f32)
    (A0 : Cert.Spec.Cube 8 16384 640) (w1 : Cert.Spec.Mat 640 256) (b1 : Cert.Spec.Row 256) (w2 : Cert.Spec.Mat 256 1)
    (b2 : Cert.Spec.Row 1) (wo : Cert.Spec.Mat 640 128) (bo : Cert.Spec.Row 128)
    (e1 : x1 = w1) (e2 : x2 = b1) (e3 : x3 = w2) (e4 : x4 = b2) (e5 : x5 = wo) (e6 : x6 = bo)
    (y : S1x2048x128.Idx) (i : S8x16384x128.Idx)
    (hrow : ∀ k : Fin 640, x0 (ix3 (0 : Fin 1) (⟨(y 1).val, (y 1).isLt⟩ : Fin 2048) k)
      = A0 (ix3 (Cert.Spec.d0 i) (Cert.Spec.d1 i) k))
    (hcol : (i 2).val = (y 2).val) :
    k0_pay4 (F := Ideal) x0 x1 x2 x3 x4 x5 x6 y = Cert.Spec.featsG A0 w1 b1 w2 b2 wo bo i := by
  subst e1 e2 e3 e4 e5 e6
  obtain ⟨u, r, o, rfl⟩ : ∃ (u : Fin 1) (r : Fin 2048) (o : Fin 128), y = ix3 u r o := ⟨y 0, y 1, y 2, eq_ix3 y⟩
  obtain rfl : u = 0 := Subsingleton.elim _ _
  rw [Cert.KernelIdeal.Block.pay4_at]
  show _ = Cert.Spec.featRow (Cert.Spec.rowOf A0 (Cert.Spec.d0 i) (Cert.Spec.d1 i)) x1 x2 x3 x4 x5 x6 (Cert.Spec.d2 i)
  have hr : (fun k => x0 (ix3 (0 : Fin 1) r k)) = Cert.Spec.rowOf A0 (Cert.Spec.d0 i) (Cert.Spec.d1 i) :=
    funext fun k => hrow k
  have ho : Cert.Spec.d2 i = o := Fin.ext hcol
  rw [hr, ho]

/-- An element of the stored score block is the specification's score array at an index `i`, under the same
    hypotheses on the block of rows read and the loaded weights. -/
theorem score_point (x0 : Vec Ideal S1x2048x640 .f32) (x1 : Vec Ideal S640x256 .f32) (x2 : Vec Ideal S256 .f32)
    (x3 : Vec Ideal S256x1 .f32) (x4 : Vec Ideal S1 .f32)
    (A0 : Cert.Spec.Cube 8 16384 640) (w1 : Cert.Spec.Mat 640 256) (b1 : Cert.Spec.Row 256) (w2 : Cert.Spec.Mat 256 1)
    (b2 : Cert.Spec.Row 1)
    (e1 : x1 = w1) (e2 : x2 = b1) (e3 : x3 = w2) (e4 : x4 = b2)
    (y : S1x2048x1.Idx) (i : S8x16384x1.Idx)
    (hrow : ∀ k : Fin 640, x0 (ix3 (0 : Fin 1) (⟨(y 1).val, (y 1).isLt⟩ : Fin 2048) k)
      = A0 (ix3 (Cert.Spec.d0 i) (Cert.Spec.d1 i) k)) :
    k0_pay1 (F := Ideal) (k0_pay3 (F := Ideal) x0 x1 x2 x3 x4) y = Cert.Spec.scoresG A0 w1 b1 w2 b2 i := by
  subst e1 e2 e3 e4
  obtain ⟨u, r, o, rfl⟩ : ∃ (u : Fin 1) (r : Fin 2048) (o : Fin 1), y = ix3 u r o := ⟨y 0, y 1, y 2, eq_ix3 y⟩
  obtain rfl : u = 0 := Subsingleton.elim _ _
  rw [Cert.KernelIdeal.Block.pay1_at]
  show _ = Cert.Spec.scoreRow (Cert.Spec.rowOf A0 (Cert.Spec.d0 i) (Cert.Spec.d1 i)) x1 x2 x3 x4
  have hr : (fun k => x0 (ix3 (0 : Fin 1) r k)) = Cert.Spec.rowOf A0 (Cert.Spec.d0 i) (Cert.Spec.d1 i) :=
    funext fun k => hrow k
  rw [hr]

/-- What point `t` writes back to the feature result is block `t` of the specification's feature array of the
    arguments as launched. -/
theorem flushed7_eq (c : Dev nD) (t : Fin cfg0.N) :
    (dats (F := Ideal) m 0 c).flushed 7 t = ((cfg0.win 7).blk t).view.read (Elt Ideal)
      (Cert.Spec.featsG (V m c main_arg0) (V m c main_arg2) (V m c main_arg3) (V m c main_arg4) (V m c main_arg5)
        (V m c main_arg6) (V m c main_arg7)) := by
  show (cfg0.win 7).cut (grid0.coords t) ((dats (F := Ideal) m 0 c).after 7 t) = _
  rw [after0_7]
  unfold out0_7
  rw [View.canon_unit_zero hz3]
  simp only [View.ld_unit_zero (S := S1x2048x640) hz3, View.ld_unit_zero (S := S640x256) hz2, View.ld_unit_zero (S := S256) hz1,
    View.ld_unit_zero (S := S256x1) hz2, View.ld_unit_zero (S := S1) hz1, View.ld_unit_zero (S := S640x128) hz2, View.ld_unit_zero (S := S128) hz1]
  obtain ⟨e0, e1, e2, -, -, -, e6, -⟩ := idx_facts t
  funext y
  refine feat_point (iblk m c 0 t) (iblk m c 1 t) (iblk m c 2 t) (iblk m c 3 t) (iblk m c 4 t) (iblk m c 5 t) (iblk m c 6 t)
    (V m c main_arg0) (V m c main_arg2) (V m c main_arg3) (V m c main_arg4) (V m c main_arg5) (V m c main_arg6) (V m c main_arg7)
    (blk1_eq m c t) (blk2_eq m c t) (blk3_eq m c t) (blk4_eq m c t) (blk5_eq m c t) (blk6_eq m c t)
    y (((cfg0.win 7).blk t).view.emb y) (fun k => ?_) ?_
  · refine blk0_at m c t _ _ ?_ ?_ ?_
    · show win0_7.index t (0 : Fin 3) * 1 + 1 * (y 0).val = win0_0.index t (0 : Fin 3) * 1 + 0
      have hy : (y 0).val < 1 := (y 0).isLt
      omega
    · show win0_7.index t (1 : Fin 3) * 2048 + 1 * (y 1).val = win0_0.index t (1 : Fin 3) * 2048 + (y 1).val
      omega
    · show k.val = win0_0.index t (2 : Fin 3) * 640 + k.val
      omega
  · show win0_7.index t (2 : Fin 3) * 128 + 1 * (y 2).val = (y 2).val
    omega

/-- What point `t` writes back to the score result is block `t` of the specification's score array of the
    arguments as launched. -/
theorem flushed8_eq (c : Dev nD) (t : Fin cfg0.N) :
    (dats (F := Ideal) m 0 c).flushed 8 t = ((cfg0.win 8).blk t).view.read (Elt Ideal)
      (Cert.Spec.scoresG (V m c main_arg0) (V m c main_arg2) (V m c main_arg3) (V m c main_arg4) (V m c main_arg5)) := by
  show (cfg0.win 8).cut (grid0.coords t) ((dats (F := Ideal) m 0 c).after 8 t) = _
  rw [after0_8]
  unfold out0_8
  rw [View.canon_unit_zero hz3]
  simp only [View.ld_unit_zero (S := S1x2048x640) hz3, View.ld_unit_zero (S := S640x256) hz2, View.ld_unit_zero (S := S256) hz1,
    View.ld_unit_zero (S := S256x1) hz2, View.ld_unit_zero (S := S1) hz1]
  obtain ⟨e0, e1, e2, e3, e4, e5, e6, -⟩ := idx_facts t
  funext y
  refine score_point (iblk m c 0 t) (iblk m c 1 t) (iblk m c 2 t) (iblk m c 3 t) (iblk m c 4 t)
    (V m c main_arg0) (V m c main_arg2) (V m c main_arg3) (V m c main_arg4) (V m c main_arg5)
    (blk1_eq m c t) (blk2_eq m c t) (blk3_eq m c t) (blk4_eq m c t)
    y (((cfg0.win 8).blk t).view.emb y) (fun k => ?_)
  refine blk0_at m c t _ _ ?_ ?_ ?_
  · show win0_8.index t (0 : Fin 3) * 1 + 1 * (y 0).val = win0_0.index t (0 : Fin 3) * 1 + 0
    have hy : (y 0).val < 1 := (y 0).isLt
    omega
  · show win0_8.index t (1 : Fin 3) * 2048 + 1 * (y 1).val = win0_0.index t (1 : Fin 3) * 2048 + (y 1).val
    omega
  · show k.val = win0_0.index t (2 : Fin 3) * 640 + k.val
    omega

/-! ## The blocks tile the result arrays -/

/-- An index of the feature result is in point `t`'s block iff each coordinate is in the block's range on its axis. -/
theorem mem_blk7 (t : Fin cfg0.N) (i : S8x16384x128.Idx) :
    i ∈ ((cfg0.win 7).blk t).view.set ↔ ∀ a : Fin 3, win0_7.index t a * S1x2048x128.size a ≤ (i a).val
      ∧ (i a).val < win0_7.index t a * S1x2048x128.size a + S1x2048x128.size a := by
  show i ∈ ((View.whole main_v0_0).slice (win0_7.rect t)).set ↔ _
  rw [View.set_slice_whole, Rect.mem_set_unit]
  exact Iff.rfl

/-- An index of the score result is in point `t`'s block iff each coordinate is in the block's range on its axis. -/
theorem mem_blk8 (t : Fin cfg0.N) (i : S8x16384x1.Idx) :
    i ∈ ((cfg0.win 8).blk t).view.set ↔ ∀ a : Fin 3, win0_8.index t a * S1x2048x1.size a ≤ (i a).val
      ∧ (i a).val < win0_8.index t a * S1x2048x1.size a + S1x2048x1.size a := by
  show i ∈ ((View.whole main_v0_1).slice (win0_8.rect t)).set ↔ _
  rw [View.set_slice_whole, Rect.mem_set_unit]
  exact Iff.rfl

/-- Every index of the feature result is in the block of the point at block index `(i 0, i 1 / 2048, 0)`. -/
theorem cover7 (i : S8x16384x128.Idx) :
    ∃ t : Fin cfg0.N, (cfg0.win 7).flush t = true ∧ i ∈ ((cfg0.win 7).blk t).view.set := by
  have hi0 : (i 0).val < 8 := (i 0).isLt
  have hi1 : (i 1).val < 16384 := (i 1).isLt
  have hi2 : (i 2).val < 128 := (i 2).isLt
  obtain ⟨t, ht⟩ := idx_onto7 ⟨(i 0).val, hi0⟩ ⟨(i 1).val / 2048, by omega⟩
  have q0 : win0_7.index t (0 : Fin 3) = (i 0).val := congrFun ht 0
  have q1 : win0_7.index t (1 : Fin 3) = (i 1).val / 2048 := congrFun ht 1
  have q2 : win0_7.index t (2 : Fin 3) = 0 := congrFun ht 2
  refine ⟨t, flush0_7 t, ?_⟩
  rw [mem_blk7]
  intro a
  match a with
  | ⟨0, _⟩ =>
    show win0_7.index t (0 : Fin 3) * 1 ≤ (i 0).val ∧ (i 0).val < win0_7.index t (0 : Fin 3) * 1 + 1
    omega
  | ⟨1, _⟩ =>
    show win0_7.index t (1 : Fin 3) * 2048 ≤ (i 1).val ∧ (i 1).val < win0_7.index t (1 : Fin 3) * 2048 + 2048
    omega
  | ⟨2, _⟩ =>
    show win0_7.index t (2 : Fin 3) * 128 ≤ (i 2).val ∧ (i 2).val < win0_7.index t (2 : Fin 3) * 128 + 128
    omega

/-- Every index of the score result is in the block of the point at block index `(i 0, i 1 / 2048, 0)`. -/
theorem cover8 (i : S8x16384x1.Idx) :
    ∃ t : Fin cfg0.N, (cfg0.win 8).flush t = true ∧ i ∈ ((cfg0.win 8).blk t).view.set := by
  have hi0 : (i 0).val < 8 := (i 0).isLt
  have hi1 : (i 1).val < 16384 := (i 1).isLt
  have hi2 : (i 2).val < 1 := (i 2).isLt
  obtain ⟨t, ht⟩ := idx_onto7 ⟨(i 0).val, hi0⟩ ⟨(i 1).val / 2048, by omega⟩
  have q0 : win0_7.index t (0 : Fin 3) = (i 0).val := congrFun ht 0
  have q1 : win0_7.index t (1 : Fin 3) = (i 1).val / 2048 := congrFun ht 1
  obtain ⟨-, -, -, e3, e4, e5, -⟩ := idx_facts t
  refine ⟨t, flush0_8 t, ?_⟩
  rw [mem_blk8]
  intro a
  match a with
  | ⟨0, _⟩ =>
    show win0_8.index t (0 : Fin 3) * 1 ≤ (i 0).val ∧ (i 0).val < win0_8.index t (0 : Fin 3) * 1 + 1
    omega
  | ⟨1, _⟩ =>
    show win0_8.index t (1 : Fin 3) * 2048 ≤ (i 1).val ∧ (i 1).val < win0_8.index t (1 : Fin 3) * 2048 + 2048
    omega
  | ⟨2, _⟩ =>
    show win0_8.index t (2 : Fin 3) * 1 ≤ (i 2).val ∧ (i 2).val < win0_8.index t (2 : Fin 3) * 1 + 1
    omega

/-! ## The result arrays after the run -/

/-- The feature result ends holding the specification's feature array of the arguments as launched. -/
theorem final7 (c : Dev nD) : (dats (F := Ideal) m 0 c).arrAt 7 cfg0.N
    = Cert.Spec.featsG (V m c main_arg0) (V m c main_arg2) (V m c main_arg3) (V m c main_arg4) (V m c main_arg5)
        (V m c main_arg6) (V m c main_arg7) :=
  (dats (F := Ideal) m 0 c).arrAt_eq_of_cover 7
    (Cert.Spec.featsG (V m c main_arg0) (V m c main_arg2) (V m c main_arg3) (V m c main_arg4) (V m c main_arg5)
      (V m c main_arg6) (V m c main_arg7))
    (fun t _ => flushed7_eq m c t) cover7

/-- The score result ends holding the specification's score array of the arguments as launched. -/
theorem final8 (c : Dev nD) : (dats (F := Ideal) m 0 c).arrAt 8 cfg0.N
    = Cert.Spec.scoresG (V m c main_arg0) (V m c main_arg2) (V m c main_arg3) (V m c main_arg4) (V m c main_arg5) :=
  (dats (F := Ideal) m 0 c).arrAt_eq_of_cover 8
    (Cert.Spec.scoresG (V m c main_arg0) (V m c main_arg2) (V m c main_arg3) (V m c main_arg4) (V m c main_arg5))
    (fun t _ => flushed8_eq m c t) cover8

end Cert.KernelIdeal.Val

end
-- ==== Proof.RefOps.lean ====
/-
  The reference program's host operations, listed in program order.

  The program is one straight line of 93 operations once the three functions it calls are inlined at their calls (the
  rectifier, the running sum, the selection: three operations each, over the buffers of that call).  The line is cut
  where the calls begin and end into nine stretches; `opsP` is the operations before the scores are reshaped (the
  multi-layer perceptron: statements %0 … %20) and `opsT` is the rest (the threshold, the running sum, the two
  scatters and the row test).  Every operation touches buffers of the tensor core only and determines all it writes.
-/
import proofs.«161362_j33285996544161_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The first hidden-layer operations: the product `pf · w1`, the bias's two broadcasts, their sum (statements %0 … %3). -/
abbrev opsP0 : List (HloOp τ sig (Elt F)) :=
  [ StableHlo.binary main_arg0 main_arg2 main_v0 ((fun l r => Host.dotGeneral dot_S8x16384x640_S640x256_S8x16384x256_2_0_01_1_n_n none l r) : (⟨S8x16384x640, .f32⟩ : BufTy).Contents (Elt F) → (⟨S640x256, .f32⟩ : BufTy).Contents (Elt F) → (⟨S8x16384x256, .f32⟩ : BufTy).Contents (Elt F)),
    StableHlo.unary main_arg3 main_v1 (broadcastInDim S1x1x256 ![2] bcast_S256_S1x1x256_2 : (⟨S256, .f32⟩ : BufTy).Contents (Elt F) → (⟨S1x1x256, .f32⟩ : BufTy).Contents (Elt F)),
    StableHlo.unary main_v1 main_v2 (broadcastInDim S8x16384x256 ![0, 1, 2] bcast_S1x1x256_S8x16384x256_0_1_2 : (⟨S1x1x256, .f32⟩ : BufTy).Contents (Elt F) → (⟨S8x16384x256, .f32⟩ : BufTy).Contents (Elt F)),
    StableHlo.binary main_v0 main_v2 main_v3 (addf : (⟨S8x16384x256, .f32⟩ : BufTy).Contents (Elt F) → (⟨S8x16384x256, .f32⟩ : BufTy).Contents (Elt F) → (⟨S8x16384x256, .f32⟩ : BufTy).Contents (Elt F)) ]
/-- Each operation of `opsP0` touches buffers of the tensor core only. -/
theorem opsP0_sub : (opsP0 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
/-- Each operation of `opsP0` determines every buffer it writes. -/
theorem opsP0_fresh : (opsP0 : List (HloOp τ sig (Elt F))).Forall fun op => op.fresh = ∅ :=
  ⟨rfl, rfl, rfl, rfl⟩

/-- The rectifier's three operations, inlined at its call: the zero constant, its broadcast, the maximum (statement %4). -/
abbrev opsP1 : List (HloOp τ sig (Elt F)) :=
  [ StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S8x16384x256, .f32⟩) (broadcastInDim S8x16384x256 ![] bcast_S_S8x16384x256),
    StableHlo.TRef.binary (.of main_v3 : StableHlo.TRef sig ⟨S8x16384x256, .f32⟩) (.of main_call0_v0 : StableHlo.TRef sig ⟨S8x16384x256, .f32⟩) (.of main_v4 : StableHlo.TRef sig ⟨S8x16384x256, .f32⟩) maximumf ]
/-- Each operation of `opsP1` touches buffers of the tensor core only. -/
theorem opsP1_sub : (opsP1 : List (HloOp τ sig (Elt F))).Forall fun op => op.bufs ⊆ StableHlo.tcRefs τ sig :=
  ⟨StableHlo.nullary_bufs_sub .., StableHlo.unary_bufs_sub .., StableHlo.binary_bufs_sub ..⟩
/-- Each operation of `opsP1` determines every buffer it writes. -/
theorem opsP1_fresh : (opsP1 : List (HloOp τ sig (Elt F))).Forall fun op => op.fresh = ∅ :=
  ⟨rfl, rfl, rfl⟩

/-- The score and feature operations: the product with `w2` and its bias, the logistic function spelt `1 / (1 + exp (-x))`, the features scaled by the score, their product with `wo` and its bias (statements %5 … %20). -/
abbrev opsP2 : List (HloOp τ sig (Elt F)) :=
  [ StableHlo.binary main_v4 main_arg4 main_v5 ((fun l r => Host.dotGeneral dot_S8x16384x256_S256x1_S8x16384x1_2_0_01_1_n_n none l r) : (⟨S8x16384x256, .f32⟩ : BufTy).Contents (Elt F) → (⟨S256x1, .f32⟩ : BufTy).Contents (Elt F) → (⟨S8x16384x1, .f32⟩ : BufTy).Contents (Elt F)),
    StableHlo.unary main_arg5 main_v6 (broadcastInDim S1x1x1 ![2] bcast_S1_S1x1x1_2 : (⟨S1, .f32⟩ : BufTy).Contents (Elt F) → (⟨S1x1x1, .f32⟩ : BufTy).Contents (Elt F)),
    StableHlo.unary main_v6 main_v7 (broadcastInDim S8x16384x1 ![0, 1, 2] bcast_S1x1x1_S8x16384x1_0_1_2 : (⟨S1x1x1, .f32⟩ : BufTy).Contents (Elt F) → (⟨S8x16384x1, .f32⟩ : BufTy).Contents (Elt F)),
    StableHlo.binary main_v5 main_v7 main_v8 (addf : (⟨S8x16384x1, .f32⟩ : BufTy).Contents (Elt F) → (⟨S8x16384x1, .f32⟩ : BufTy).Contents (Elt F) → (⟨S8x16384x1, .f32⟩ : BufTy).Contents (Elt F)),
    StableHlo.unary main_v8 main_v9 (Host.negf : (⟨S8x16384x1, .f32⟩ : BufTy).Contents (Elt F) → (⟨S8x16384x1, .f32⟩ : BufTy).Contents (Elt F)),
    StableHlo.unary main_v9 main_v10 (Host.exp : (⟨S8x16384x1, .f32⟩ : BufTy).Contents (Elt F) → (⟨S8x16384x1, .f32⟩ : BufTy).Contents (Elt F)),
    StableHlo.nullary main_cst (constant S_ .f32 0x3F800000#32),
    StableHlo.unary main_cst main_v11 (broadcastInDim S8x16384x1 ![] bcast_S_S8x16384x1 : (⟨S_, .f32⟩ : BufTy).Contents (Elt F) → (⟨S8x16384x1, .f32⟩ : BufTy).Contents (Elt F)),
    StableHlo.binary main_v11 main_v10 main_v12 (addf : (⟨S8x16384x1, .f32⟩ : BufTy).Contents (Elt F) → (⟨S8x16384x1, .f32⟩ : BufTy).Contents (Elt F) → (⟨S8x16384x1, .f32⟩ : BufTy).Contents (Elt F)),
    StableHlo.nullary main_cst_0 (constant S_ .f32 0x3F800000#32),
    StableHlo.unary main_cst_0 main_v13 (broadcastInDim S8x16384x1 ![] bcast_S_S8x16384x1 : (⟨S_, .f32⟩ : BufTy).Contents (Elt F) → (⟨S8x16384x1, .f32⟩ : BufTy).Contents (Elt F)),
    StableHlo.binary main_v13 main_v12 main_v14 (Host.divf : (⟨S8x16384x1, .f32⟩ : BufTy).Contents (Elt F) → (⟨S8x16384x1, .f32⟩ : BufTy).Contents (Elt F) → (⟨S8x16384x1, .f32⟩ : BufTy).Contents (Elt F)),
    StableHlo.unary main_v14 main_v15 (broadcastInDim S8x16384x640 ![0, 1, 2] bcast_S8x16384x1_S8x16384x640_0_1_2 : (⟨S8x16384x1, .f32⟩ : BufTy).Contents (Elt F) → (⟨S8x16384x640, .f32⟩ : BufTy).Contents (Elt F)),
    StableHlo.binary main_arg0 main_v15 main_v16 (mulf : (⟨S8x16384x640, .f32⟩ : BufTy).Contents (Elt F) → (⟨S8x16384x640, .f32⟩ : BufTy).Contents (Elt F) → (⟨S8x16384x640, .f32⟩ : BufTy).Contents (Elt F)),
    StableHlo.binary main_v16 main_arg6 main_v17 ((fun l r => Host.dotGeneral dot_S8x16384x640_S640x128_S8x16384x128_2_0_01_1_n_n none l r) : (⟨S8x16384x640, .f32⟩ : BufTy).Contents (Elt F) → (⟨S640x128, .f32⟩ : BufTy).Contents (Elt F) → (⟨S8x16384x128, .f32⟩ : BufTy).Contents (Elt F)),
    StableHlo.unary main_arg7 main_v18 (broadcastInDim S1x1x128 ![2] bcast_S128_S1x1x128_2 : (⟨S128, .f32⟩ : BufTy).Contents (Elt F) → (⟨S1x1x128, .f32⟩ : BufTy).Contents (Elt F)),
    StableHlo.unary main_v18 main_v19 (broadcastInDim S8x16384x128 ![0, 1, 2] bcast_S1x1x128_S8x16384x128_0_1_2 : (⟨S1x1x128, .f32⟩ : BufTy).Contents (Elt F) → (⟨S8x16384x128, .f32⟩ : BufTy).Contents (Elt F)),
    StableHlo.binary main_v17 main_v19 main_v20 (addf : (⟨S8x16384x128, .f32⟩ : BufTy).Contents (Elt F) → (⟨S8x16384x128, .f32⟩ : BufTy).Contents (Elt F) → (⟨S8x16384x128, .f32⟩ : BufTy).Contents (Elt F)) ]
/-- Each operation of `opsP2` touches buffers of the tensor core only. -/
theorem opsP2_sub : (opsP2 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub ..⟩
/-- Each operation of `opsP2` determines every buffer it writes. -/
theorem opsP2_fresh : (opsP2 : List (HloOp τ sig (Elt F))).Forall fun op => op.fresh = ∅ :=
  ⟨rfl, rfl, rfl, rfl, rfl, rfl, rfl, rfl, rfl, rfl, rfl, rfl, rfl, rfl, rfl, rfl, rfl, rfl⟩

/-- The threshold test: the scores reshaped to `[8, 16384]`, compared with the constant `0.4`, the test converted to an integer (statements %21 … %24). -/
abbrev opsT0 : List (HloOp τ sig (Elt F)) :=
  [ StableHlo.reshape main_v14 main_v21 rfl shapeCasts_S8x16384x1_S8x16384,
    StableHlo.nullary main_cst_1 (constant S_ .f32 0x3ECCCCCD#32),
    StableHlo.unary main_cst_1 main_v22 (broadcastInDim S8x16384 ![] bcast_S_S8x16384 : (⟨S_, .f32⟩ : BufTy).Contents (Elt F) → (⟨S8x16384, .f32⟩ : BufTy).Contents (Elt F)),
    StableHlo.binary main_v21 main_v22 main_v23 (cmpf .ogt : (⟨S8x16384, .f32⟩ : BufTy).Contents (Elt F) → (⟨S8x16384, .f32⟩ : BufTy).Contents (Elt F) → (⟨S8x16384, .i1⟩ : BufTy).Contents (Elt F)),
    StableHlo.unary main_v23 main_v24 ((extui 32 · natLt_1_32) : (⟨S8x16384, .i1⟩ : BufTy).Contents (Elt F) → (⟨S8x16384, .i32⟩ : BufTy).Contents (Elt F)) ]
/-- Each operation of `opsT0` touches buffers of the tensor core only. -/
theorem opsT0_sub : (opsT0 : List (HloOp τ sig (Elt F))).Forall fun op => op.bufs ⊆ StableHlo.tcRefs τ sig :=
  ⟨StableHlo.reshape_bufs_sub .., StableHlo.nullary_bufs_sub .., StableHlo.unary_bufs_sub .., StableHlo.binary_bufs_sub .., StableHlo.unary_bufs_sub ..⟩
/-- Each operation of `opsT0` determines every buffer it writes. -/
theorem opsT0_fresh : (opsT0 : List (HloOp τ sig (Elt F))).Forall fun op => op.fresh = ∅ :=
  ⟨rfl, rfl, rfl, rfl, rfl⟩

/-- The running sum's three operations, inlined at its call: the zero constant, its rank-0 broadcast, the windowed sum along axis 1 (statement %25). -/
abbrev opsT1 : List (HloOp τ sig (Elt F)) :=
  [ StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v24 : StableHlo.TRef sig ⟨S8x16384, .i32⟩) (.of main_call1_call0_v0 : StableHlo.TRef sig ⟨S_, .i32⟩) (.of main_v25 : StableHlo.TRef sig ⟨S8x16384, .i32⟩) (fun x v => Host.reduceWindow IntOp.addi ![1, 16384] ![1, 1] ![0, 16383] ![0, 0] x v reduceWindows_S8x16384_S8x16384_w1s1p0_0_w16384s1p16383_0 h_S_) ]
/-- Each operation of `opsT1` touches buffers of the tensor core only. -/
theorem opsT1_sub : (opsT1 : List (HloOp τ sig (Elt F))).Forall fun op => op.bufs ⊆ StableHlo.tcRefs τ sig :=
  ⟨StableHlo.nullary_bufs_sub .., StableHlo.unary_bufs_sub .., StableHlo.binary_bufs_sub ..⟩
/-- Each operation of `opsT1` determines every buffer it writes. -/
theorem opsT1_fresh : (opsT1 : List (HloOp τ sig (Elt F))).Forall fun op => op.fresh = ∅ :=
  ⟨rfl, rfl, rfl⟩

/-- The running sum less one, and the constant `16384` (statements %c … %c_2). -/
abbrev opsT2 : List (HloOp τ sig (Elt F)) :=
  [ StableHlo.nullary main_c (constantI S_ 32 1#32),
    StableHlo.unary main_c main_v26 (broadcastInDim S8x16384 ![] bcast_S_S8x16384 : (⟨S_, .i32⟩ : BufTy).Contents (Elt F) → (⟨S8x16384, .i32⟩ : BufTy).Contents (Elt F)),
    StableHlo.binary main_v25 main_v26 main_v27 (subi : (⟨S8x16384, .i32⟩ : BufTy).Contents (Elt F) → (⟨S8x16384, .i32⟩ : BufTy).Contents (Elt F) → (⟨S8x16384, .i32⟩ : BufTy).Contents (Elt F)),
    StableHlo.nullary main_c_2 (constantI S_ 32 16384#32) ]
/-- Each operation of `opsT2` touches buffers of the tensor core only. -/
theorem opsT2_sub : (opsT2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
/-- Each operation of `opsT2` determines every buffer it writes. -/
theorem opsT2_fresh : (opsT2 : List (HloOp τ sig (Elt F))).Forall fun op => op.fresh = ∅ :=
  ⟨rfl, rfl, rfl, rfl⟩

/-- The selection's three operations, inlined at its call: the constant converted, broadcast, the select (statement %28). -/
abbrev opsT3 : List (HloOp τ sig (Elt F)) :=
  [ StableHlo.TRef.unary (.of main_c_2 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S8x16384, .i32⟩) (broadcastInDim S8x16384 ![] bcast_S_S8x16384),
    StableHlo.TRef.ternary (.of main_v23 : StableHlo.TRef sig ⟨S8x16384, .i1⟩) (.of main_v27 : StableHlo.TRef sig ⟨S8x16384, .i32⟩) (.of main_call2_v1 : StableHlo.TRef sig ⟨S8x16384, .i32⟩) (.of main_v28 : StableHlo.TRef sig ⟨S8x16384, .i32⟩) select ]
/-- Each operation of `opsT3` touches buffers of the tensor core only. -/
theorem opsT3_sub : (opsT3 : List (HloOp τ sig (Elt F))).Forall fun op => op.bufs ⊆ StableHlo.tcRefs τ sig :=
  ⟨StableHlo.unary_bufs_sub .., StableHlo.unary_bufs_sub .., StableHlo.ternary_bufs_sub ..⟩
/-- Each operation of `opsT3` determines every buffer it writes. -/
theorem opsT3_fresh : (opsT3 : List (HloOp τ sig (Elt F))).Forall fun op => op.fresh = ∅ :=
  ⟨rfl, rfl, rfl⟩

/-- The index arithmetic and the first scatter, up to the first window's end (statements %29 … %c_9). -/
abbrev opsT4 : List (HloOp τ sig (Elt F)) :=
  [ StableHlo.nullary main_v29 (iotaInDim S8 32 0),
    StableHlo.unary main_v29 main_v30 (broadcastInDim S8x1 ![0] bcast_S8_S8x1_0 : (⟨S8, .i32⟩ : BufTy).Contents (Elt F) → (⟨S8x1, .i32⟩ : BufTy).Contents (Elt F)),
    StableHlo.nullary main_cst_3 (constant S_ .f32 0x00000000#32),
    StableHlo.unary main_cst_3 main_v31 (broadcastInDim S8x16384x128 ![] bcast_S_S8x16384x128 : (⟨S_, .f32⟩ : BufTy).Contents (Elt F) → (⟨S8x16384x128, .f32⟩ : BufTy).Contents (Elt F)),
    StableHlo.nullary main_c_4 (constantI S_ 32 0#32),
    StableHlo.unary main_c_4 main_v32 (broadcastInDim S8x1 ![] bcast_S_S8x1 : (⟨S_, .i32⟩ : BufTy).Contents (Elt F) → (⟨S8x1, .i32⟩ : BufTy).Contents (Elt F)),
    StableHlo.binary main_v30 main_v32 main_v33 (cmpi .slt : (⟨S8x1, .i32⟩ : BufTy).Contents (Elt F) → (⟨S8x1, .i32⟩ : BufTy).Contents (Elt F) → (⟨S8x1, .i1⟩ : BufTy).Contents (Elt F)),
    StableHlo.nullary main_c_5 (constantI S_ 32 8#32),
    StableHlo.unary main_c_5 main_v34 (broadcastInDim S8x1 ![] bcast_S_S8x1 : (⟨S_, .i32⟩ : BufTy).Contents (Elt F) → (⟨S8x1, .i32⟩ : BufTy).Contents (Elt F)),
    StableHlo.binary main_v30 main_v34 main_v35 (addi : (⟨S8x1, .i32⟩ : BufTy).Contents (Elt F) → (⟨S8x1, .i32⟩ : BufTy).Contents (Elt F) → (⟨S8x1, .i32⟩ : BufTy).Contents (Elt F)),
    StableHlo.ternary main_v33 main_v35 main_v30 main_v36 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)),
    StableHlo.nullary main_c_6 (constantI S_ 32 0#32),
    StableHlo.unary main_c_6 main_v37 (broadcastInDim S8x16384 ![] bcast_S_S8x16384 : (⟨S_, .i32⟩ : BufTy).Contents (Elt F) → (⟨S8x16384, .i32⟩ : BufTy).Contents (Elt F)),
    StableHlo.binary main_v28 main_v37 main_v38 (cmpi .slt : (⟨S8x16384, .i32⟩ : BufTy).Contents (Elt F) → (⟨S8x16384, .i32⟩ : BufTy).Contents (Elt F) → (⟨S8x16384, .i1⟩ : BufTy).Contents (Elt F)),
    StableHlo.nullary main_c_7 (constantI S_ 32 16384#32),
    StableHlo.unary main_c_7 main_v39 (broadcastInDim S8x16384 ![] bcast_S_S8x16384 : (⟨S_, .i32⟩ : BufTy).Contents (Elt F) → (⟨S8x16384, .i32⟩ : BufTy).Contents (Elt F)),
    StableHlo.binary main_v28 main_v39 main_v40 (addi : (⟨S8x16384, .i32⟩ : BufTy).Contents (Elt F) → (⟨S8x16384, .i32⟩ : BufTy).Contents (Elt F) → (⟨S8x16384, .i32⟩ : BufTy).Contents (Elt F)),
    StableHlo.ternary main_v38 main_v40 main_v28 main_v41 (select : (⟨S8x16384, .i1⟩ : BufTy).Contents (Elt F) → (⟨S8x16384, .i32⟩ : BufTy).Contents (Elt F) → (⟨S8x16384, .i32⟩ : BufTy).Contents (Elt F) → (⟨S8x16384, .i32⟩ : BufTy).Contents (Elt F)),
    StableHlo.unary main_v36 main_v42 (broadcastInDim S8x16384 ![0, 1] bcast_S8x1_S8x16384_0_1 : (⟨S8x1, .i32⟩ : BufTy).Contents (Elt F) → (⟨S8x16384, .i32⟩ : BufTy).Contents (Elt F)),
    StableHlo.unary main_v42 main_v43 (broadcastInDim S8x16384x1 ![0, 1] bcast_S8x16384_S8x16384x1_0_1 : (⟨S8x16384, .i32⟩ : BufTy).Contents (Elt F) → (⟨S8x16384x1, .i32⟩ : BufTy).Contents (Elt F)),
    StableHlo.unary main_v41 main_v44 (broadcastInDim S8x16384x1 ![0, 1] bcast_S8x16384_S8x16384x1_0_1 : (⟨S8x16384, .i32⟩ : BufTy).Contents (Elt F) → (⟨S8x16384x1, .i32⟩ : BufTy).Contents (Elt F)),
    StableHlo.binary main_v43 main_v44 main_v45 ((fun a b => concatenate S8x16384x2 2 [⟨S8x16384x1, a⟩, ⟨S8x16384x1, b⟩] concatenates_S8x16384x1_S8x16384x1_S8x16384x2_d2) : (⟨S8x16384x1, .i32⟩ : BufTy).Contents (Elt F) → (⟨S8x16384x1, .i32⟩ : BufTy).Contents (Elt F) → (⟨S8x16384x2, .i32⟩ : BufTy).Contents (Elt F)),
    StableHlo.ternary main_v31 main_v45 main_v20 main_v46 ((fun x i u => Host.scatter scatter_S8x16384x128_S8x16384x2_S8x16384x128_2_01_01_2 (fun _ b => b) x i u) : (⟨S8x16384x128, .f32⟩ : BufTy).Contents (Elt F) → (⟨S8x16384x2, .i32⟩ : BufTy).Contents (Elt F) → (⟨S8x16384x128, .f32⟩ : BufTy).Contents (Elt F) → (⟨S8x16384x128, .f32⟩ : BufTy).Contents (Elt F)),
    StableHlo.nullary main_cst_8 (constant S_ .f32 0x00000000#32),
    StableHlo.unary main_cst_8 main_v47 (broadcastInDim S8x16384x3 ![] bcast_S_S8x16384x3 : (⟨S_, .f32⟩ : BufTy).Contents (Elt F) → (⟨S8x16384x3, .f32⟩ : BufTy).Contents (Elt F)),
    StableHlo.nullary main_c_9 (constantI S_ 32 0#32) ]
/-- Each operation of `opsT4` touches buffers of the tensor core only. -/
theorem opsT4_sub : (opsT4 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.ternary_bufs_sub .., StableHlo.nullary_bufs_sub .., StableHlo.unary_bufs_sub .., StableHlo.nullary_bufs_sub ..⟩
/-- Each operation of `opsT4` determines every buffer it writes. -/
theorem opsT4_fresh : (opsT4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

/-- The second scatter and the row test (statements %48 … %68). -/
abbrev opsT5 : List (HloOp τ sig (Elt F)) :=
  [ StableHlo.unary main_c_9 main_v48 (broadcastInDim S8x1 ![] bcast_S_S8x1 : (⟨S_, .i32⟩ : BufTy).Contents (Elt F) → (⟨S8x1, .i32⟩ : BufTy).Contents (Elt F)),
    StableHlo.binary main_v30 main_v48 main_v49 (cmpi .slt : (⟨S8x1, .i32⟩ : BufTy).Contents (Elt F) → (⟨S8x1, .i32⟩ : BufTy).Contents (Elt F) → (⟨S8x1, .i1⟩ : BufTy).Contents (Elt F)),
    StableHlo.nullary main_c_10 (constantI S_ 32 8#32),
    StableHlo.unary main_c_10 main_v50 (broadcastInDim S8x1 ![] bcast_S_S8x1 : (⟨S_, .i32⟩ : BufTy).Contents (Elt F) → (⟨S8x1, .i32⟩ : BufTy).Contents (Elt F)),
    StableHlo.binary main_v30 main_v50 main_v51 (addi : (⟨S8x1, .i32⟩ : BufTy).Contents (Elt F) → (⟨S8x1, .i32⟩ : BufTy).Contents (Elt F) → (⟨S8x1, .i32⟩ : BufTy).Contents (Elt F)),
    StableHlo.ternary main_v49 main_v51 main_v30 main_v52 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)),
    StableHlo.nullary main_c_11 (constantI S_ 32 0#32),
    StableHlo.unary main_c_11 main_v53 (broadcastInDim S8x16384 ![] bcast_S_S8x16384 : (⟨S_, .i32⟩ : BufTy).Contents (Elt F) → (⟨S8x16384, .i32⟩ : BufTy).Contents (Elt F)),
    StableHlo.binary main_v28 main_v53 main_v54 (cmpi .slt : (⟨S8x16384, .i32⟩ : BufTy).Contents (Elt F) → (⟨S8x16384, .i32⟩ : BufTy).Contents (Elt F) → (⟨S8x16384, .i1⟩ : BufTy).Contents (Elt F)),
    StableHlo.nullary main_c_12 (constantI S_ 32 16384#32),
    StableHlo.unary main_c_12 main_v55 (broadcastInDim S8x16384 ![] bcast_S_S8x16384 : (⟨S_, .i32⟩ : BufTy).Contents (Elt F) → (⟨S8x16384, .i32⟩ : BufTy).Contents (Elt F)),
    StableHlo.binary main_v28 main_v55 main_v56 (addi : (⟨S8x16384, .i32⟩ : BufTy).Contents (Elt F) → (⟨S8x16384, .i32⟩ : BufTy).Contents (Elt F) → (⟨S8x16384, .i32⟩ : BufTy).Contents (Elt F)),
    StableHlo.ternary main_v54 main_v56 main_v28 main_v57 (select : (⟨S8x16384, .i1⟩ : BufTy).Contents (Elt F) → (⟨S8x16384, .i32⟩ : BufTy).Contents (Elt F) → (⟨S8x16384, .i32⟩ : BufTy).Contents (Elt F) → (⟨S8x16384, .i32⟩ : BufTy).Contents (Elt F)),
    StableHlo.unary main_v52 main_v58 (broadcastInDim S8x16384 ![0, 1] bcast_S8x1_S8x16384_0_1 : (⟨S8x1, .i32⟩ : BufTy).Contents (Elt F) → (⟨S8x16384, .i32⟩ : BufTy).Contents (Elt F)),
    StableHlo.unary main_v58 main_v59 (broadcastInDim S8x16384x1 ![0, 1] bcast_S8x16384_S8x16384x1_0_1 : (⟨S8x16384, .i32⟩ : BufTy).Contents (Elt F) → (⟨S8x16384x1, .i32⟩ : BufTy).Contents (Elt F)),
    StableHlo.unary main_v57 main_v60 (broadcastInDim S8x16384x1 ![0, 1] bcast_S8x16384_S8x16384x1_0_1 : (⟨S8x16384, .i32⟩ : BufTy).Contents (Elt F) → (⟨S8x16384x1, .i32⟩ : BufTy).Contents (Elt F)),
    StableHlo.binary main_v59 main_v60 main_v61 ((fun a b => concatenate S8x16384x2 2 [⟨S8x16384x1, a⟩, ⟨S8x16384x1, b⟩] concatenates_S8x16384x1_S8x16384x1_S8x16384x2_d2) : (⟨S8x16384x1, .i32⟩ : BufTy).Contents (Elt F) → (⟨S8x16384x1, .i32⟩ : BufTy).Contents (Elt F) → (⟨S8x16384x2, .i32⟩ : BufTy).Contents (Elt F)),
    StableHlo.ternary main_v47 main_v61 main_arg1 main_v62 ((fun x i u => Host.scatter scatter_S8x16384x3_S8x16384x2_S8x16384x3_2_01_01_2 (fun _ b => b) x i u) : (⟨S8x16384x3, .f32⟩ : BufTy).Contents (Elt F) → (⟨S8x16384x2, .i32⟩ : BufTy).Contents (Elt F) → (⟨S8x16384x3, .f32⟩ : BufTy).Contents (Elt F) → (⟨S8x16384x3, .f32⟩ : BufTy).Contents (Elt F)),
    StableHlo.nullary main_cst_13 (constant S_ .f32 0x00000000#32),
    StableHlo.unary main_cst_13 main_v63 (broadcastInDim S8x16384x3 ![] bcast_S_S8x16384x3 : (⟨S_, .f32⟩ : BufTy).Contents (Elt F) → (⟨S8x16384x3, .f32⟩ : BufTy).Contents (Elt F)),
    StableHlo.binary main_v62 main_v63 main_v64 (cmpf .oeq : (⟨S8x16384x3, .f32⟩ : BufTy).Contents (Elt F) → (⟨S8x16384x3, .f32⟩ : BufTy).Contents (Elt F) → (⟨S8x16384x3, .i1⟩ : BufTy).Contents (Elt F)),
    StableHlo.unary main_v64 main_v65 ((extui 32 · natLt_1_32) : (⟨S8x16384x3, .i1⟩ : BufTy).Contents (Elt F) → (⟨S8x16384x3, .i32⟩ : BufTy).Contents (Elt F)),
    StableHlo.nullary main_c_14 (constantI S_ 32 0#32),
    StableHlo.binary main_v65 main_c_14 main_v66 ((fun x v => Host.reduce IntOp.addi x v reducesTo_S8x16384x3_S8x16384_d2 h_S_) : (⟨S8x16384x3, .i32⟩ : BufTy).Contents (Elt F) → (⟨S_, .i32⟩ : BufTy).Contents (Elt F) → (⟨S8x16384, .i32⟩ : BufTy).Contents (Elt F)),
    StableHlo.nullary main_c_15 (constantI S_ 32 0#32),
    StableHlo.unary main_c_15 main_v67 (broadcastInDim S8x16384 ![] bcast_S_S8x16384 : (⟨S_, .i32⟩ : BufTy).Contents (Elt F) → (⟨S8x16384, .i32⟩ : BufTy).Contents (Elt F)),
    StableHlo.binary main_v66 main_v67 main_v68 (cmpi .ne : (⟨S8x16384, .i32⟩ : BufTy).Contents (Elt F) → (⟨S8x16384, .i32⟩ : BufTy).Contents (Elt F) → (⟨S8x16384, .i1⟩ : BufTy).Contents (Elt F)) ]
/-- Each operation of `opsT5` touches buffers of the tensor core only. -/
theorem opsT5_sub : (opsT5 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.ternary_bufs_sub .., StableHlo.nullary_bufs_sub .., StableHlo.unary_bufs_sub .., StableHlo.binary_bufs_sub .., StableHlo.unary_bufs_sub .., StableHlo.nullary_bufs_sub .., StableHlo.binary_bufs_sub .., StableHlo.nullary_bufs_sub .., StableHlo.unary_bufs_sub .., StableHlo.binary_bufs_sub ..⟩
/-- Each operation of `opsT5` determines every buffer it writes. -/
theorem opsT5_fresh : (opsT5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

/-- The operations before the scores are reshaped, in program order: statements %0 … %20. -/
abbrev opsP : List (HloOp τ sig (Elt F)) := opsP0 ++ (opsP1 ++ opsP2)

/-- The operations from the reshape of the scores to the end, in program order: statements %21 … %68. -/
abbrev opsT : List (HloOp τ sig (Elt F)) := opsT0 ++ (opsT1 ++ (opsT2 ++ (opsT3 ++ (opsT4 ++ opsT5))))

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun a ha =>
    (List.mem_append.mp ha).elim (List.forall_iff_forall_mem.mp h₁ a) (List.forall_iff_forall_mem.mp h₂ a)

/-- Every operation of the program touches buffers of the tensor core only. -/
theorem ops_sub : (opsP ++ opsT : List (HloOp τ sig (Elt F))).Forall fun op => op.bufs ⊆ StableHlo.tcRefs τ sig :=
  forall_append (forall_append opsP0_sub (forall_append opsP1_sub opsP2_sub))
    (forall_append opsT0_sub (forall_append opsT1_sub (forall_append opsT2_sub (forall_append opsT3_sub
      (forall_append opsT4_sub opsT5_sub)))))

/-- Every operation of the program determines every buffer it writes. -/
theorem ops_fresh : ∀ op ∈ (opsP ++ opsT : List (HloOp τ sig (Elt F))), op.fresh = ∅ :=
  List.forall_iff_forall_mem.mp
    (forall_append (forall_append opsP0_fresh (forall_append opsP1_fresh opsP2_fresh))
      (forall_append opsT0_fresh (forall_append opsT1_fresh (forall_append opsT2_fresh (forall_append opsT3_fresh
        (forall_append opsT4_fresh opsT5_fresh))))))

end Cert.ReferenceIdeal.Hand

end
-- ==== Proof.LibMaskSlab.lean ====
/-
  Slabs, equality masks and folds of concatenated straight lines.

  A stacked rank-3 array `[n, a, b]` cut along its first axis at `o` with extent one reads, at `(u, i, j)`, the source
  at `(o, i, j)`.  Routing by an id is written two ways: a select on the test `id = e` between a weight and zero, and the
  weight times the test converted to a float (0 or 1); on the extended reals `w · 1 = w` and `w · 0 = 0` for every
  `w`, the infinities included, so both are the weight where the id is `e` and zero elsewhere.  The buffer contents after a
  concatenation of two straight lines of host operations are those after the second line from those after the first.
-/
import Idealize.ShloMosaic.PureOps.Ideal.Laws
import Idealize.ShloMosaic.Lib.ValueIdx
import Idealize.ShloMosaic.Lib.Pipeline.Value
import Idealize.ShloMosaic.Lib.StableHlo.Run

noncomputable section

namespace Cert.MaskSlab

open Idealize.ShloMosaic Idealize.ShloMosaic.ValueIdx

/-- One slab of a stacked rank-3 array: cut along axis 0 at `o` with extent one, it reads, at `(u, a, b)`, the
    source at `(o, a, b)`. -/
theorem slab_apply {α : Type} {n0 n1 n2 : ℕ} (o : ℕ) (X : (⟨3, ![n0, n1, n2]⟩ : Shape).Idx → α)
    (h : (⟨3, ![n0, n1, n2]⟩ : Shape).Slices ![o, 0, 0] ⟨3, ![1, n1, n2]⟩) (u : Fin 1) (a : Fin n1) (b : Fin n2)
    (k : Fin n0) (hk : k.val = o) :
    extractStridedSlice ⟨3, ![1, n1, n2]⟩ ![o, 0, 0] X h (ix3 u a b) = X (ix3 k a b) :=
  extractStridedSlice_apply _ _ _ _ _ (fun ax => by
    match ax with
    | ⟨0, _⟩ =>
      have hu : u.val = 0 := by omega
      show k.val = o + u.val
      omega
    | ⟨1, _⟩ => exact (Nat.zero_add _).symm
    | ⟨2, _⟩ => exact (Nat.zero_add _).symm)

/-- Selecting on an equality test of two words is the conditional on their equality. -/
theorem select_cmpi_eq {α : Type} (a b : BitVec 32) (x y : α) :
    Scalar.select (IntOp.cmpi .eq a b) x y = if a = b then x else y := by
  unfold Scalar.select IntOp.cmpi
  by_cases h : a = b
  · subst h; simp
  · simp [h, beq_eq_false_iff_ne.mpr h]

/-- A weight times the float indicator of an equality of two words is the weight where they are equal and zero
    elsewhere, for every extended real weight. -/
theorem mul_indicator (w : EReal) (a b : BitVec 32) :
    w * FloatOps.uitofp (F := Ideal) .f32 (IntOp.cmpi .eq a b) = if a = b then w else 0 := by
  show w * (((IntOp.cmpi .eq a b).toNat : ℝ) : EReal) = _
  unfold IntOp.cmpi
  by_cases h : a = b
  · subst h; simp
  · simp [h]

/-- The fold of a concatenation is the fold of the second list from the fold of the first. -/
theorem after_append {τ : Topo} {sig : RefSig} {Val : EltTy → Type} (l₁ l₂ : List (HloOp τ sig Val))
    (V : Valuation τ sig Val) :
    StableHlo.after (l₁ ++ l₂) V = StableHlo.after l₂ (StableHlo.after l₁ V) := by
  induction l₁ generalizing V with
  | nil => rfl
  | cons op l ih => exact ih (op.result V)

end Cert.MaskSlab

end
-- ==== Proof.RefRun.lean ====
/-
  The reference program is the straight line of its operations, and its run.

  The printed program is two windows of statements with three calls among them; unfolding the calls, each window is
  the sequence of the stretches of operations the calls delimit, and the whole program is the sequence of all nine, that
  is, the straight line of `opsP` followed by `opsT`.  A straight line run from any launch contents ends, on every weakly
  fair execution, with every buffer holding the fold of the operations' results over the launch contents; folding a
  concatenation is folding the second part from the fold of the first.
-/
import proofs.«161362_j33285996544161_1_alg».proof.Proof.RefOps
import proofs.«161362_j33285996544161_1_alg».proof.Proof.LibMaskSlab
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- A sequence of straight lines is the straight line of their concatenation. -/
theorem chain_seq_flatten {nD : Nat} {τ : Topo} {sig : RefSig} {Val : EltTy → Type} {Λ : Labels}
    (ls : List (List (HloOp τ sig Val))) :
    Pipeline.chain (ls.map (StableHlo.seq (nD := nD) (Λ := Λ))) = StableHlo.seq ls.flatten := by
  induction ls with
  | nil => rfl
  | cons l ls ih => rw [List.map_cons, Pipeline.chain_cons, ih, List.flatten_cons, StableHlo.seq_append]

/-- The first window of the program (statements 1 … 60) is its eight stretches in order, the last in tail position. -/
theorem main_part0_chain (c : Dev nD) : main_part0 (F := F) c = (Pipeline.chainK
  [ StableHlo.seq opsP0,
    StableHlo.seq opsP1,
    StableHlo.seq opsP2,
    StableHlo.seq opsT0,
    StableHlo.seq opsT1,
    StableHlo.seq opsT2,
    StableHlo.seq opsT3 ]
  (StableHlo.seq opsT4) : Prog (TpuEff nD τ sig (Elt F) (Pipeline.Sig Λ₀ (Fin 0) fun p => (pcfgs (F := F) p).Adm) .tc) PUnit) := by
  chain_rfl

/-- The last window of the program (statements 61 … 88) is its one stretch. -/
theorem main_part1_chain (c : Dev nD) : main_part1 (F := F) c = (Pipeline.chain
  [ StableHlo.seq opsT5 ] : Prog (TpuEff nD τ sig (Elt F) (Pipeline.Sig Λ₀ (Fin 0) fun p => (pcfgs (F := F) p).Adm) .tc) PUnit) := by
  chain_rfl

/-- The program is the sequence of its nine stretches. -/
theorem main_chain (c : Dev nD) : main (F := F) c = (Pipeline.chain
  [ StableHlo.seq opsP0,
    StableHlo.seq opsP1,
    StableHlo.seq opsP2,
    StableHlo.seq opsT0,
    StableHlo.seq opsT1,
    StableHlo.seq opsT2,
    StableHlo.seq opsT3,
    StableHlo.seq opsT4,
    StableHlo.seq opsT5 ] : Prog (TpuEff nD τ sig (Elt F) (Pipeline.Sig Λ₀ (Fin 0) fun p => (pcfgs (F := F) p).Adm) .tc) PUnit) := by
  show (main_part0 (F := F) c >>= fun _ => main_part1 (F := F) c) = _
  rewrite [main_part1_chain, main_part0_chain, Pipeline.chainK_bind_chain]
  chain_rfl

/-- The program is the straight line of `opsP` followed by `opsT`. -/
theorem main_eq (c : Dev nD) : main (F := F) c = StableHlo.seq (opsP ++ opsT) :=
  (main_chain c).trans ((chain_seq_flatten [opsP0, opsP1, opsP2, opsT0, opsT1, opsT2, opsT3, opsT4, opsT5]).trans
    (congrArg StableHlo.seq (by
      simp only [List.flatten_cons, List.flatten_nil, List.append_nil, List.append_assoc])))

/-- No buffer of the tensor core is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide

/-- On every device, for any float values, from any memory with zero counters: every weakly fair execution of the
    program terminates, and every final state has each buffer of the tensor core at the fold of `opsT` over the fold of
    `opsP` over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = StableHlo.after opsT (StableHlo.after opsP (StableHlo.launchContents m d)) (Proc.devRef .tc b) :=
  (θ_run defs _ _).mono (fun _ h d b => (h d b).trans
      (congrFun (Cert.MaskSlab.after_append opsP opsT (StableHlo.launchContents m d)) (Proc.devRef .tc b)))
    (StableHlo.run_seq scopedRefs_eq scopedSems_eq defs main (fun _ => opsP ++ opsT) main_eq (fun _ => ops_sub) m ρ
      (fun _ => ops_fresh))

end Cert.ReferenceIdeal.Hand

end
-- ==== Proof.RefTerms.lean ====
/-
  The reference's score and feature arrays as pure terms of its argument arrays: the operations of its multi-layer
  perceptron composed in program order, at the extended reals. `refHidden` is `max (pf · w1 + b1, 0)`, `refScores` is
  `1 / (1 + exp (-(hidden · w2 + b2)))` and `refFeats` is `(pf * scores) · wo + bo`, each with the host's broadcasts of the
  bias vectors and of the scalar constants spelt as the program spells them.
-/
import proofs.«161362_j33285996544161_1_alg».proof.Proof.Gen.ReferenceIdeal
import Idealize.ShloMosaic.PureOps.Ideal

noncomputable section

namespace Cert.ReferenceIdeal.Terms

open Cert.ReferenceIdeal Cert.ReferenceIdeal.Facts₀ Idealize.ShloMosaic

/-- `max (pf · w1 + b1, 0)`: the hidden activations `[8, 16384, 256]`. -/
def refHidden (pf : FVec Ideal S8x16384x640 .f32) (w1 : FVec Ideal S640x256 .f32) (b1 : FVec Ideal S256 .f32) :
    FVec Ideal S8x16384x256 .f32 :=
  maximumf
    (addf (Host.dotGeneral (F := Ideal) dot_S8x16384x640_S640x256_S8x16384x256_2_0_01_1_n_n none pf w1)
      (broadcastInDim S8x16384x256 ![0, 1, 2] bcast_S1x1x256_S8x16384x256_0_1_2
        (broadcastInDim S1x1x256 ![2] bcast_S256_S1x1x256_2 b1)))
    (broadcastInDim S8x16384x256 ![] bcast_S_S8x16384x256 (constant (F := Ideal) S_ .f32 0x00000000#32))

/-- `1 / (1 + exp (-(hidden · w2 + b2)))`: the scores `[8, 16384, 1]`. -/
def refScores (pf : FVec Ideal S8x16384x640 .f32) (w1 : FVec Ideal S640x256 .f32) (b1 : FVec Ideal S256 .f32)
    (w2 : FVec Ideal S256x1 .f32) (b2 : FVec Ideal S1 .f32) : FVec Ideal S8x16384x1 .f32 :=
  Host.divf (F := Ideal)
    (broadcastInDim S8x16384x1 ![] bcast_S_S8x16384x1 (constant (F := Ideal) S_ .f32 0x3F800000#32))
    (addf (broadcastInDim S8x16384x1 ![] bcast_S_S8x16384x1 (constant (F := Ideal) S_ .f32 0x3F800000#32))
      (Host.exp (F := Ideal) (Host.negf (F := Ideal)
        (addf (Host.dotGeneral (F := Ideal) dot_S8x16384x256_S256x1_S8x16384x1_2_0_01_1_n_n none (refHidden pf w1 b1) w2)
          (broadcastInDim S8x16384x1 ![0, 1, 2] bcast_S1x1x1_S8x16384x1_0_1_2
            (broadcastInDim S1x1x1 ![2] bcast_S1_S1x1x1_2 b2))))))

/-- `(pf * scores) · wo + bo`: the projected features `[8, 16384, 128]`. -/
def refFeats (pf : FVec Ideal S8x16384x640 .f32) (w1 : FVec Ideal S640x256 .f32) (b1 : FVec Ideal S256 .f32)
    (w2 : FVec Ideal S256x1 .f32) (b2 : FVec Ideal S1 .f32) (wo : FVec Ideal S640x128 .f32) (bo : FVec Ideal S128 .f32) :
    FVec Ideal S8x16384x128 .f32 :=
  addf
    (Host.dotGeneral (F := Ideal) dot_S8x16384x640_S640x128_S8x16384x128_2_0_01_1_n_n none
      (mulf pf (broadcastInDim S8x16384x640 ![0, 1, 2] bcast_S8x16384x1_S8x16384x640_0_1_2 (refScores pf w1 b1 w2 b2))) wo)
    (broadcastInDim S8x16384x128 ![0, 1, 2] bcast_S1x1x128_S8x16384x128_0_1_2
      (broadcastInDim S1x1x128 ![2] bcast_S128_S1x1x128_2 bo))

end Cert.ReferenceIdeal.Terms

end
-- ==== Proof.RefKeeps.lean ====
/-
  What the reference's straight line leaves in the argument buffers, and what its first part computes.

  Every operation of the line writes exactly one buffer, the buffer of the value it defines, and none of these is one of
  the program's eight argument buffers (the arguments are the buffers numbered 0 … 7, every defined value's buffer is
  numbered 8 or more): so the arguments hold after the line, and after its first part, what they held before.  At the
  extended reals the first part leaves, in the buffers of the scores and of the projected features, the multi-layer
  perceptron's terms of the argument buffers' contents: the fold of the operations' results, read at those buffers, is
  those terms operation by operation.
-/
import proofs.«161362_j33285996544161_1_alg».proof.Proof.RefOps
import proofs.«161362_j33285996544161_1_alg».proof.Proof.RefTerms
import proofs.«161362_j33285996544161_1_alg».proof.Proof.LibMaskSlab

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- An operation that writes exactly one buffer, numbered 8 or more: not an argument's. -/
def WritesValue (op : HloOp τ sig (Elt F)) : Prop :=
  ∃ y : Ref sig .tc, 8 ≤ y.idx.val ∧ op.writes = {Proc.devRef .tc y}

/-- A line of operations each writing one buffer numbered 8 or more leaves every buffer numbered below 8 as it was. -/
theorem after_keeps {ops : List (HloOp τ sig (Elt F))} (h : ops.Forall WritesValue)
    (V : Valuation τ sig (Elt F)) {r : Ref sig .tc} (hr : r.idx.val < 8) :
    StableHlo.after ops V (Proc.devRef .tc r) = V (Proc.devRef .tc r) :=
  StableHlo.after_of_forall_not_mem ops V fun op hop hmem => by
    obtain ⟨y, hy, hw⟩ := List.forall_iff_forall_mem.mp h op hop
    rw [hw, Finset.mem_singleton] at hmem
    have hry : r = y := Proc.devRef_injective _ hmem
    subst hry
    omega

/-- Each operation of `opsP0` writes the buffer of the value it defines, none an argument's. -/
theorem opsP0_writes : (opsP0 : List (HloOp τ sig (Elt F))).Forall WritesValue :=
  ⟨⟨main_v0, by decide, rfl⟩, ⟨main_v1, by decide, rfl⟩, ⟨main_v2, by decide, rfl⟩, ⟨main_v3, by decide, rfl⟩⟩
/-- Each operation of `opsP1` writes the buffer of the value it defines, none an argument's. -/
theorem opsP1_writes : (opsP1 : List (HloOp τ sig (Elt F))).Forall WritesValue :=
  ⟨⟨main_call0_cst, by decide, rfl⟩, ⟨main_call0_v0, by decide, rfl⟩, ⟨main_v4, by decide, rfl⟩⟩
/-- Each operation of `opsP2` writes the buffer of the value it defines, none an argument's. -/
theorem opsP2_writes : (opsP2 : List (HloOp τ sig (Elt F))).Forall WritesValue :=
  ⟨⟨main_v5, by decide, rfl⟩, ⟨main_v6, by decide, rfl⟩, ⟨main_v7, by decide, rfl⟩, ⟨main_v8, by decide, rfl⟩, ⟨main_v9, by decide, rfl⟩, ⟨main_v10, by decide, rfl⟩, ⟨main_cst, by decide, rfl⟩, ⟨main_v11, by decide, rfl⟩, ⟨main_v12, by decide, rfl⟩, ⟨main_cst_0, by decide, rfl⟩, ⟨main_v13, by decide, rfl⟩, ⟨main_v14, by decide, rfl⟩, ⟨main_v15, by decide, rfl⟩, ⟨main_v16, by decide, rfl⟩, ⟨main_v17, by decide, rfl⟩, ⟨main_v18, by decide, rfl⟩, ⟨main_v19, by decide, rfl⟩, ⟨main_v20, by decide, rfl⟩⟩
/-- Each operation of `opsT0` writes the buffer of the value it defines, none an argument's. -/
theorem opsT0_writes : (opsT0 : List (HloOp τ sig (Elt F))).Forall WritesValue :=
  ⟨⟨main_v21, by decide, rfl⟩, ⟨main_cst_1, by decide, rfl⟩, ⟨main_v22, by decide, rfl⟩, ⟨main_v23, by decide, rfl⟩, ⟨main_v24, by decide, rfl⟩⟩
/-- Each operation of `opsT1` writes the buffer of the value it defines, none an argument's. -/
theorem opsT1_writes : (opsT1 : List (HloOp τ sig (Elt F))).Forall WritesValue :=
  ⟨⟨main_call1_call0_c, by decide, rfl⟩, ⟨main_call1_call0_v0, by decide, rfl⟩, ⟨main_v25, by decide, rfl⟩⟩
/-- Each operation of `opsT2` writes the buffer of the value it defines, none an argument's. -/
theorem opsT2_writes : (opsT2 : List (HloOp τ sig (Elt F))).Forall WritesValue :=
  ⟨⟨main_c, by decide, rfl⟩, ⟨main_v26, by decide, rfl⟩, ⟨main_v27, by decide, rfl⟩, ⟨main_c_2, by decide, rfl⟩⟩
/-- Each operation of `opsT3` writes the buffer of the value it defines, none an argument's. -/
theorem opsT3_writes : (opsT3 : List (HloOp τ sig (Elt F))).Forall WritesValue :=
  ⟨⟨main_call2_v0, by decide, rfl⟩, ⟨main_call2_v1, by decide, rfl⟩, ⟨main_v28, by decide, rfl⟩⟩
/-- Each operation of `opsT4` writes the buffer of the value it defines, none an argument's. -/
theorem opsT4_writes : (opsT4 : List (HloOp τ sig (Elt F))).Forall WritesValue :=
  ⟨⟨main_v29, by decide, rfl⟩, ⟨main_v30, by decide, rfl⟩, ⟨main_cst_3, by decide, rfl⟩, ⟨main_v31, by decide, rfl⟩, ⟨main_c_4, by decide, rfl⟩, ⟨main_v32, by decide, rfl⟩, ⟨main_v33, by decide, rfl⟩, ⟨main_c_5, by decide, rfl⟩, ⟨main_v34, by decide, rfl⟩, ⟨main_v35, by decide, rfl⟩, ⟨main_v36, by decide, rfl⟩, ⟨main_c_6, by decide, rfl⟩, ⟨main_v37, by decide, rfl⟩, ⟨main_v38, by decide, rfl⟩, ⟨main_c_7, by decide, rfl⟩, ⟨main_v39, by decide, rfl⟩, ⟨main_v40, by decide, rfl⟩, ⟨main_v41, by decide, rfl⟩, ⟨main_v42, by decide, rfl⟩, ⟨main_v43, by decide, rfl⟩, ⟨main_v44, by decide, rfl⟩, ⟨main_v45, by decide, rfl⟩, ⟨main_v46, by decide, rfl⟩, ⟨main_cst_8, by decide, rfl⟩, ⟨main_v47, by decide, rfl⟩, ⟨main_c_9, by decide, rfl⟩⟩
/-- Each operation of `opsT5` writes the buffer of the value it defines, none an argument's. -/
theorem opsT5_writes : (opsT5 : List (HloOp τ sig (Elt F))).Forall WritesValue :=
  ⟨⟨main_v48, by decide, rfl⟩, ⟨main_v49, by decide, rfl⟩, ⟨main_c_10, by decide, rfl⟩, ⟨main_v50, by decide, rfl⟩, ⟨main_v51, by decide, rfl⟩, ⟨main_v52, by decide, rfl⟩, ⟨main_c_11, by decide, rfl⟩, ⟨main_v53, by decide, rfl⟩, ⟨main_v54, by decide, rfl⟩, ⟨main_c_12, by decide, rfl⟩, ⟨main_v55, by decide, rfl⟩, ⟨main_v56, by decide, rfl⟩, ⟨main_v57, by decide, rfl⟩, ⟨main_v58, by decide, rfl⟩, ⟨main_v59, by decide, rfl⟩, ⟨main_v60, by decide, rfl⟩, ⟨main_v61, by decide, rfl⟩, ⟨main_v62, by decide, rfl⟩, ⟨main_cst_13, by decide, rfl⟩, ⟨main_v63, by decide, rfl⟩, ⟨main_v64, by decide, rfl⟩, ⟨main_v65, by decide, rfl⟩, ⟨main_c_14, by decide, rfl⟩, ⟨main_v66, by decide, rfl⟩, ⟨main_c_15, by decide, rfl⟩, ⟨main_v67, by decide, rfl⟩, ⟨main_v68, by decide, rfl⟩⟩

/-- Each operation of the first part writes the buffer of the value it defines, none an argument's. -/
theorem opsP_writes : (opsP : List (HloOp τ sig (Elt F))).Forall WritesValue :=
  forall_append opsP0_writes (forall_append opsP1_writes opsP2_writes)

/-- Each operation of the second part writes the buffer of the value it defines, none an argument's. -/
theorem opsT_writes : (opsT : List (HloOp τ sig (Elt F))).Forall WritesValue :=
  forall_append opsT0_writes (forall_append opsT1_writes (forall_append opsT2_writes (forall_append opsT3_writes
    (forall_append opsT4_writes opsT5_writes))))

/-- The whole line leaves every buffer numbered below 8 as it was. -/
theorem keeps_arg (V : Valuation τ sig (Elt F)) {r : Ref sig .tc} (hr : r.idx.val < 8) :
    StableHlo.after opsT (StableHlo.after opsP V) (Proc.devRef .tc r) = V (Proc.devRef .tc r) :=
  (after_keeps opsT_writes _ hr).trans (after_keeps opsP_writes V hr)

/-- The line leaves argument 0 as it was. -/
theorem keeps_arg0 (V : Valuation τ sig (Elt F)) :
    StableHlo.after opsT (StableHlo.after opsP V) (Proc.devRef .tc main_arg0) = V (Proc.devRef .tc main_arg0) :=
  keeps_arg V (by decide)
/-- The line leaves argument 1 as it was. -/
theorem keeps_arg1 (V : Valuation τ sig (Elt F)) :
    StableHlo.after opsT (StableHlo.after opsP V) (Proc.devRef .tc main_arg1) = V (Proc.devRef .tc main_arg1) :=
  keeps_arg V (by decide)
/-- The line leaves argument 2 as it was. -/
theorem keeps_arg2 (V : Valuation τ sig (Elt F)) :
    StableHlo.after opsT (StableHlo.after opsP V) (Proc.devRef .tc main_arg2) = V (Proc.devRef .tc main_arg2) :=
  keeps_arg V (by decide)
/-- The line leaves argument 3 as it was. -/
theorem keeps_arg3 (V : Valuation τ sig (Elt F)) :
    StableHlo.after opsT (StableHlo.after opsP V) (Proc.devRef .tc main_arg3) = V (Proc.devRef .tc main_arg3) :=
  keeps_arg V (by decide)
/-- The line leaves argument 4 as it was. -/
theorem keeps_arg4 (V : Valuation τ sig (Elt F)) :
    StableHlo.after opsT (StableHlo.after opsP V) (Proc.devRef .tc main_arg4) = V (Proc.devRef .tc main_arg4) :=
  keeps_arg V (by decide)
/-- The line leaves argument 5 as it was. -/
theorem keeps_arg5 (V : Valuation τ sig (Elt F)) :
    StableHlo.after opsT (StableHlo.after opsP V) (Proc.devRef .tc main_arg5) = V (Proc.devRef .tc main_arg5) :=
  keeps_arg V (by decide)
/-- The line leaves argument 6 as it was. -/
theorem keeps_arg6 (V : Valuation τ sig (Elt F)) :
    StableHlo.after opsT (StableHlo.after opsP V) (Proc.devRef .tc main_arg6) = V (Proc.devRef .tc main_arg6) :=
  keeps_arg V (by decide)
/-- The line leaves argument 7 as it was. -/
theorem keeps_arg7 (V : Valuation τ sig (Elt F)) :
    StableHlo.after opsT (StableHlo.after opsP V) (Proc.devRef .tc main_arg7) = V (Proc.devRef .tc main_arg7) :=
  keeps_arg V (by decide)

/-- The first part leaves argument 1 as it was. -/
theorem prefix_keeps_arg1 (V : Valuation τ sig (Elt F)) :
    StableHlo.after opsP V (Proc.devRef .tc main_arg1) = V (Proc.devRef .tc main_arg1) :=
  after_keeps opsP_writes V (by decide)

end Cert.ReferenceIdeal.Hand

end
-- ==== Proof.RefPrefix.lean ====
/-
  What the first part of the reference's straight line computes, at the extended reals.

  The first part is the multi-layer perceptron: after it, from any contents `V` of the buffers, the buffer of the scores
  holds `1 / (1 + exp (-(max (pf · w1 + b1, 0) · w2 + b2)))` and the buffer of the projected features holds
  `(pf * scores) · wo + bo`, as terms of the contents of the argument buffers in `V`.  The fold of the operations' results
  is read at those buffers operation by operation: each operation's result at its own buffer is its function of its
  operands' buffers, and at any other buffer what was there.
-/
import proofs.«161362_j33285996544161_1_alg».proof.Proof.RefOps
import proofs.«161362_j33285996544161_1_alg».proof.Proof.RefTerms
import proofs.«161362_j33285996544161_1_alg».proof.Proof.LibMaskSlab

noncomputable section

namespace Cert.ReferenceIdeal.Hand

open Cert.ReferenceIdeal Cert.ReferenceIdeal.Gen Idealize.ShloMosaic Idealize.ShloMosaic.TcCoe Idealize.SL.Sem

/-- After the first part the buffer of the scores holds the reference's score term of the arguments. -/
theorem prefix_v14 (V : Valuation τ sig (Elt Ideal)) :
    (StableHlo.after opsP V (Proc.devRef .tc main_v14) : FVec Ideal S8x16384x1 .f32)
      = Cert.ReferenceIdeal.Terms.refScores (V (Proc.devRef .tc main_arg0)) (V (Proc.devRef .tc main_arg2)) (V (Proc.devRef .tc main_arg3))
          (V (Proc.devRef .tc main_arg4)) (V (Proc.devRef .tc main_arg5)) := by
  unfold Cert.ReferenceIdeal.Terms.refScores Cert.ReferenceIdeal.Terms.refHidden
  rw [show (opsP : List (HloOp τ sig (Elt Ideal))) = opsP0 ++ (opsP1 ++ opsP2) from rfl,
    Cert.MaskSlab.after_append, Cert.MaskSlab.after_append]
  after_results_simp
  rfl

set_option maxRecDepth 8192 in
set_option maxHeartbeats 2000000 in
/-- After the first part the buffer of the projected features holds the reference's feature term of the arguments. -/
theorem prefix_v20 (V : Valuation τ sig (Elt Ideal)) :
    (StableHlo.after opsP V (Proc.devRef .tc main_v20) : FVec Ideal S8x16384x128 .f32)
      = Cert.ReferenceIdeal.Terms.refFeats (V (Proc.devRef .tc main_arg0)) (V (Proc.devRef .tc main_arg2)) (V (Proc.devRef .tc main_arg3))
          (V (Proc.devRef .tc main_arg4)) (V (Proc.devRef .tc main_arg5)) (V (Proc.devRef .tc main_arg6)) (V (Proc.devRef .tc main_arg7)) := by
  unfold Cert.ReferenceIdeal.Terms.refFeats Cert.ReferenceIdeal.Terms.refScores Cert.ReferenceIdeal.Terms.refHidden
  rw [show (opsP : List (HloOp τ sig (Elt Ideal))) = opsP0 ++ (opsP1 ++ opsP2) from rfl,
    Cert.MaskSlab.after_append, Cert.MaskSlab.after_append]
  after_results_simp
  rfl

end Cert.ReferenceIdeal.Hand

end
-- ==== Proof.LibPointRows.lean ====
/-
  Rows of points: a dot product of an `[A, B, K]` array with a `[K, N]` matrix, and the broadcasts that go with it.

  An array `[A, B, K]` holds, for every pair `(a, b)`, a row of `K` entries. A dot product whose dimension numbers
  contract the array's last axis with the matrix's first, with no batch axis, reads at `(a, b, q)` the sum over `k` of
  `l (a, b, k) · r (k, q)`: the contraction index set is in bijection with the contracted extent. A vector `[N]`
  broadcast to `[1, 1, N]` and then to `[A, B, N]` reads the vector at the last coordinate; a scalar broadcast to
  `[A, B, N]` reads the scalar; an `[A, B, 1]` array broadcast along the last axis reads the array at `(a, b, 0)`.
  The bit pattern `0x3F800000` is the number one. All of it at any extents.
-/
import Idealize.ShloMosaic.PureOps.Ideal.Laws
import Idealize.ShloMosaic.Lib.ValueIdx
import Idealize.ShloMosaic.Lib.ValueLayout
import Idealize.ShloMosaic.Lib.Pipeline.Value
import proofs.«161362_j33285996544161_1_alg».proof.Proof.LibRowBlocks

noncomputable section

open scoped BigOperators

namespace Cert.PointRows

open Idealize.ShloMosaic Idealize.ShloMosaic.ValueIdx

/-- The contraction sum of `[A, B, K] · [K, N]` at `(a, b, q)` is the sum over `k` of `l (a, b, k) · r (k, q)`. -/
theorem rows_sum {A B K N : ℕ} (D : DotDims ⟨3, ![A, B, K]⟩ ⟨2, ![K, N]⟩ ⟨3, ![A, B, N]⟩)
    (h1 : D.lhsContracting = [2]) (h2 : D.rhsContracting = [0]) (h3 : D.lhsNonContracting = [0, 1])
    (h4 : D.rhsNonContracting = [1]) (h5 : D.lhsBatch = []) (h6 : D.rhsBatch = [])
    (l : (⟨3, ![A, B, K]⟩ : Shape).Idx → EReal) (r : (⟨2, ![K, N]⟩ : Shape).Idx → EReal)
    (a : Fin A) (b : Fin B) (q : Fin N) :
    ∑ k : D.contr.Idx, l (D.lhsIdx (ix3 a b q) k) * r (D.rhsIdx (ix3 a b q) k)
      = ∑ k : Fin K, l (ix3 a b k) * r (ix2 k q) := by
  obtain ⟨lc, rc, ln, rn, lb, rb, wf⟩ := D
  dsimp only at h1 h2 h3 h4 h5 h6
  subst h1 h2 h3 h4 h5 h6
  generalize hD : (⟨[2], [0], [0, 1], [1], [], [], wf⟩ :
    DotDims ⟨3, ![A, B, K]⟩ ⟨2, ![K, N]⟩ ⟨3, ![A, B, N]⟩) = D
  have hrank : D.contr.rank = 1 := by subst hD; rfl
  have hs : D.contr.size ⟨0, by omega⟩ = K := by subst hD; rfl
  have hlc : D.lhsContracting = [2] := by subst hD; rfl
  have hrc : D.rhsContracting = [0] := by subst hD; rfl
  refine Cert.RowBlocks.contr_sum D K hrank hs l r (ix3 a b q) (fun k => ix3 a b k) (fun k => ix2 k q)
    (fun k => ?_) (fun k => ?_)
  · have hk := contrEquiv1_symm_val D K hrank hs k
    exact funext fun c => Fin.ext (by
      match c with
      | ⟨0, _⟩ =>
        subst hD
        rfl
      | ⟨1, _⟩ =>
        subst hD
        rfl
      | ⟨2, _⟩ => exact (D.lhsIdx_val_of_single hlc _ _).trans hk)
  · have hk := contrEquiv1_symm_val D K hrank hs k
    exact funext fun c => Fin.ext (by
      match c with
      | ⟨0, _⟩ => exact (D.rhsIdx_val_of_single hrc _ _).trans hk
      | ⟨1, _⟩ =>
        subst hD
        rfl)

/-- The host's `[A, B, K] · [K, N]` read at `(a, b, q)`. -/
theorem hostDot_rows {A B K N : ℕ} {φ₁ φ₂ : FTy} (D : DotDims ⟨3, ![A, B, K]⟩ ⟨2, ![K, N]⟩ ⟨3, ![A, B, N]⟩)
    (h1 : D.lhsContracting = [2]) (h2 : D.rhsContracting = [0]) (h3 : D.lhsNonContracting = [0, 1])
    (h4 : D.rhsNonContracting = [1]) (h5 : D.lhsBatch = []) (h6 : D.rhsBatch = [])
    (prec : Option ContractPrecision) (l : FVec Ideal ⟨3, ![A, B, K]⟩ φ₁) (r : FVec Ideal ⟨2, ![K, N]⟩ φ₂)
    (a : Fin A) (b : Fin B) (q : Fin N) :
    Host.dotGeneral (F := Ideal) D prec l r (ix3 a b q) = ∑ k : Fin K, l (ix3 a b k) * r (ix2 k q) :=
  (Ideal.dotGeneral_apply D prec .single l r (ix3 a b q)).trans (rows_sum D h1 h2 h3 h4 h5 h6 l r a b q)

section Layout

variable {α : Type}

/-- A vector `[N]` broadcast to `[1, 1, N]` and that to `[A, B, N]` reads, at `(a, b, q)`, the vector at `q`. -/
theorem bcast_vec_rows {A B N : ℕ} (v : (⟨1, ![N]⟩ : Shape).Idx → α)
    (h1 : (⟨1, ![N]⟩ : Shape).BroadcastsInDim ⟨3, ![1, 1, N]⟩ ![2])
    (h2 : (⟨3, ![1, 1, N]⟩ : Shape).BroadcastsInDim ⟨3, ![A, B, N]⟩ ![0, 1, 2]) (a : Fin A) (b : Fin B) (q : Fin N) :
    broadcastInDim ⟨3, ![A, B, N]⟩ ![0, 1, 2] h2 (broadcastInDim ⟨3, ![1, 1, N]⟩ ![2] h1 v) (ix3 a b q) = v (ix1 q) := by
  rw [broadcastInDim_apply ![0, 1, 2] h2 _ (ix3 a b q) (ix3 (0 : Fin 1) (0 : Fin 1) q) (fun c => by
        match c with
        | ⟨0, _⟩ => rfl
        | ⟨1, _⟩ => rfl
        | ⟨2, _⟩ =>
          show q.val = if N = 1 then 0 else q.val
          split
          · have := q.isLt; omega
          · rfl),
    broadcastInDim_apply ![2] h1 v (ix3 (0 : Fin 1) (0 : Fin 1) q) (ix1 q) (fun c => by
        match c with
        | ⟨0, _⟩ =>
          show q.val = if N = 1 then 0 else q.val
          split
          · have := q.isLt; omega
          · rfl)]

/-- A scalar broadcast to `[A, B, N]` reads the scalar everywhere. -/
theorem bcast_scalar_rows {A B N : ℕ} (x : (⟨0, ![]⟩ : Shape).Idx → α)
    (h : (⟨0, ![]⟩ : Shape).BroadcastsInDim ⟨3, ![A, B, N]⟩ ![]) (j : (⟨3, ![A, B, N]⟩ : Shape).Idx) :
    broadcastInDim ⟨3, ![A, B, N]⟩ ![] h x j = x ix0 :=
  broadcastInDim_apply ![] h x j ix0 fun c => c.elim0

/-- An `[A, B, 1]` array broadcast along its last axis to `[A, B, K]` reads, at `(a, b, k)`, the array at `(a, b, 0)`. -/
theorem bcast_last_rows {A B K : ℕ} (x : (⟨3, ![A, B, 1]⟩ : Shape).Idx → α)
    (h : (⟨3, ![A, B, 1]⟩ : Shape).BroadcastsInDim ⟨3, ![A, B, K]⟩ ![0, 1, 2]) (a : Fin A) (b : Fin B) (k : Fin K) :
    broadcastInDim ⟨3, ![A, B, K]⟩ ![0, 1, 2] h x (ix3 a b k) = x (ix3 a b (0 : Fin 1)) :=
  broadcastInDim_apply ![0, 1, 2] h x (ix3 a b k) (ix3 a b (0 : Fin 1)) fun c => by
    match c with
    | ⟨0, _⟩ =>
      show a.val = if A = 1 then 0 else a.val
      split
      · have := a.isLt; omega
      · rfl
    | ⟨1, _⟩ =>
      show b.val = if B = 1 then 0 else b.val
      split
      · have := b.isLt; omega
      · rfl
    | ⟨2, _⟩ => rfl

end Layout

/-- The single-precision bit pattern `0x3F800000` is the number one. -/
theorem ofBits_one_f32 : Ideal.ofBits .f32 0x3F800000#32 = 1 := by
  simp [Ideal.ofBits, Ideal.ieee, -EReal.coe_mul]; norm_num

end Cert.PointRows

end
-- ==== Proof.RefSpec.lean ====
/-
  The reference's score and feature arrays are the specification's.

  Read at an index `(b, n, ·)`, each of the reference's three dot products is the sum over the contracted extent of
  row `(b, n)` of its left operand times a column of its right operand; each bias is the vector at the last coordinate;
  the broadcast constants are zero and one; and `1 / (1 + exp (-x))` is the logistic function. Hence the hidden
  activations, the scores and the projected features at `(b, n, ·)` are the specification's row functions of row
  `(b, n)` of the feature array.
-/
import proofs.«161362_j33285996544161_1_alg».proof.Proof.RefTerms
import proofs.«161362_j33285996544161_1_alg».proof.Proof.Spec
import proofs.«161362_j33285996544161_1_alg».proof.Proof.LibPointRows

noncomputable section

open scoped BigOperators

namespace Cert.ReferenceIdeal.Terms

open Cert.ReferenceIdeal Cert.ReferenceIdeal.Facts₀ Idealize.ShloMosaic Idealize.ShloMosaic.ValueIdx Cert.Spec Cert.PointRows

/-- The hidden activations at `(b, n, h)`: `max (∑ k, pf (b, n, k) · w1 (k, h) + b1 h, 0)`. -/
theorem refHidden_apply (pf : FVec Ideal S8x16384x640 .f32) (w1 : FVec Ideal S640x256 .f32) (b1 : FVec Ideal S256 .f32)
    (b : Fin 8) (n : Fin 16384) (h : Fin 256) :
    refHidden pf w1 b1 (ix3 b n h) = hidRow (rowOf pf b n) w1 b1 h := by
  have e1 : Host.dotGeneral (F := Ideal) dot_S8x16384x640_S640x256_S8x16384x256_2_0_01_1_n_n none pf w1 (ix3 b n h)
      = ∑ k : Fin 640, pf (ix3 b n k) * w1 (ix2 k h) :=
    hostDot_rows _ rfl rfl rfl rfl rfl rfl none pf w1 b n h
  have e2 : broadcastInDim S8x16384x256 ![0, 1, 2] bcast_S1x1x256_S8x16384x256_0_1_2
      (broadcastInDim S1x1x256 ![2] bcast_S256_S1x1x256_2 b1) (ix3 b n h) = b1 (ix1 h) :=
    bcast_vec_rows b1 _ _ b n h
  have e3 : broadcastInDim S8x16384x256 ![] bcast_S_S8x16384x256 (constant (F := Ideal) S_ .f32 0x00000000#32) (ix3 b n h)
      = 0 :=
    (bcast_scalar_rows _ _ (ix3 b n h)).trans Ideal.ofBits_zero_f32
  show max (_ + _) _ = _
  rw [e1, e2, e3]
  rfl

/-- The logit at `(b, n, 0)`: the hidden activations of row `(b, n)` times the column `w2`, plus `b2`. -/
theorem refLogit_apply (pf : FVec Ideal S8x16384x640 .f32) (w1 : FVec Ideal S640x256 .f32) (b1 : FVec Ideal S256 .f32)
    (w2 : FVec Ideal S256x1 .f32) (b2 : FVec Ideal S1 .f32) (b : Fin 8) (n : Fin 16384) :
    addf (Host.dotGeneral (F := Ideal) dot_S8x16384x256_S256x1_S8x16384x1_2_0_01_1_n_n none (refHidden pf w1 b1) w2)
        (broadcastInDim S8x16384x1 ![0, 1, 2] bcast_S1x1x1_S8x16384x1_0_1_2
          (broadcastInDim S1x1x1 ![2] bcast_S1_S1x1x1_2 b2)) (ix3 b n (0 : Fin 1))
      = logitRow (rowOf pf b n) w1 b1 w2 b2 := by
  have e1 : Host.dotGeneral (F := Ideal) dot_S8x16384x256_S256x1_S8x16384x1_2_0_01_1_n_n none (refHidden pf w1 b1) w2
      (ix3 b n (0 : Fin 1)) = ∑ h : Fin 256, hidRow (rowOf pf b n) w1 b1 h * w2 (ix2 h (0 : Fin 1)) :=
    (hostDot_rows _ rfl rfl rfl rfl rfl rfl none (refHidden pf w1 b1) w2 b n (0 : Fin 1)).trans
      (Finset.sum_congr rfl fun h _ => congrArg (· * w2 (ix2 h (0 : Fin 1))) (refHidden_apply pf w1 b1 b n h))
  have e2 : broadcastInDim S8x16384x1 ![0, 1, 2] bcast_S1x1x1_S8x16384x1_0_1_2
      (broadcastInDim S1x1x1 ![2] bcast_S1_S1x1x1_2 b2) (ix3 b n (0 : Fin 1)) = b2 (ix1 (0 : Fin 1)) :=
    bcast_vec_rows b2 _ _ b n (0 : Fin 1)
  show _ + _ = _
  rw [e1, e2]
  rfl

/-- The scores at `(b, n, 0)`: the logistic function of the logit of row `(b, n)`. -/
theorem refScores_apply (pf : FVec Ideal S8x16384x640 .f32) (w1 : FVec Ideal S640x256 .f32) (b1 : FVec Ideal S256 .f32)
    (w2 : FVec Ideal S256x1 .f32) (b2 : FVec Ideal S1 .f32) (b : Fin 8) (n : Fin 16384) :
    refScores pf w1 b1 w2 b2 (ix3 b n (0 : Fin 1)) = scoreRow (rowOf pf b n) w1 b1 w2 b2 := by
  have e1 : broadcastInDim S8x16384x1 ![] bcast_S_S8x16384x1 (constant (F := Ideal) S_ .f32 0x3F800000#32)
      (ix3 b n (0 : Fin 1)) = 1 :=
    (bcast_scalar_rows _ _ (ix3 b n (0 : Fin 1))).trans ofBits_one_f32
  have e2 := refLogit_apply pf w1 b1 w2 b2 b n
  show Ideal.div _ (_ + Ideal.exp (-(_))) = _
  rw [e1, e2]
  rfl

/-- The reference's score array is the specification's. -/
theorem refScores_eq (pf : FVec Ideal S8x16384x640 .f32) (w1 : FVec Ideal S640x256 .f32) (b1 : FVec Ideal S256 .f32)
    (w2 : FVec Ideal S256x1 .f32) (b2 : FVec Ideal S1 .f32) :
    refScores pf w1 b1 w2 b2 = scoresG pf w1 b1 w2 b2 := by
  funext j
  obtain ⟨b, n, u, rfl⟩ : ∃ (b : Fin 8) (n : Fin 16384) (u : Fin 1), j = ix3 b n u := ⟨j 0, j 1, j 2, eq_ix3 j⟩
  obtain rfl : u = 0 := Subsingleton.elim _ _
  exact refScores_apply pf w1 b1 w2 b2 b n

/-- The projected features at `(b, n, o)`: row `(b, n)` scaled by its score, times column `o` of `wo`, plus `bo o`. -/
theorem refFeats_apply (pf : FVec Ideal S8x16384x640 .f32) (w1 : FVec Ideal S640x256 .f32) (b1 : FVec Ideal S256 .f32)
    (w2 : FVec Ideal S256x1 .f32) (b2 : FVec Ideal S1 .f32) (wo : FVec Ideal S640x128 .f32) (bo : FVec Ideal S128 .f32)
    (b : Fin 8) (n : Fin 16384) (o : Fin 128) :
    refFeats pf w1 b1 w2 b2 wo bo (ix3 b n o) = featRow (rowOf pf b n) w1 b1 w2 b2 wo bo o := by
  have e0 : ∀ k : Fin 640,
      mulf pf (broadcastInDim S8x16384x640 ![0, 1, 2] bcast_S8x16384x1_S8x16384x640_0_1_2 (refScores pf w1 b1 w2 b2))
        (ix3 b n k) = rowOf pf b n k * scoreRow (rowOf pf b n) w1 b1 w2 b2 := fun k =>
    congrArg (pf (ix3 b n k) * ·)
      ((bcast_last_rows (refScores pf w1 b1 w2 b2) _ b n k).trans (refScores_apply pf w1 b1 w2 b2 b n))
  have e1 : Host.dotGeneral (F := Ideal) dot_S8x16384x640_S640x128_S8x16384x128_2_0_01_1_n_n none
      (mulf pf (broadcastInDim S8x16384x640 ![0, 1, 2] bcast_S8x16384x1_S8x16384x640_0_1_2 (refScores pf w1 b1 w2 b2))) wo
      (ix3 b n o) = ∑ k : Fin 640, (rowOf pf b n k * scoreRow (rowOf pf b n) w1 b1 w2 b2) * wo (ix2 k o) :=
    (hostDot_rows _ rfl rfl rfl rfl rfl rfl none _ wo b n o).trans
      (Finset.sum_congr rfl fun k _ => congrArg (· * wo (ix2 k o)) (e0 k))
  have e2 : broadcastInDim S8x16384x128 ![0, 1, 2] bcast_S1x1x128_S8x16384x128_0_1_2
      (broadcastInDim S1x1x128 ![2] bcast_S128_S1x1x128_2 bo) (ix3 b n o) = bo (ix1 o) :=
    bcast_vec_rows bo _ _ b n o
  show _ + _ = _
  rw [e1, e2]
  rfl

/-- The reference's projected feature array is the specification's. -/
theorem refFeats_eq (pf : FVec Ideal S8x16384x640 .f32) (w1 : FVec Ideal S640x256 .f32) (b1 : FVec Ideal S256 .f32)
    (w2 : FVec Ideal S256x1 .f32) (b2 : FVec Ideal S1 .f32) (wo : FVec Ideal S640x128 .f32) (bo : FVec Ideal S128 .f32) :
    refFeats pf w1 b1 w2 b2 wo bo = featsG pf w1 b1 w2 b2 wo bo := by
  funext j
  obtain ⟨b, n, o, rfl⟩ : ∃ (b : Fin 8) (n : Fin 16384) (o : Fin 128), j = ix3 b n o := ⟨j 0, j 1, j 2, eq_ix3 j⟩
  exact refFeats_apply pf w1 b1 w2 b2 wo bo b n o

end Cert.ReferenceIdeal.Terms

end
-- ==== Proof.TailAgreeA.lean ====
/-
  The two programs' closing host operations agree: the gathered feature array.

  Once the score and feature arrays exist, each program applies the same straight line of host operations to them and
  to the coordinate array: the scores are compared with a threshold, a running count of the points above it gives each
  such point a destination slot, the features and the coordinates are scattered to the slots, and a row of the scattered
  coordinates is tested for being nonzero. The two lines differ only in the names of their buffers. Reading each line's
  result buffer back through the line gives one and the same composition of operations, applied to the contents of the
  three input buffers; so if the inputs agree, the results agree. No operation is opened.
-/
import proofs.«161362_j33285996544161_1_alg».proof.Proof.Gen.KernelIdeal.Launch
import proofs.«161362_j33285996544161_1_alg».proof.Proof.RefOps
import Idealize.ShloMosaic.PureOps.Ideal

noncomputable section

namespace Cert.Tail

open Idealize.ShloMosaic Idealize.ShloMosaic.TcCoe Idealize.SL.Sem Idealize.ShloMosaic.StableHlo

/-- Two arrays of one shape joined along an axis. -/
def cat2 {α : Type} {s t : Shape} (a : Fin t.rank) (h : Shape.Concatenates [s, s] t a) (x y : s.Idx → α) : t.Idx → α :=
  concatenate t a [⟨s, x⟩, ⟨s, y⟩] h

/-- The concatenation of a two-element list is the join of its two arrays (a form in which the two arrays are plain
    arguments, so that each can be rewritten). -/
theorem concatenate_pair {α : Type} {s t : Shape} (a : Fin t.rank) (h : Shape.Concatenates [s, s] t a) (x y : s.Idx → α) :
    concatenate t a [⟨s, x⟩, ⟨s, y⟩] h = cat2 a h x y := rfl

variable (WK : Valuation Cert.KernelIdeal.τ Cert.KernelIdeal.sig (Elt Ideal))
  (WR : Valuation Cert.ReferenceIdeal.τ Cert.ReferenceIdeal.sig (Elt Ideal))

set_option maxHeartbeats 2000000 in
/-- If the two programs' score and feature arrays agree, so do their gathered feature arrays: each is the feature array scattered
    to the slots the running count of the scores above the threshold gives. (The coordinate array is not read.) -/
theorem tail_v26
    (hfeats : (WK (Proc.devRef .tc Cert.KernelIdeal.main_v0_0) : FVec Ideal Cert.KernelIdeal.S8x16384x128 .f32)
      = WR (Proc.devRef .tc Cert.ReferenceIdeal.main_v20))
    (hscores : (WK (Proc.devRef .tc Cert.KernelIdeal.main_v0_1) : FVec Ideal Cert.KernelIdeal.S8x16384x1 .f32)
      = WR (Proc.devRef .tc Cert.ReferenceIdeal.main_v14))
    (hcoords : (WK (Proc.devRef .tc Cert.KernelIdeal.main_arg1) : FVec Ideal Cert.KernelIdeal.S8x16384x3 .f32)
      = WR (Proc.devRef .tc Cert.ReferenceIdeal.main_arg1)) :
    (StableHlo.after (List.flatten [Cert.KernelIdeal.Gen.hostOps1, Cert.KernelIdeal.Gen.hostOps1_1,
        Cert.KernelIdeal.Gen.hostOps1_2, Cert.KernelIdeal.Gen.hostOps1_3, Cert.KernelIdeal.Gen.hostOps1_4]) WK
        (Proc.devRef .tc Cert.KernelIdeal.main_v26) : FVec Ideal Cert.KernelIdeal.S8x16384x128 .f32)
      = StableHlo.after Cert.ReferenceIdeal.Hand.opsT WR (Proc.devRef .tc Cert.ReferenceIdeal.main_v46) := by
  simp only [List.flatten_cons, List.flatten_nil, List.append_nil, List.cons_append, List.nil_append,
    Cert.KernelIdeal.Gen.hostOps1, Cert.KernelIdeal.Gen.hostOps1_1, Cert.KernelIdeal.Gen.hostOps1_2,
    Cert.KernelIdeal.Gen.hostOps1_3, Cert.KernelIdeal.Gen.hostOps1_4,
    Cert.ReferenceIdeal.Hand.opsT, Cert.ReferenceIdeal.Hand.opsT0, Cert.ReferenceIdeal.Hand.opsT1,
    Cert.ReferenceIdeal.Hand.opsT2, Cert.ReferenceIdeal.Hand.opsT3, Cert.ReferenceIdeal.Hand.opsT4,
    Cert.ReferenceIdeal.Hand.opsT5, StableHlo.TRef.nullary, StableHlo.TRef.unary, StableHlo.TRef.binary,
    StableHlo.TRef.ternary]
  simp (disch := decide) only [after_cons, after_nil, nullary_result', unary_result', binary_result', ternary_result',
    reshape_result', nullary_result_ne', unary_result_ne', binary_result_ne', ternary_result_ne', reshape_result_ne',
    concatenate_pair]
  rw [hfeats, hscores]
  rfl

end Cert.Tail

end
-- ==== Proof.TailAgreeB.lean ====
/-
  The two programs' closing host operations agree: the gathered coordinate array and the row test.

  As for the gathered features: each line's result buffer, read back through the line, is one and the same composition
  of operations applied to the score and coordinate arrays; so if those agree, the results agree.
-/
import proofs.«161362_j33285996544161_1_alg».proof.Proof.TailAgreeA

noncomputable section

namespace Cert.Tail

open Idealize.ShloMosaic Idealize.ShloMosaic.TcCoe Idealize.SL.Sem Idealize.ShloMosaic.StableHlo

variable (WK : Valuation Cert.KernelIdeal.τ Cert.KernelIdeal.sig (Elt Ideal))
  (WR : Valuation Cert.ReferenceIdeal.τ Cert.ReferenceIdeal.sig (Elt Ideal))

set_option maxHeartbeats 2000000 in
/-- If the two programs' score and coordinate arrays agree, so do their gathered coordinate arrays: each is the coordinate
    array scattered to the slots the running count of the scores above the threshold gives. (The feature array is not read.) -/
theorem tail_v42
    (hfeats : (WK (Proc.devRef .tc Cert.KernelIdeal.main_v0_0) : FVec Ideal Cert.KernelIdeal.S8x16384x128 .f32)
      = WR (Proc.devRef .tc Cert.ReferenceIdeal.main_v20))
    (hscores : (WK (Proc.devRef .tc Cert.KernelIdeal.main_v0_1) : FVec Ideal Cert.KernelIdeal.S8x16384x1 .f32)
      = WR (Proc.devRef .tc Cert.ReferenceIdeal.main_v14))
    (hcoords : (WK (Proc.devRef .tc Cert.KernelIdeal.main_arg1) : FVec Ideal Cert.KernelIdeal.S8x16384x3 .f32)
      = WR (Proc.devRef .tc Cert.ReferenceIdeal.main_arg1)) :
    (StableHlo.after (List.flatten [Cert.KernelIdeal.Gen.hostOps1, Cert.KernelIdeal.Gen.hostOps1_1,
        Cert.KernelIdeal.Gen.hostOps1_2, Cert.KernelIdeal.Gen.hostOps1_3, Cert.KernelIdeal.Gen.hostOps1_4]) WK
        (Proc.devRef .tc Cert.KernelIdeal.main_v42) : FVec Ideal Cert.KernelIdeal.S8x16384x3 .f32)
      = StableHlo.after Cert.ReferenceIdeal.Hand.opsT WR (Proc.devRef .tc Cert.ReferenceIdeal.main_v62) := by
  simp only [List.flatten_cons, List.flatten_nil, List.append_nil, List.cons_append, List.nil_append,
    Cert.KernelIdeal.Gen.hostOps1, Cert.KernelIdeal.Gen.hostOps1_1, Cert.KernelIdeal.Gen.hostOps1_2,
    Cert.KernelIdeal.Gen.hostOps1_3, Cert.KernelIdeal.Gen.hostOps1_4,
    Cert.ReferenceIdeal.Hand.opsT, Cert.ReferenceIdeal.Hand.opsT0, Cert.ReferenceIdeal.Hand.opsT1,
    Cert.ReferenceIdeal.Hand.opsT2, Cert.ReferenceIdeal.Hand.opsT3, Cert.ReferenceIdeal.Hand.opsT4,
    Cert.ReferenceIdeal.Hand.opsT5, StableHlo.TRef.nullary, StableHlo.TRef.unary, StableHlo.TRef.binary,
    StableHlo.TRef.ternary]
  simp (disch := decide) only [after_cons, after_nil, nullary_result', unary_result', binary_result', ternary_result',
    reshape_result', nullary_result_ne', unary_result_ne', binary_result_ne', ternary_result_ne', reshape_result_ne',
    concatenate_pair]
  rw [hscores, hcoords]
  rfl

set_option maxHeartbeats 2000000 in
/-- If the two programs' score and coordinate arrays agree, so do their row tests: each says of every row of the gathered
    coordinate array whether the count of its zero entries is nonzero. (The feature array is not read.) -/
theorem tail_v48
    (hfeats : (WK (Proc.devRef .tc Cert.KernelIdeal.main_v0_0) : FVec Ideal Cert.KernelIdeal.S8x16384x128 .f32)
      = WR (Proc.devRef .tc Cert.ReferenceIdeal.main_v20))
    (hscores : (WK (Proc.devRef .tc Cert.KernelIdeal.main_v0_1) : FVec Ideal Cert.KernelIdeal.S8x16384x1 .f32)
      = WR (Proc.devRef .tc Cert.ReferenceIdeal.main_v14))
    (hcoords : (WK (Proc.devRef .tc Cert.KernelIdeal.main_arg1) : FVec Ideal Cert.KernelIdeal.S8x16384x3 .f32)
      = WR (Proc.devRef .tc Cert.ReferenceIdeal.main_arg1)) :
    (StableHlo.after (List.flatten [Cert.KernelIdeal.Gen.hostOps1, Cert.KernelIdeal.Gen.hostOps1_1,
        Cert.KernelIdeal.Gen.hostOps1_2, Cert.KernelIdeal.Gen.hostOps1_3, Cert.KernelIdeal.Gen.hostOps1_4]) WK
        (Proc.devRef .tc Cert.KernelIdeal.main_v48) : IVec Cert.KernelIdeal.S8x16384 1)
      = StableHlo.after Cert.ReferenceIdeal.Hand.opsT WR (Proc.devRef .tc Cert.ReferenceIdeal.main_v68) := by
  simp only [List.flatten_cons, List.flatten_nil, List.append_nil, List.cons_append, List.nil_append,
    Cert.KernelIdeal.Gen.hostOps1, Cert.KernelIdeal.Gen.hostOps1_1, Cert.KernelIdeal.Gen.hostOps1_2,
    Cert.KernelIdeal.Gen.hostOps1_3, Cert.KernelIdeal.Gen.hostOps1_4,
    Cert.ReferenceIdeal.Hand.opsT, Cert.ReferenceIdeal.Hand.opsT0, Cert.ReferenceIdeal.Hand.opsT1,
    Cert.ReferenceIdeal.Hand.opsT2, Cert.ReferenceIdeal.Hand.opsT3, Cert.ReferenceIdeal.Hand.opsT4,
    Cert.ReferenceIdeal.Hand.opsT5, StableHlo.TRef.nullary, StableHlo.TRef.unary, StableHlo.TRef.binary,
    StableHlo.TRef.ternary]
  simp (disch := decide) only [after_cons, after_nil, nullary_result', unary_result', binary_result', ternary_result',
    reshape_result', nullary_result_ne', unary_result_ne', binary_result_ne', ternary_result_ne', reshape_result_ne',
    concatenate_pair]
  rw [hscores, hcoords]
  rfl

end Cert.Tail

end
-- ==== Proof.TailAgree.lean ====
/-
  The two programs' closing host operations agree on their three results — the gathered feature array, the gathered
  coordinate array and the row test — whenever they agree on the score, feature and coordinate arrays they start from.
-/
import proofs.«161362_j33285996544161_1_alg».proof.Proof.TailAgreeA
import proofs.«161362_j33285996544161_1_alg».proof.Proof.TailAgreeB
-- ==== Proof.lean ====
/-
  The certificate's five claims.

  Both programs compute, for every point (a row of 640 features), a score — the logistic function of a two-layer
  perceptron's logit — and 128 output features — the row scaled by its score, projected and shifted —, and then apply the
  same host operations to the score array, the feature array and the coordinate array: a threshold on the scores, a
  running count of the selected points, each selected point's destination slot, two scatters into zero arrays and a mask.
  On the extended reals the kernel's blockwise matrix products into zero accumulators and the reference's contractions
  over the whole arrays are the same finite sums, the formats' changes are the identity, and the kernel's logistic
  operation is the reference's `1 / (1 + exp (-x))`; so the two score arrays and the two feature arrays are equal, and
  equal inputs to the same later operations give equal results. Nothing in the comparison needs the inputs finite.
  The frames: the kernel's programs by the library's theorem for a region continued by host lines (the body stores
  whole blocks of its two results and nothing else); the reference is a straight line of host operations, none of which
  writes an argument. The idealization rewrote no operation, so nothing is to be preserved.
-/
import proofs.«161362_j33285996544161_1_alg».proof.Defs
import proofs.«161362_j33285996544161_1_alg».proof.Proof.Gen.Kernel
import proofs.«161362_j33285996544161_1_alg».proof.Proof.Gen.KernelIdeal
import proofs.«161362_j33285996544161_1_alg».proof.Proof.Gen.ReferenceIdeal
import proofs.«161362_j33285996544161_1_alg».proof.Proof.Gen.Pre_finite_inputs
import proofs.«161362_j33285996544161_1_alg».proof.Proof.KFrame
import proofs.«161362_j33285996544161_1_alg».proof.Proof.KIFrame
import proofs.«161362_j33285996544161_1_alg».proof.Proof.KIOut
import proofs.«161362_j33285996544161_1_alg».proof.Proof.KIValue
import proofs.«161362_j33285996544161_1_alg».proof.Proof.RefRun
import proofs.«161362_j33285996544161_1_alg».proof.Proof.RefKeeps
import proofs.«161362_j33285996544161_1_alg».proof.Proof.RefPrefix
import proofs.«161362_j33285996544161_1_alg».proof.Proof.RefSpec
import proofs.«161362_j33285996544161_1_alg».proof.Proof.TailAgree
import Idealize.ShloMosaic.Adequacy
import Idealize.ShloMosaic.Init

set_option maxRecDepth 16384

noncomputable section

namespace Cert.Proof

open Idealize.ShloMosaic Idealize.ShloMosaic.TcCoe Idealize.SL.Sem

/-- The kernel's program as printed runs to the end without a fault and leaves its arguments as launched. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference is a straight line of host operations none of which writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Hand.keeps_arg0 _),
     (h c Cert.ReferenceIdeal.main_arg1).trans (Cert.ReferenceIdeal.Hand.keeps_arg1 _),
     (h c Cert.ReferenceIdeal.main_arg2).trans (Cert.ReferenceIdeal.Hand.keeps_arg2 _),
     (h c Cert.ReferenceIdeal.main_arg3).trans (Cert.ReferenceIdeal.Hand.keeps_arg3 _),
     (h c Cert.ReferenceIdeal.main_arg4).trans (Cert.ReferenceIdeal.Hand.keeps_arg4 _),
     (h c Cert.ReferenceIdeal.main_arg5).trans (Cert.ReferenceIdeal.Hand.keeps_arg5 _),
     (h c Cert.ReferenceIdeal.main_arg6).trans (Cert.ReferenceIdeal.Hand.keeps_arg6 _),
     (h c Cert.ReferenceIdeal.main_arg7).trans (Cert.ReferenceIdeal.Hand.keeps_arg7 _)⟩)
    (Cert.ReferenceIdeal.Hand.run (F := Ideal) m ρ)

/-- The idealization rewrote no operation. -/
theorem preserves : Cert.preserves_Kernel_KernelIdeal := trivial

section Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- From memories agreeing on the arguments, the feature array the kernel's region leaves is the one the reference's
    first operations compute: both are the specification's feature array of the arguments. -/
theorem feats_agree
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    (Cert.KernelIdeal.Out.WK m c (Proc.devRef .tc Cert.KernelIdeal.main_v0_0) : FVec Ideal Cert.KernelIdeal.S8x16384x128 .f32)
      = StableHlo.after Cert.ReferenceIdeal.Hand.opsP (StableHlo.launchContents m' c) (Proc.devRef .tc Cert.ReferenceIdeal.main_v20) := by
  rw [Cert.KernelIdeal.Out.WK_feats, Cert.KernelIdeal.Val.final7, Cert.ReferenceIdeal.Hand.prefix_v20,
    Cert.ReferenceIdeal.Terms.refFeats_eq]
  have e0 : StableHlo.launchContents m' c (Proc.devRef .tc Cert.ReferenceIdeal.main_arg0) = Cert.KernelIdeal.Fr.V m c Cert.KernelIdeal.main_arg0 := h0
  have e2 : StableHlo.launchContents m' c (Proc.devRef .tc Cert.ReferenceIdeal.main_arg2) = Cert.KernelIdeal.Fr.V m c Cert.KernelIdeal.main_arg2 := h2
  have e3 : StableHlo.launchContents m' c (Proc.devRef .tc Cert.ReferenceIdeal.main_arg3) = Cert.KernelIdeal.Fr.V m c Cert.KernelIdeal.main_arg3 := h3
  have e4 : StableHlo.launchContents m' c (Proc.devRef .tc Cert.ReferenceIdeal.main_arg4) = Cert.KernelIdeal.Fr.V m c Cert.KernelIdeal.main_arg4 := h4
  have e5 : StableHlo.launchContents m' c (Proc.devRef .tc Cert.ReferenceIdeal.main_arg5) = Cert.KernelIdeal.Fr.V m c Cert.KernelIdeal.main_arg5 := h5
  have e6 : StableHlo.launchContents m' c (Proc.devRef .tc Cert.ReferenceIdeal.main_arg6) = Cert.KernelIdeal.Fr.V m c Cert.KernelIdeal.main_arg6 := h6
  have e7 : StableHlo.launchContents m' c (Proc.devRef .tc Cert.ReferenceIdeal.main_arg7) = Cert.KernelIdeal.Fr.V m c Cert.KernelIdeal.main_arg7 := h7
  rw [e0, e2, e3, e4, e5, e6, e7]

/-- Likewise the score arrays. -/
theorem scores_agree
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (Cert.KernelIdeal.Out.WK m c (Proc.devRef .tc Cert.KernelIdeal.main_v0_1) : FVec Ideal Cert.KernelIdeal.S8x16384x1 .f32)
      = StableHlo.after Cert.ReferenceIdeal.Hand.opsP (StableHlo.launchContents m' c) (Proc.devRef .tc Cert.ReferenceIdeal.main_v14) := by
  rw [Cert.KernelIdeal.Out.WK_scores, Cert.KernelIdeal.Val.final8, Cert.ReferenceIdeal.Hand.prefix_v14,
    Cert.ReferenceIdeal.Terms.refScores_eq]
  have e0 : StableHlo.launchContents m' c (Proc.devRef .tc Cert.ReferenceIdeal.main_arg0) = Cert.KernelIdeal.Fr.V m c Cert.KernelIdeal.main_arg0 := h0
  have e2 : StableHlo.launchContents m' c (Proc.devRef .tc Cert.ReferenceIdeal.main_arg2) = Cert.KernelIdeal.Fr.V m c Cert.KernelIdeal.main_arg2 := h2
  have e3 : StableHlo.launchContents m' c (Proc.devRef .tc Cert.ReferenceIdeal.main_arg3) = Cert.KernelIdeal.Fr.V m c Cert.KernelIdeal.main_arg3 := h3
  have e4 : StableHlo.launchContents m' c (Proc.devRef .tc Cert.ReferenceIdeal.main_arg4) = Cert.KernelIdeal.Fr.V m c Cert.KernelIdeal.main_arg4 := h4
  have e5 : StableHlo.launchContents m' c (Proc.devRef .tc Cert.ReferenceIdeal.main_arg5) = Cert.KernelIdeal.Fr.V m c Cert.KernelIdeal.main_arg5 := h5
  rw [e0, e2, e3, e4, e5]

/-- And the coordinate array is the launched one on both sides. -/
theorem coords_agree (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (Cert.KernelIdeal.Out.WK m c (Proc.devRef .tc Cert.KernelIdeal.main_arg1) : FVec Ideal Cert.KernelIdeal.S8x16384x3 .f32)
      = StableHlo.after Cert.ReferenceIdeal.Hand.opsP (StableHlo.launchContents m' c) (Proc.devRef .tc Cert.ReferenceIdeal.main_arg1) := by
  rw [Cert.KernelIdeal.Out.WK_coords, Cert.ReferenceIdeal.Hand.prefix_keeps_arg1]
  exact h1.symm

end Agree

/-- On the extended reals, from memories agreeing on the arguments, both programs run and end with equal results:
    the later host operations are the same on both sides and start from equal score, feature and coordinate arrays. -/
theorem algebraic : Cert.algebraic_KernelIdeal_ReferenceIdeal := by
  intro m ρ m' ρ' _ hagree
  refine ⟨fun c => StableHlo.after (Cert.KernelIdeal.Fr.tailOpss (F := Ideal)).flatten (Cert.KernelIdeal.Out.WK m c) (Proc.devRef .tc Cert.KernelIdeal.main_v26),
    fun c => StableHlo.after (Cert.KernelIdeal.Fr.tailOpss (F := Ideal)).flatten (Cert.KernelIdeal.Out.WK m c) (Proc.devRef .tc Cert.KernelIdeal.main_v42),
    fun c => StableHlo.after (Cert.KernelIdeal.Fr.tailOpss (F := Ideal)).flatten (Cert.KernelIdeal.Out.WK m c) (Proc.devRef .tc Cert.KernelIdeal.main_v48),
    Cert.KernelIdeal.Out.run_out m ρ, ?_⟩
  refine (θ_run Cert.ReferenceIdeal.defs _ _).mono (fun _ h c => ?_) (Cert.ReferenceIdeal.Hand.run (F := Ideal) m' ρ')
  obtain ⟨a0, a1, a2, a3, a4, a5, a6, a7⟩ := hagree c
  have hf := feats_agree m m' c a0 a2 a3 a4 a5 a6 a7
  have hs := scores_agree m m' c a0 a2 a3 a4 a5
  have hc := coords_agree m m' c a1
  exact ⟨(h c Cert.ReferenceIdeal.main_v46).trans (Cert.Tail.tail_v26 _ _ hf hs hc).symm,
    (h c Cert.ReferenceIdeal.main_v62).trans (Cert.Tail.tail_v42 _ _ hf hs hc).symm,
    (h c Cert.ReferenceIdeal.main_v68).trans (Cert.Tail.tail_v48 _ _ hf hs hc).symm,
    (h c Cert.ReferenceIdeal.main_arg0).trans (Cert.ReferenceIdeal.Hand.keeps_arg0 _),
    (h c Cert.ReferenceIdeal.main_arg1).trans (Cert.ReferenceIdeal.Hand.keeps_arg1 _),
    (h c Cert.ReferenceIdeal.main_arg2).trans (Cert.ReferenceIdeal.Hand.keeps_arg2 _),
    (h c Cert.ReferenceIdeal.main_arg3).trans (Cert.ReferenceIdeal.Hand.keeps_arg3 _),
    (h c Cert.ReferenceIdeal.main_arg4).trans (Cert.ReferenceIdeal.Hand.keeps_arg4 _),
    (h c Cert.ReferenceIdeal.main_arg5).trans (Cert.ReferenceIdeal.Hand.keeps_arg5 _),
    (h c Cert.ReferenceIdeal.main_arg6).trans (Cert.ReferenceIdeal.Hand.keeps_arg6 _),
    (h c Cert.ReferenceIdeal.main_arg7).trans (Cert.ReferenceIdeal.Hand.keeps_arg7 _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
